-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1x1x2048x2048 : Shape := ⟨4, ![1, 1, 2048, 2048]⟩
abbrev S1x2048x32 : Shape := ⟨3, ![1, 2048, 32]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_
  bcast_S_S1x2048x32 : S_.BroadcastsInDim S1x2048x32 (![] : Fin 0 → Fin S1x2048x32.rank)
  reducesTo_S1x2048x32_S_d0_1_2 : S1x2048x32.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S1x2048x32 1) : IVec S_ 1 :=
  let main_c_5 : IVec S_ 1 := constantI S_ 1 1#1
  let main_v17 : IVec S_ 1 := (fun x v => Host.reduce IntOp.andi x v reducesTo_S1x2048x32_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2x2048x1024 .f32) (main_arg1 : FVec F S1x1x2048x2048 .f32) (main_arg2 : FVec F S1x2048x32 .f32) (main_arg3 : FVec F S1x2048x32 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1x2048x2048 .f32 := Host.absf main_arg1
  let main_cst_0 : FVec F S_ .f32 := constant S_ .f32 0x7F800000#32
  let main_v5 : FVec F S1x1x2048x2048 .f32 := broadcastInDim S1x1x2048x2048 ![] bcast_S_S1x1x2048x2048 main_cst_0
  let main_v6 : IVec S1x1x2048x2048 1 := cmpf .olt main_v4 main_v5
  let main_c_1 : IVec S_ 1 := constantI S_ 1 1#1
  let main_v7 : IVec S_ 1 := (fun x v => Host.reduce IntOp.andi x v reducesTo_S1x1x2048x2048_S_d0_1_2_3 h_S_) main_v6 main_c_1
  let main_v8 : IVec S_ 1 := andi main_v3 main_v7
  let main_v9 : FVec F S1x2048x32 .f32 := Host.absf main_arg2
  let main_cst_2 : FVec F S_ .f32 := constant S_ .f32 0x7F800000#32
  let main_v10 : FVec F S1x2048x32 .f32 := broadcastInDim S1x2048x32 ![] bcast_S_S1x2048x32 main_cst_2
  let main_v11 : IVec S1x2048x32 1 := cmpf .olt main_v9 main_v10
  let main_c_3 : IVec S_ 1 := constantI S_ 1 1#1
  let main_v12 : IVec S_ 1 := (fun x v => Host.reduce IntOp.andi x v reducesTo_S1x2048x32_S_d0_1_2 h_S_) main_v11 main_c_3
  let main_v13 : IVec S_ 1 := andi main_v8 main_v12
  let main_v14 : FVec F S1x2048x32 .f32 := Host.absf main_arg3
  let main_cst_4 : FVec F S_ .f32 := constant S_ .f32 0x7F800000#32
  let main_v15 : FVec F S1x2048x32 .f32 := broadcastInDim S1x2048x32 ![] bcast_S_S1x2048x32 main_cst_4
  let main_v16 : IVec S1x2048x32 1 := cmpf .olt main_v14 main_v15
  fn_part1 (F := F) main_arg4 main_arg5 main_arg6 main_arg7 main_arg8 main_arg9 main_arg10 main_arg11 main_v13 main_v16
-- ==== Kernel.lean ====
abbrev S2x2048x1024 : Shape := ⟨3, ![2, 2048, 1024]⟩
abbrev S1x1x2048x2048 : Shape := ⟨4, ![1, 1, 2048, 2048]⟩
abbrev S1x2048x32 : Shape := ⟨3, ![1, 2048, 32]⟩
abbrev S1024x1024 : Shape := ⟨2, ![1024, 1024]⟩
abbrev S1024 : Shape := ⟨1, ![1024]⟩
abbrev S4096x1024 : Shape := ⟨2, ![4096, 1024]⟩
abbrev S3072x1024 : Shape := ⟨2, ![3072, 1024]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S2048x32 : Shape := ⟨2, ![2048, 32]⟩
abbrev S2048x2048 : Shape := ⟨2, ![2048, 2048]⟩
abbrev S32x2048x2048 : Shape := ⟨3, ![32, 2048, 2048]⟩
abbrev S1x256x64 : Shape := ⟨3, ![1, 256, 64]⟩
abbrev S1x2048x64 : Shape := ⟨3, ![1, 2048, 64]⟩
abbrev S256x32 : Shape := ⟨2, ![256, 32]⟩
abbrev S256x2048 : Shape := ⟨2, ![256, 2048]⟩
abbrev S1x256x2048 : Shape := ⟨3, ![1, 256, 2048]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩
abbrev S2x16x2048x2048 : Shape := ⟨4, ![2, 16, 2048, 2048]⟩
abbrev S1x1024 : Shape := ⟨2, ![1, 1024]⟩

abbrev nBuf : Space → Nat
  | .hbm => 42
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .f32⟩
  | .hbm, ⟨2, _⟩ => ⟨S1x2048x32, .f32⟩
  | .hbm, ⟨3, _⟩ => ⟨S1x2048x32, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4096x1024, .f32⟩
  | .hbm, ⟨13, _⟩ => ⟨S3072x1024, .f32⟩
  | .hbm, ⟨14, _⟩ => ⟨S3072x1024, .bf16⟩
  | .hbm, ⟨15, _⟩ => ⟨S3072, .f32⟩
  | .hbm, ⟨16, _⟩ => ⟨S1x3072, .f32⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S2x2048x16x64, .bf16⟩
  | .hbm, ⟨21, _⟩ => ⟨S2x16x2048x64, .bf16⟩
  | .hbm, ⟨22, _⟩ => ⟨S32x2048x64, .bf16⟩
  | .hbm, ⟨23, _⟩ => ⟨S2x2048x16x64, .bf16⟩
  | .hbm, ⟨24, _⟩ => ⟨S2x16x2048x64, .bf16⟩
  | .hbm, ⟨25, _⟩ => ⟨S32x2048x64, .bf16⟩
  | .hbm, ⟨26, _⟩ => ⟨S2x2048x16x64, .bf16⟩
  | .hbm, ⟨27, _⟩ => ⟨S2x16x2048x64, .bf16⟩
  | .hbm, ⟨28, _⟩ => ⟨S32x2048x64, .bf16⟩
  | .hbm, ⟨29, _⟩ => ⟨S2048x32, .f32⟩
  | .hbm, ⟨30, _⟩ => ⟨S2048x32, .f32⟩
  | .hbm, ⟨31, _⟩ => ⟨S2048x2048, .f32⟩
  | .hbm, ⟨32, _⟩ => ⟨S32x2048x2048, .f32⟩
  | .hbm, ⟨33, _⟩ => ⟨S32x2048x64, .bf16⟩
  | .hbm, ⟨34, _⟩ => ⟨S2x16x2048x2048, .f32⟩
  | .hbm, ⟨35, _⟩ => ⟨S2x16x2048x64, .bf16⟩
  | .hbm, ⟨36, _⟩ => ⟨S2x2048x16x64, .bf16⟩
  | .hbm, ⟨37, _⟩ => ⟨S4096x1024, .bf16⟩
  | .hbm, ⟨38, _⟩ => ⟨S1024x1024, .bf16⟩
  | .hbm, ⟨39, _⟩ => ⟨S1x1024, .f32⟩
  | .hbm, ⟨40, _⟩ => ⟨S4096x1024, .f32⟩
  | .hbm, ⟨41, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x256x64, .bf16⟩
  | .local _ .vmem, ⟨11, _⟩ => ⟨S1x256x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S256x32, .f32⟩
  | .local _ .vmem, ⟨17, _⟩ => ⟨S256x32, .f32⟩
  | .local _ .vmem, ⟨18, _⟩ => ⟨S256x32, .f32⟩
  | .local _ .vmem, ⟨19, _⟩ => ⟨S256x32, .f32⟩
  | .local _ .vmem, ⟨20, _⟩ => ⟨S2048x32, .f32⟩
  | .local _ .vmem, ⟨21, _⟩ => ⟨S2048x32, .f32⟩
  | .local _ .vmem, ⟨22, _⟩ => ⟨S256x2048, .f32⟩
  | .local _ .vmem, ⟨23, _⟩ => ⟨S256x2048, .f32⟩
  | .local _ .vmem, ⟨24, _⟩ => ⟨S1x256x2048, .f32⟩
  | .local _ .vmem, ⟨25, _⟩ => ⟨S1x256x2048, .f32⟩
  | .local _ .vmem, ⟨26, _⟩ => ⟨S1x256x64, .bf16⟩
  | .local _ .vmem, ⟨27, _⟩ => ⟨S1x256x64, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S2048x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2048x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x256x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  shapeCasts_S1x2048x32_S2048x32 : S1x2048x32.ShapeCasts S2048x32
  shapeCasts_S1x1x2048x2048_S2048x2048 : S1x1x2048x2048.ShapeCasts S2048x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  slices_S256x64_o0_0_S256x32 : S256x64.Slices ![0, 0] S256x32
  slices_S256x64_o0_32_S256x32 : S256x64.Slices ![0, 32] S256x32
  slices_S2048x64_o0_0_S2048x32 : S2048x64.Slices ![0, 0] S2048x32
  slices_S2048x64_o0_32_S2048x32 : S2048x64.Slices ![0, 32] S2048x32
  concatenates_S256x32_S256x32_S256x64_d1 : Shape.Concatenates [S256x32, S256x32] S256x64 1
  concatenates_S2048x32_S2048x32_S2048x64_d1 : Shape.Concatenates [S2048x32, S2048x32] S2048x64 1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  packedbf16_S1x256x64_S1x256x64_0_0_0 : (Rect.unit (s := S1x256x64) ![0, 0, 0] S1x256x64.size inb_S1x256x64_S1x256x64_0_0_0).PackedRows (EltTy.packing .bf16)
  shapeCasts_S32x2048x2048_S2x16x2048x2048 : S32x2048x2048.ShapeCasts S2x16x2048x2048
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S3072x1024_S512x3072_1_1_0_0_n_n_wf : DotDims.WF S512x1024 S3072x1024 S512x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S32x2048x64.size a
  hwx1_0 : ∀ i : grid1.Coords, EltTy.bits .bf16 = 32 ∨ (Rect.block (s := S32x2048x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x32.size a ≤ S2048x32.size a
  hwx1_3 : ∀ i : grid1.Coords, EltTy.bits .f32 = 32 ∨ (Rect.block (s := S2048x32) S256x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x32.size a ≤ S2048x32.size a
  hwx1_4 : ∀ i : grid1.Coords, EltTy.bits .f32 = 32 ∨ (Rect.block (s := S2048x32) S256x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x32.size a ≤ S2048x32.size a
  hwx1_5 : ∀ i : grid1.Coords, EltTy.bits .f32 = 32 ∨ (Rect.block (s := S2048x32) S2048x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x32.size a ≤ S2048x32.size a
  hwx1_6 : ∀ i : grid1.Coords, EltTy.bits .f32 = 32 ∨ (Rect.block (s := S2048x32) S2048x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S2048x2048.size a
  hwx1_7 : ∀ i : grid1.Coords, EltTy.bits .f32 = 32 ∨ (Rect.block (s := S2048x2048) S256x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x256x2048.size a ≤ S32x2048x2048.size a
  hwx1_8 : ∀ i : grid1.Coords, EltTy.bits .f32 = 32 ∨ (Rect.block (s := S32x2048x2048) S1x256x2048.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x256x64.size a ≤ S32x2048x64.size a
  hwx1_9 : ∀ i : grid1.Coords, EltTy.bits .bf16 = 32 ∨ (Rect.block (s := S32x2048x64) S1x256x64.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S256x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S2048x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S2048x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S256x2048.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v18_0) S1x256x2048.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v18_1) S1x256x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v22) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1x1x2048x2048 : Shape := ⟨4, ![1, 1, 2048, 2048]⟩
abbrev S1x2048x32 : Shape := ⟨3, ![1, 2048, 32]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S1x1x2048x32 : Shape := ⟨4, ![1, 1, 2048, 32]⟩
abbrev S2x16x2048x32 : Shape := ⟨4, ![2, 16, 2048, 32]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 86
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .f32⟩
  | .hbm, ⟨2, _⟩ => ⟨S1x2048x32, .f32⟩
  | .hbm, ⟨3, _⟩ => ⟨S1x2048x32, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2x2048x1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S2x2048x16x64, .f32⟩
  | .hbm, ⟨17, _⟩ => ⟨S2x16x2048x64, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x16x64, .f32⟩
  | .hbm, ⟨23, _⟩ => ⟨S2x16x2048x64, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x16x64, .f32⟩
  | .hbm, ⟨29, _⟩ => ⟨S2x16x2048x64, .f32⟩
  | .hbm, ⟨30, _⟩ => ⟨S1x1x2048x32, .f32⟩
  | .hbm, ⟨31, _⟩ => ⟨S1x1x2048x32, .f32⟩
  | .hbm, ⟨32, _⟩ => ⟨S2x16x2048x32, .f32⟩
  | .hbm, ⟨33, _⟩ => ⟨S2x16x2048x32, .f32⟩
  | .hbm, ⟨34, _⟩ => ⟨S2x16x2048x32, .f32⟩
  | .hbm, ⟨35, _⟩ => ⟨S2x16x2048x32, .f32⟩
  | .hbm, ⟨36, _⟩ => ⟨S2x16x2048x32, .f32⟩
  | .hbm, ⟨37, _⟩ => ⟨S2x16x2048x32, .f32⟩
  | .hbm, ⟨38, _⟩ => ⟨S2x16x2048x32, .f32⟩
  | .hbm, ⟨39, _⟩ => ⟨S2x16x2048x32, .f32⟩
  | .hbm, ⟨40, _⟩ => ⟨S2x16x2048x32, .f32⟩
  | .hbm, ⟨41, _⟩ => ⟨S2x16x2048x32, .f32⟩
  | .hbm, ⟨42, _⟩ => ⟨S2x16x2048x32, .f32⟩
  | .hbm, ⟨43, _⟩ => ⟨S2x16x2048x32, .f32⟩
  | .hbm, ⟨44, _⟩ => ⟨S2x16x2048x32, .f32⟩
  | .hbm, ⟨45, _⟩ => ⟨S2x16x2048x32, .f32⟩
  | .hbm, ⟨46, _⟩ => ⟨S2x16x2048x64, .f32⟩
  | .hbm, ⟨47, _⟩ => ⟨S2x16x2048x32, .f32⟩
  | .hbm, ⟨48, _⟩ => ⟨S2x16x2048x32, .f32⟩
  | .hbm, ⟨49, _⟩ => ⟨S2x16x2048x32, .f32⟩
  | .hbm, ⟨50, _⟩ => ⟨S2x16x2048x32, .f32⟩
  | .hbm, ⟨51, _⟩ => ⟨S2x16x2048x32, .f32⟩
  | .hbm, ⟨52, _⟩ => ⟨S2x16x2048x32, .f32⟩
  | .hbm, ⟨53, _⟩ => ⟨S2x16x2048x32, .f32⟩
  | .hbm, ⟨54, _⟩ => ⟨S2x16x2048x32, .f32⟩
  | .hbm, ⟨55, _⟩ => ⟨S2x16x2048x32, .f32⟩
  | .hbm, ⟨56, _⟩ => ⟨S2x16x2048x32, .f32⟩
  | .hbm, ⟨57, _⟩ => ⟨S2x16x2048x64, .f32⟩
  | .hbm, ⟨58, _⟩ => ⟨S2x16x2048x2048, .f32⟩
  | .hbm, ⟨59, _⟩ => ⟨S_, .f32⟩
  | .hbm, ⟨60, _⟩ => ⟨S_, .f32⟩
  | .hbm, ⟨61, _⟩ => ⟨S2x16x2048x2048, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S_, .f32⟩
  | .hbm, ⟨66, _⟩ => ⟨S2x16x2048, .f32⟩
  | .hbm, ⟨67, _⟩ => ⟨S_, .f32⟩
  | .hbm, ⟨68, _⟩ => ⟨S2x16x2048, .f32⟩
  | .hbm, ⟨69, _⟩ => ⟨S2x16x2048, .f32⟩
  | .hbm, ⟨70, _⟩ => ⟨S2x16x2048x1, .f32⟩
  | .hbm, ⟨71, _⟩ => ⟨S2x16x2048x2048, .f32⟩
  | .hbm, ⟨72, _⟩ => ⟨S2x16x2048x2048, .f32⟩
  | .hbm, ⟨73, _⟩ => ⟨S2x16x2048x2048, .f32⟩
  | .hbm, ⟨74, _⟩ => ⟨S_, .f32⟩
  | .hbm, ⟨75, _⟩ => ⟨S2x16x2048, .f32⟩
  | .hbm, ⟨76, _⟩ => ⟨S2x16x2048x1, .f32⟩
  | .hbm, ⟨77, _⟩ => ⟨S2x16x2048x2048, .f32⟩
  | .hbm, ⟨78, _⟩ => ⟨S2x16x2048x2048, .f32⟩
  | .hbm, ⟨79, _⟩ => ⟨S2x16x2048x64, .f32⟩
  | .hbm, ⟨80, _⟩ => ⟨S2x2048x16x64, .f32⟩
  | .hbm, ⟨81, _⟩ => ⟨S2x2048x1024, .f32⟩
  | .hbm, ⟨82, _⟩ => ⟨S2x2048x1024, .f32⟩
  | .hbm, ⟨83, _⟩ => ⟨S1x1x1024, .f32⟩
  | .hbm, ⟨84, _⟩ => ⟨S2x2048x1024, .f32⟩
  | .hbm, ⟨85, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_0 : Ref sig .tc := ⟨.hbm, 65, rfl⟩
abbrev main_v52 : Ref sig .tc := ⟨.hbm, 66, rfl⟩
abbrev main_cst_1 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_2 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S1x2048x32_S1x1x2048x32_0_2_3 : S1x2048x32.BroadcastsInDim S1x1x2048x32 (![0, 2, 3] : Fin 3 → Fin S1x1x2048x32.rank)
  slices_S2x16x2048x64_S2x16x2048x32_0_0_0_0 : S2x16x2048x64.Slices ![0, 0, 0, 0] S2x16x2048x32
  slices_S2x16x2048x64_S2x16x2048x32_0_0_0_32 : S2x16x2048x64.Slices ![0, 0, 0, 32] S2x16x2048x32
  bcast_S1x1x2048x32_S2x16x2048x32_0_1_2_3 : S1x1x2048x32.BroadcastsInDim S2x16x2048x32 (![0, 1, 2, 3] : Fin 4 → Fin S2x16x2048x32.rank)
  concatenates_S2x16x2048x32_S2x16x2048x32_S2x16x2048x64_d3 : Shape.Concatenates [S2x16x2048x32, S2x16x2048x32] S2x16x2048x64 3
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Region0B.lean ====
/-
  Region 0 of the program: the fused projection kernel, one grid point per block of 512 rows of the
  flattened input. At a point the body reads its three input blocks whole — 512 rows of the input, the stacked
  [3072, 1024] weights, the [1, 3072] bias row — and overwrites each of its three output blocks whole with a
  pure function of those reads (a column third of rows·weightsᵀ + bias). So every output buffer after the body
  is ONE piece covering the block, the input buffers are left as found, and the pipeline's proof data records,
  point by point, exactly that: an input window's buffer holds its block of the array as the region found it,
  an output window's holds the payload of the point's input blocks.
-/
import proofs.«145299_j26654567039014_2_alg».proof.Proof.Gen.Kernel.Launch
import proofs.«145299_j26654567039014_2_alg».proof.Proof.Gen.Kernel.Skeleton
import proofs.«145299_j26654567039014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (where it is not
    fetched its block index has not moved), for any proof data over the region-entry arrays whose body leaves
    the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S512x1024 := Rect.unit (s := S512x1024) ![0, 0] S512x1024.size inb_S512x1024_S512x1024_0_0
abbrev rW0 : Rect S3072x1024 := Rect.unit (s := S3072x1024) ![0, 0] S3072x1024.size inb_S3072x1024_S3072x1024_0_0
abbrev rB0 : Rect S1x3072 := Rect.unit (s := S1x3072) ![0, 0] S1x3072.size inb_S1x3072_S1x3072_0_0

/-! ## What the body leaves in each output window's buffer: one piece, the payload of the three reads -/

def out0_3 (x0 : Vec F S512x1024 .f32) (x1 : Vec F S3072x1024 .bf16) (x2 : Vec F S1x3072 .f32) : Vec F S512x1024 .bf16 :=
  View.canon [⟨rX0, k0_pay2 (View.ld x0 rX0) (View.ld x1 rW0) (View.ld x2 rB0)⟩]
def out0_4 (x0 : Vec F S512x1024 .f32) (x1 : Vec F S3072x1024 .bf16) (x2 : Vec F S1x3072 .f32) : Vec F S512x1024 .bf16 :=
  View.canon [⟨rX0, k0_pay3 (View.ld x0 rX0) (View.ld x1 rW0) (View.ld x2 rB0)⟩]
def out0_5 (x0 : Vec F S512x1024 .f32) (x1 : Vec F S3072x1024 .bf16) (x2 : Vec F S1x3072 .f32) : Vec F S512x1024 .bf16 :=
  View.canon [⟨rX0, k0_pay4 (View.ld x0 rX0) (View.ld x1 rW0) (View.ld x2 rB0)⟩]

/-- A store of the whole buffer covers it. -/
theorem cover0 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The body's triple -/

set_option maxHeartbeats 1000000 in
/-- The kernel body on whole staging memrefs, the inputs' at contents `x0 x1 x2` and the outputs' at anything, runs to
    the continuation with the inputs' as they were and each output's at its payload of the inputs. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- Pipeline 0's proof data on core `c`: the arrays as the region finds them; after the body at point `t` each input's
    buffer at its block, each output's at its payload of the point's input blocks; the invariant carries only the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Region1B.lean ====
/-
  Region 1 of the program: the attention kernel, one grid point per (block of 256 query rows, head). At a point
  the body reads its eight input blocks whole — the head's 256 query rows, all 2048 key rows and value rows, the
  cosine and sine tables' rows for the query block and for every key position, the mask's 256 rows — and
  overwrites its two output blocks whole: the 256 × 2048 attention weights (the row softmax of the scaled rotated
  scores plus mask) and the 256 × 64 context rows (weights · values). Each output is one piece, a pure function of
  the point's input blocks; the inputs are left as found. The cosine table is handed to the kernel through two
  windows, and so is the sine table: each of those windows holds HALF of its array's read share.
-/
import proofs.«145299_j26654567039014_2_alg».proof.Proof.Gen.Kernel.Launch
import proofs.«145299_j26654567039014_2_alg».proof.Proof.Gen.Kernel.Skeleton
import proofs.«145299_j26654567039014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (where it is not
    fetched its block index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rQ1 : Rect S1x256x64 := Rect.unit (s := S1x256x64) ![0, 0, 0] S1x256x64.size inb_S1x256x64_S1x256x64_0_0_0
abbrev rK1 : Rect S1x2048x64 := Rect.unit (s := S1x2048x64) ![0, 0, 0] S1x2048x64.size inb_S1x2048x64_S1x2048x64_0_0_0
abbrev rC1 : Rect S256x32 := Rect.unit (s := S256x32) ![0, 0] S256x32.size inb_S256x32_S256x32_0_0
abbrev rD1 : Rect S2048x32 := Rect.unit (s := S2048x32) ![0, 0] S2048x32.size inb_S2048x32_S2048x32_0_0
abbrev rM1 : Rect S256x2048 := Rect.unit (s := S256x2048) ![0, 0] S256x2048.size inb_S256x2048_S256x2048_0_0
abbrev rA1 : Rect S1x256x2048 := Rect.unit (s := S1x256x2048) ![0, 0, 0] S1x256x2048.size inb_S1x256x2048_S1x256x2048_0_0_0

/-! ## What the body leaves in each output window's buffer: one piece, a payload of the eight reads -/

/-- The attention weights' block. -/
def out1_8 (x0 : Vec F S1x256x64 .bf16) (x1 : Vec F S1x2048x64 .bf16) (x2 : Vec F S1x2048x64 .bf16) (x3 : Vec F S256x32 .f32) (x4 : Vec F S256x32 .f32) (x5 : Vec F S2048x32 .f32) (x6 : Vec F S2048x32 .f32) (x7 : Vec F S256x2048 .f32) : Vec F S1x256x2048 .f32 :=
  View.canon [⟨rA1, k1_pay2 (k1_pay5 (View.ld x0 rQ1) (View.ld x1 rK1) (View.ld x3 rC1) (View.ld x4 rC1) (View.ld x5 rD1) (View.ld x6 rD1)) (View.ld x7 rM1)⟩]
/-- The context rows' block. -/
def out1_9 (x0 : Vec F S1x256x64 .bf16) (x1 : Vec F S1x2048x64 .bf16) (x2 : Vec F S1x2048x64 .bf16) (x3 : Vec F S256x32 .f32) (x4 : Vec F S256x32 .f32) (x5 : Vec F S2048x32 .f32) (x6 : Vec F S2048x32 .f32) (x7 : Vec F S256x2048 .f32) : Vec F S1x256x64 .bf16 :=
  View.canon [⟨rQ1, k1_pay3 (k1_pay4 (View.ld x2 rK1)) (k1_pay5 (View.ld x0 rQ1) (View.ld x1 rK1) (View.ld x3 rC1) (View.ld x4 rC1) (View.ld x5 rD1) (View.ld x6 rD1)) (View.ld x7 rM1)⟩]

/-- A store of the whole buffer covers it. -/
theorem cover1_8 (p0 : Vec F S1x256x2048 .f32) (y : S1x256x2048.Idx) :
    ∃ pc ∈ ([⟨rA1, p0⟩] : List (View.Piece (Elt F) S1x256x2048 .f32)), y ∈ pc.1.set :=
  View.cover_of_tiled [⟨rA1, p0⟩] S1x256x2048.size (by rfl) y
theorem cover1_9 (p0 : Vec F S1x256x64 .bf16) (y : S1x256x64.Idx) :
    ∃ pc ∈ ([⟨rQ1, p0⟩] : List (View.Piece (Elt F) S1x256x64 .bf16)), y ∈ pc.1.set :=
  View.cover_of_tiled [⟨rQ1, p0⟩] S1x256x64.size (by rfl) y

/-! ## The body's triple -/

set_option maxHeartbeats 2000000 in
/-- The kernel body on whole staging memrefs, the inputs' at contents `x0 … x7` and the outputs' at anything, runs to
    the continuation with the inputs' as they were and each output's at its payload of the inputs. -/
theorem sound_kernel1 (c : Dev nD) (E : Set ℕ) (i : grid1.Coords)
    (arg2 : Memref sig .tc .vmem S1x256x64 .bf16) (harg2 : arg2.IsWhole)
    (arg3 : Memref sig .tc .vmem S1x2048x64 .bf16) (harg3 : arg3.IsWhole)
    (arg4 : Memref sig .tc .vmem S1x2048x64 .bf16) (harg4 : arg4.IsWhole)
    (arg5 : Memref sig .tc .vmem S256x32 .f32) (harg5 : arg5.IsWhole)
    (arg6 : Memref sig .tc .vmem S256x32 .f32) (harg6 : arg6.IsWhole)
    (arg7 : Memref sig .tc .vmem S2048x32 .f32) (harg7 : arg7.IsWhole)
    (arg8 : Memref sig .tc .vmem S2048x32 .f32) (harg8 : arg8.IsWhole)
    (arg9 : Memref sig .tc .vmem S256x2048 .f32) (harg9 : arg9.IsWhole)
    (arg10 : Memref sig .tc .vmem S1x256x2048 .f32) (harg10 : arg10.IsWhole)
    (arg11 : Memref sig .tc .vmem S1x256x64 .bf16) (harg11 : arg11.IsWhole)
    (x0 : Vec F S1x256x64 .bf16) (x1 : Vec F S1x2048x64 .bf16) (x2 : Vec F S1x2048x64 .bf16) (x3 : Vec F S256x32 .f32) (x4 : Vec F S256x32 .f32) (x5 : Vec F S2048x32 .f32) (x6 : Vec F S2048x32 .f32) (x7 : Vec F S256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out1_8 x0 x1 x2 x3 x4 x5 x6 x7) ∗ owns (c : Thread nD τ) arg11 fullShare (out1_9 x0 x1 x2 x3 x4 x5 x6 x7)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The pipeline's proof data -/

/-- Pipeline 1's proof data on core `c`: the arrays as the region finds them; after the body at point `t` each input's
    buffer at its block, each output's at its payload of the point's input blocks; the invariant carries only the scoped
    rest and the generator register, untouched; nothing owed. The cosine table is read through windows 3 and 5 and the
    sine table through windows 4 and 6: of each table's read share the earlier window holds the left half and the later
    the right half; every other array is held whole. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨3, _⟩ => fullShare.left
    | ⟨4, _⟩ => fullShare.left
    | ⟨5, _⟩ => fullShare.right
    | ⟨6, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Region2B.lean ====
/-
  Region 2 of the program: the output projection kernel, one grid point per block of 512 rows. At a point the
  body reads its three input blocks whole — 512 rows of the attention output, the [1024, 1024] weights, the
  [1, 1024] bias row — and overwrites its output block whole with rows·weightsᵀ + bias, a pure function of those
  reads. The output buffer after the body is one piece covering the block; the inputs are left as found.
-/
import proofs.«145299_j26654567039014_2_alg».proof.Proof.Gen.Kernel.Launch
import proofs.«145299_j26654567039014_2_alg».proof.Proof.Gen.Kernel.Skeleton
import proofs.«145299_j26654567039014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rX2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-! ## What the body leaves in the output window's buffer: one piece, the payload of the three reads -/

def out2_3 (x0 : Vec F S512x1024 .bf16) (x1 : Vec F S1024x1024 .bf16) (x2 : Vec F S1x1024 .f32) : Vec F S512x1024 .f32 :=
  View.canon [⟨rX2, k2_pay1 (View.ld x0 rX2) (View.ld x1 rW2) (View.ld x2 rB2)⟩]

/-- A store of the whole buffer covers it. -/
theorem cover2 (p0 : Vec F S512x1024 .f32) (y : S512x1024.Idx) :
    ∃ pc ∈ ([⟨rX2, p0⟩] : List (View.Piece (Elt F) S512x1024 .f32)), y ∈ pc.1.set :=
  View.cover_of_tiled [⟨rX2, p0⟩] S512x1024.size (by rfl) y

/-! ## The body's triple -/

set_option maxHeartbeats 1000000 in
/-- The kernel body on whole staging memrefs, the inputs' at contents `x0 x1 x2` and the output's at anything, runs to
    the continuation with the inputs' as they were and the output's at its payload of the inputs. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The pipeline's proof data -/

/-- Pipeline 2's proof data on core `c`: the arrays as the region finds them; after the body at point `t` each input's
    buffer at its block, the output's at its payload of the point's input blocks; the invariant carries only the scoped
    rest and the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.RunB.lean ====
/-
  The run of the whole program: four stretches of host operations around three kernel regions. Between two items
  every unscoped buffer of a core is held whole at a known valuation: the launch memory, then, item by item, the
  host operations' results (a stretch rewrites only the buffers it writes) and, after a region, the region's arrays
  at what its pipeline's write-backs leave (an input array as entered, an output array with every flushed block
  overwritten), every other buffer as before. Beside the buffers rides the core's generator register, at some
  state, and its dues, at nothing. Each region is entered by splitting its windows' arrays out of the held
  buffers and left by putting them back; region 1 reads the cosine table through two windows and the sine table
  through two more, so at its entry each table's full share is split in two halves, one per window, and at its
  exit the halves, still at the same contents, are joined. Read against the final state, the last valuation gives
  every argument as launched and both results.
-/
import proofs.«145299_j26654567039014_2_alg».proof.Proof.Gen.Kernel.Regions
import proofs.«145299_j26654567039014_2_alg».proof.Proof.Region0B
import proofs.«145299_j26654567039014_2_alg».proof.Proof.Region1B
import proofs.«145299_j26654567039014_2_alg».proof.Proof.Region2B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After region 1: its two output arrays at what the pipeline leaves, every other buffer — its input arrays
    among them — as entered. -/
def W4 (c : Dev nD) : Valuation τ sig (Elt F) :=
  Function.update (Function.update (W3 m c) (Proc.devRef .tc main_v18_0) ((dat1 (U3 m) c).arrAt 8 cfg1.N))
    (Proc.devRef .tc main_v18_1) ((dat1 (U3 m) c).arrAt 9 cfg1.N)
abbrev U4 : (c : Dev nD) → (b : Ref sig .tc) → Buf (Elt F) ((c : Thread nD τ).loc b) := fun c b => W4 m c b
theorem W4_of_ne (c : Dev nD) (b : Ref sig .tc) (h0 : b ≠ main_v18_0) (h1 : b ≠ main_v18_1) :
    W4 m c (Proc.devRef .tc b) = W3 m c (Proc.devRef .tc b) := by
  unfold W4
  rw [Function.update_of_ne (StableHlo.devRef_ne_of_ne h1), Function.update_of_ne (StableHlo.devRef_ne_of_ne h0)]

/-- After the third host stretch (region 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After region 2. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After the last host stretch: what the final state is read against. -/
abbrev W7 : Dev nD → Valuation τ sig (Elt F) := fun c => StableHlo.after hostOps3 (W6 m c)

/-! ## The proof data family and the thread state -/

/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays: ten windows on eight buffers -/

/-- The distinct buffers behind region 1's windows: the cosine table's is the array of windows 3 and 5, the sine
    table's of windows 4 and 6. -/
theorem arrImage1 : Finset.univ.image (Pipeline.arrRef spec1) = ({main_v8, main_v11, main_v14, main_v15, main_v16, main_v17, main_v18_0, main_v18_1} : Finset (Ref sig .tc)) := by decide

/-- The shares region 1's proof data holds its arrays at. -/
theorem share1 (c : Dev nD) : ∀ w : Fin cfg1.W, (pdats m 1 c).share w = (![fullShare, fullShare, fullShare, fullShare.left, fullShare.left, fullShare.right, fullShare.right, fullShare, fullShare, fullShare] : Fin 10 → PosShare TreeShare) w := by
  intro w; fin_cases w <;> rfl

/-- Region 1's arrays at contents `G`, window by window, each a whole buffer at its share. -/
theorem arrays1_eq (c : Dev nD) (G : (w : Fin cfg1.W) → Buf (Elt F) ((cfg1.win w).arr.view.loc (c.tc : Thread nD τ))) :
    (pdats m 1 c).arrays G = bigSep Finset.univ fun w : Fin cfg1.W =>
      (((c.tc : Thread nD τ).loc (Pipeline.arrRef spec1 w)) ↦{(![fullShare, fullShare, fullShare, fullShare.left, fullShare.left, fullShare.right, fullShare.right, fullShare, fullShare, fullShare] : Fin 10 → PosShare TreeShare) w} G w : sProp 𝕄) := by
  unfold Dat.arrays
  exact bigSep_congr fun w _ => by
    rw [show ((Pipeline.pin (pcfgs (F := F)) adm 1).win w).arr.view.set = Finset.univ from (arr_whole1 w).set_eq_univ, share1 m c w]
    rfl

/-- What region 1's windows' arrays hold at its exit: an input window's array as entered, an output's at the
    pipeline's last write-back. -/
theorem hF1 (c : Dev nD) (w : Fin cfg1.W) : (dat1 (U3 m) c).arrAt w cfg1.N = U4 m c (Pipeline.arrRef spec1 w) := by
  fin_cases w
  · exact (((dat1 (U3 m) c).arrAt_in 0 rfl _).trans (A_eq1 (U3 m) c 0)).trans (W4_of_ne m c _ (by decide) (by decide)).symm
  · exact (((dat1 (U3 m) c).arrAt_in 1 rfl _).trans (A_eq1 (U3 m) c 1)).trans (W4_of_ne m c _ (by decide) (by decide)).symm
  · exact (((dat1 (U3 m) c).arrAt_in 2 rfl _).trans (A_eq1 (U3 m) c 2)).trans (W4_of_ne m c _ (by decide) (by decide)).symm
  · exact (((dat1 (U3 m) c).arrAt_in 3 rfl _).trans (A_eq1 (U3 m) c 3)).trans (W4_of_ne m c _ (by decide) (by decide)).symm
  · exact (((dat1 (U3 m) c).arrAt_in 4 rfl _).trans (A_eq1 (U3 m) c 4)).trans (W4_of_ne m c _ (by decide) (by decide)).symm
  · exact (((dat1 (U3 m) c).arrAt_in 5 rfl _).trans (A_eq1 (U3 m) c 5)).trans (W4_of_ne m c _ (by decide) (by decide)).symm
  · exact (((dat1 (U3 m) c).arrAt_in 6 rfl _).trans (A_eq1 (U3 m) c 6)).trans (W4_of_ne m c _ (by decide) (by decide)).symm
  · exact (((dat1 (U3 m) c).arrAt_in 7 rfl _).trans (A_eq1 (U3 m) c 7)).trans (W4_of_ne m c _ (by decide) (by decide)).symm
  · show _ = W4 m c (Proc.devRef .tc main_v18_0)
    unfold W4
    rw [Function.update_of_ne (StableHlo.devRef_ne_of_ne (by decide : (main_v18_0 : Ref sig .tc) ≠ main_v18_1)), Function.update_self]
    rfl
  · show _ = W4 m c (Proc.devRef .tc main_v18_1)
    unfold W4
    rw [Function.update_self]
    rfl

theorem hrest1 (c : Dev nD) : ∀ b, b ∉ Finset.univ.image (Pipeline.arrRef spec1) → U4 m c b = U3 m c b := by
  intro b hb
  rw [arrImage1] at hb
  exact W4_of_ne m c b (fun e => hb (by rw [e]; decide)) (fun e => hb (by rw [e]; decide))

/-- The eight buffers one by one. -/
theorem arrBufs1_eq (c : Dev nD) (V : (b : Ref sig .tc) → Buf (Elt F) ((c.tc : Thread nD τ).loc b)) :
    (Pipeline.arrBufs spec1 c V : sProp 𝕄) = iprop((((c.tc : Thread nD τ).loc main_v8) ↦{fullShare} V main_v8)
      ∗ (((c.tc : Thread nD τ).loc main_v11) ↦{fullShare} V main_v11)
      ∗ (((c.tc : Thread nD τ).loc main_v14) ↦{fullShare} V main_v14)
      ∗ (((c.tc : Thread nD τ).loc main_v15) ↦{fullShare} V main_v15)
      ∗ (((c.tc : Thread nD τ).loc main_v16) ↦{fullShare} V main_v16)
      ∗ (((c.tc : Thread nD τ).loc main_v17) ↦{fullShare} V main_v17)
      ∗ (((c.tc : Thread nD τ).loc main_v18_0) ↦{fullShare} V main_v18_0)
      ∗ (((c.tc : Thread nD τ).loc main_v18_1) ↦{fullShare} V main_v18_1)) :=
  bigSep_eq_bigSepL_of_eq [main_v8, main_v11, main_v14, main_v15, main_v16, main_v17, main_v18_0, main_v18_1] (by decide) (by decide) _

/-- ENTRY: the eight buffers, each whole at the full share, make the ten windows' arrays: the cosine table's full
    share splits into the halves windows 3 and 5 hold, the sine table's into those of windows 4 and 6. -/
theorem hsplit1 (c : Dev nD) :
    (Pipeline.arrBufs spec1 c (U3 m c) : sProp 𝕄) ⊢ (pdats m 1 c).arrays fun w => U3 m c (Pipeline.arrRef spec1 w) := by
  rw [arrays1_eq m c, bigSep_W1, arrBufs1_eq]
  iintro ⟨H8, H11, H14, H15, H16, H17, Ha, Hb⟩
  ihave H15' := (pointsTo_share (PosShare.mem_left_op_right fullShare)).1 $$ H15
  icases H15' with ⟨H15l, H15r⟩
  ihave H16' := (pointsTo_share (PosShare.mem_left_op_right fullShare)).1 $$ H16
  icases H16' with ⟨H16l, H16r⟩
  isplitl [H8]; · iexact H8
  isplitl [H11]; · iexact H11
  isplitl [H14]; · iexact H14
  isplitl [H15l]; · iexact H15l
  isplitl [H16l]; · iexact H16l
  isplitl [H15r]; · iexact H15r
  isplitl [H16r]; · iexact H16r
  isplitl [H17]; · iexact H17
  isplitl [Ha]; · iexact Ha
  iexact Hb

/-- EXIT: the ten windows' arrays, the tables' halves at one and the same contents joined, are the eight buffers
    whole at the full share. -/
theorem hjoin1 (c : Dev nD) (V' : (b : Ref sig .tc) → Buf (Elt F) ((c : Thread nD τ).loc b)) :
    ((pdats m 1 c).arrays fun w => V' (Pipeline.arrRef spec1 w)) ⊢ (Pipeline.arrBufs spec1 c V' : sProp 𝕄) := by
  rw [arrays1_eq m c, bigSep_W1, arrBufs1_eq]
  iintro ⟨H8, H11, H14, H15l, H16l, H15r, H16r, H17, Ha, Hb⟩
  isplitl [H8]; · iexact H8
  isplitl [H11]; · iexact H11
  isplitl [H14]; · iexact H14
  isplitl [H15l H15r]
  · iapply (pointsTo_share (PosShare.mem_left_op_right fullShare)).2
    isplitl [H15l]; · iexact H15l
    iexact H15r
  isplitl [H16l H16r]
  · iapply (pointsTo_share (PosShare.mem_left_op_right fullShare)).2
    isplitl [H16l]; · iexact H16l
    iexact H16r
  isplitl [H17]; · iexact H17
  isplitl [Ha]; · iexact Ha
  iexact Hb

/-- EXIT, whole: region 1's arrays at what the pipeline leaves and the bypassing buffers as entered are the core's
    unscoped buffers at the exit valuation. -/
theorem hexit1 (c : Dev nD) :
    iprop(((pdats m 1 c).arrays ((pdats m 1 c).arrAt · cfg1.N)) ∗ Pipeline.unscopedRest (Ix := Unit) (Name := ℕ) (U := Pipeline.UD sig nD τ) (Lvl := ℕ) spec1 c (U3 m c))
      ⊢ (unscopedBufs c (U4 m c) : sProp 𝕄) := by
  rw [Pipeline.unscopedBufs_split₀ cfgs 1 winFacts₀1.arr_unscoped c (U4 m c)]
  refine sep_mono ?_ (Entails.of_eq ?_)
  · rw [show ((pdats m 1 c).arrAt · cfg1.N) = fun w => U4 m c (Pipeline.arrRef spec1 w) from funext fun w => hF1 m c w]
    exact hjoin1 m c (U4 m c)
  · unfold Pipeline.unscopedRest
    exact bigSep_congr fun b hb => by rw [hrest1 m c b (Finset.mem_sdiff.mp hb).2]

set_option backward.isDefEq.respectTransparency.types false in
/-- Region 1: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (U3 m c)
  hentry c := by
    rw [Pipeline.ownSems0_none]
    have hub := Pipeline.unscopedBufs_split₀ (Ix := Unit) (Name := ℕ) (U := Pipeline.UD sig nD τ) (Lvl := ℕ) (Val := Elt F) cfgs 1 winFacts₀1.arr_unscoped c (U3 m c)
    rw [Pipeline.unscopedBufs_held] at hub
    rw [hub]
    iintro ⟨⟨⟨Hb, Hrest⟩, Hp, HO⟩, -, -⟩
    ihave Ha := (hsplit1 m c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := hexit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last thread state without the dues: every unscoped buffer at the last valuation, the generator register at some state. -/
abbrev Tₙ (c : Dev nD) : sProp 𝕄 := iprop(StableHlo.held (c : Thread nD τ) (Pipeline.ucRefs τ sig) (W7 m c) ∗ ∃ r, prngReg c r)

/-- @main's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

set_option backward.isDefEq.respectTransparency.types false in
/-- THE RUN: from any memory with zero counters every weakly fair execution of @main terminates, nothing faulting,
    and the final memory holds every unscoped buffer at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Hand

end
-- ==== Proof.ArgsB.lean ====
/-
  No item of the program writes an argument array: no host operation's result is one, and no kernel region has
  one among its windows' arrays (each argument reaches a kernel only through a host reshape, concatenate or
  conversion). So the last boundary's valuation, walked back item by item, gives every argument as launched.
-/
import proofs.«145299_j26654567039014_2_alg».proof.Proof.RunB

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- A buffer that no host stretch writes and that is no region's array holds at the end what it held at launch. -/
theorem W7_of_untouched (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : r ≠ main_v18_0) (a1' : r ≠ main_v18_1) (a2 : ∀ w, Pipeline.arrRef spec2 w ≠ r) :
    W7 m c (Proc.devRef .tc r) = m ((c : Thread nD τ).loc r) :=
  (StableHlo.after_of_writes_sub hostOps3 _ hostOps3_writes h3).trans <|
  (W6_of_ne m c r a2).trans <|
  (StableHlo.after_of_writes_sub hostOps2 _ hostOps2_writes h2).trans <|
  (W4_of_ne m c r a1 a1').trans <|
  (StableHlo.after_of_writes_sub hostOps1 _ hostOps1_writes h1).trans <|
  (W2_of_ne m c r a0).trans <|
  (StableHlo.after_of_writes_sub hostOps0 _ hostOps0_writes h0).trans rfl

theorem W7_main_arg0 (c : Dev nD) : W7 m c (Proc.devRef .tc main_arg0) = m ((c : Thread nD τ).loc main_arg0) :=
  W7_of_untouched m c main_arg0 (by decide) (by decide) (by decide) (by decide) (by decide) (by decide) (by decide) (by decide)
theorem W7_main_arg1 (c : Dev nD) : W7 m c (Proc.devRef .tc main_arg1) = m ((c : Thread nD τ).loc main_arg1) :=
  W7_of_untouched m c main_arg1 (by decide) (by decide) (by decide) (by decide) (by decide) (by decide) (by decide) (by decide)
theorem W7_main_arg2 (c : Dev nD) : W7 m c (Proc.devRef .tc main_arg2) = m ((c : Thread nD τ).loc main_arg2) :=
  W7_of_untouched m c main_arg2 (by decide) (by decide) (by decide) (by decide) (by decide) (by decide) (by decide) (by decide)
theorem W7_main_arg3 (c : Dev nD) : W7 m c (Proc.devRef .tc main_arg3) = m ((c : Thread nD τ).loc main_arg3) :=
  W7_of_untouched m c main_arg3 (by decide) (by decide) (by decide) (by decide) (by decide) (by decide) (by decide) (by decide)
theorem W7_main_arg4 (c : Dev nD) : W7 m c (Proc.devRef .tc main_arg4) = m ((c : Thread nD τ).loc main_arg4) :=
  W7_of_untouched m c main_arg4 (by decide) (by decide) (by decide) (by decide) (by decide) (by decide) (by decide) (by decide)
theorem W7_main_arg5 (c : Dev nD) : W7 m c (Proc.devRef .tc main_arg5) = m ((c : Thread nD τ).loc main_arg5) :=
  W7_of_untouched m c main_arg5 (by decide) (by decide) (by decide) (by decide) (by decide) (by decide) (by decide) (by decide)
theorem W7_main_arg6 (c : Dev nD) : W7 m c (Proc.devRef .tc main_arg6) = m ((c : Thread nD τ).loc main_arg6) :=
  W7_of_untouched m c main_arg6 (by decide) (by decide) (by decide) (by decide) (by decide) (by decide) (by decide) (by decide)
theorem W7_main_arg7 (c : Dev nD) : W7 m c (Proc.devRef .tc main_arg7) = m ((c : Thread nD τ).loc main_arg7) :=
  W7_of_untouched m c main_arg7 (by decide) (by decide) (by decide) (by decide) (by decide) (by decide) (by decide) (by decide)
theorem W7_main_arg8 (c : Dev nD) : W7 m c (Proc.devRef .tc main_arg8) = m ((c : Thread nD τ).loc main_arg8) :=
  W7_of_untouched m c main_arg8 (by decide) (by decide) (by decide) (by decide) (by decide) (by decide) (by decide) (by decide)
theorem W7_main_arg9 (c : Dev nD) : W7 m c (Proc.devRef .tc main_arg9) = m ((c : Thread nD τ).loc main_arg9) :=
  W7_of_untouched m c main_arg9 (by decide) (by decide) (by decide) (by decide) (by decide) (by decide) (by decide) (by decide)
theorem W7_main_arg10 (c : Dev nD) : W7 m c (Proc.devRef .tc main_arg10) = m ((c : Thread nD τ).loc main_arg10) :=
  W7_of_untouched m c main_arg10 (by decide) (by decide) (by decide) (by decide) (by decide) (by decide) (by decide) (by decide)
theorem W7_main_arg11 (c : Dev nD) : W7 m c (Proc.devRef .tc main_arg11) = m ((c : Thread nD τ).loc main_arg11) :=
  W7_of_untouched m c main_arg11 (by decide) (by decide) (by decide) (by decide) (by decide) (by decide) (by decide) (by decide)

/-- THE FRAME: every weakly fair execution of @main terminates, nothing faulting, with every argument array as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c),
     (h c _ (mem_uc main_arg11 (by decide))).trans (W7_main_arg11 m c)⟩)
    (run_all m ρ)

end Cert.Kernel.Hand

end
-- ==== Proof.Region0I.lean ====
/-
  Region 0 of the program: the fused projection kernel, one grid point per block of 512 rows of the
  flattened input. At a point the body reads its three input blocks whole — 512 rows of the input, the stacked
  [3072, 1024] weights, the [1, 3072] bias row — and overwrites each of its three output blocks whole with a
  pure function of those reads (a column third of rows·weightsᵀ + bias). So every output buffer after the body
  is ONE piece covering the block, the input buffers are left as found, and the pipeline's proof data records,
  point by point, exactly that: an input window's buffer holds its block of the array as the region found it,
  an output window's holds the payload of the point's input blocks.
-/
import proofs.«145299_j26654567039014_2_alg».proof.Proof.Gen.KernelIdeal.Launch
import proofs.«145299_j26654567039014_2_alg».proof.Proof.Gen.KernelIdeal.Skeleton
import proofs.«145299_j26654567039014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (where it is not
    fetched its block index has not moved), for any proof data over the region-entry arrays whose body leaves
    the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S512x1024 := Rect.unit (s := S512x1024) ![0, 0] S512x1024.size inb_S512x1024_S512x1024_0_0
abbrev rW0 : Rect S3072x1024 := Rect.unit (s := S3072x1024) ![0, 0] S3072x1024.size inb_S3072x1024_S3072x1024_0_0
abbrev rB0 : Rect S1x3072 := Rect.unit (s := S1x3072) ![0, 0] S1x3072.size inb_S1x3072_S1x3072_0_0

/-! ## What the body leaves in each output window's buffer: one piece, the payload of the three reads -/

def out0_3 (x0 : Vec F S512x1024 .f32) (x1 : Vec F S3072x1024 .bf16) (x2 : Vec F S1x3072 .f32) : Vec F S512x1024 .bf16 :=
  View.canon [⟨rX0, k0_pay2 (View.ld x0 rX0) (View.ld x1 rW0) (View.ld x2 rB0)⟩]
def out0_4 (x0 : Vec F S512x1024 .f32) (x1 : Vec F S3072x1024 .bf16) (x2 : Vec F S1x3072 .f32) : Vec F S512x1024 .bf16 :=
  View.canon [⟨rX0, k0_pay3 (View.ld x0 rX0) (View.ld x1 rW0) (View.ld x2 rB0)⟩]
def out0_5 (x0 : Vec F S512x1024 .f32) (x1 : Vec F S3072x1024 .bf16) (x2 : Vec F S1x3072 .f32) : Vec F S512x1024 .bf16 :=
  View.canon [⟨rX0, k0_pay4 (View.ld x0 rX0) (View.ld x1 rW0) (View.ld x2 rB0)⟩]

/-- A store of the whole buffer covers it. -/
theorem cover0 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The body's triple -/

set_option maxHeartbeats 1000000 in
/-- The kernel body on whole staging memrefs, the inputs' at contents `x0 x1 x2` and the outputs' at anything, runs to
    the continuation with the inputs' as they were and each output's at its payload of the inputs. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- Pipeline 0's proof data on core `c`: the arrays as the region finds them; after the body at point `t` each input's
    buffer at its block, each output's at its payload of the point's input blocks; the invariant carries only the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1I.lean ====
/-
  Region 1 of the program: the attention kernel, one grid point per (block of 256 query rows, head). At a point
  the body reads its eight input blocks whole — the head's 256 query rows, all 2048 key rows and value rows, the
  cosine and sine tables' rows for the query block and for every key position, the mask's 256 rows — and
  overwrites its two output blocks whole: the 256 × 2048 attention weights (the row softmax of the scaled rotated
  scores plus mask) and the 256 × 64 context rows (weights · values). Each output is one piece, a pure function of
  the point's input blocks; the inputs are left as found. The cosine table is handed to the kernel through two
  windows, and so is the sine table: each of those windows holds HALF of its array's read share.
-/
import proofs.«145299_j26654567039014_2_alg».proof.Proof.Gen.KernelIdeal.Launch
import proofs.«145299_j26654567039014_2_alg».proof.Proof.Gen.KernelIdeal.Skeleton
import proofs.«145299_j26654567039014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (where it is not
    fetched its block index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rQ1 : Rect S1x256x64 := Rect.unit (s := S1x256x64) ![0, 0, 0] S1x256x64.size inb_S1x256x64_S1x256x64_0_0_0
abbrev rK1 : Rect S1x2048x64 := Rect.unit (s := S1x2048x64) ![0, 0, 0] S1x2048x64.size inb_S1x2048x64_S1x2048x64_0_0_0
abbrev rC1 : Rect S256x32 := Rect.unit (s := S256x32) ![0, 0] S256x32.size inb_S256x32_S256x32_0_0
abbrev rD1 : Rect S2048x32 := Rect.unit (s := S2048x32) ![0, 0] S2048x32.size inb_S2048x32_S2048x32_0_0
abbrev rM1 : Rect S256x2048 := Rect.unit (s := S256x2048) ![0, 0] S256x2048.size inb_S256x2048_S256x2048_0_0
abbrev rA1 : Rect S1x256x2048 := Rect.unit (s := S1x256x2048) ![0, 0, 0] S1x256x2048.size inb_S1x256x2048_S1x256x2048_0_0_0

/-! ## What the body leaves in each output window's buffer: one piece, a payload of the eight reads -/

/-- The attention weights' block. -/
def out1_8 (x0 : Vec F S1x256x64 .bf16) (x1 : Vec F S1x2048x64 .bf16) (x2 : Vec F S1x2048x64 .bf16) (x3 : Vec F S256x32 .f32) (x4 : Vec F S256x32 .f32) (x5 : Vec F S2048x32 .f32) (x6 : Vec F S2048x32 .f32) (x7 : Vec F S256x2048 .f32) : Vec F S1x256x2048 .f32 :=
  View.canon [⟨rA1, k1_pay2 (k1_pay5 (View.ld x0 rQ1) (View.ld x1 rK1) (View.ld x3 rC1) (View.ld x4 rC1) (View.ld x5 rD1) (View.ld x6 rD1)) (View.ld x7 rM1)⟩]
/-- The context rows' block. -/
def out1_9 (x0 : Vec F S1x256x64 .bf16) (x1 : Vec F S1x2048x64 .bf16) (x2 : Vec F S1x2048x64 .bf16) (x3 : Vec F S256x32 .f32) (x4 : Vec F S256x32 .f32) (x5 : Vec F S2048x32 .f32) (x6 : Vec F S2048x32 .f32) (x7 : Vec F S256x2048 .f32) : Vec F S1x256x64 .bf16 :=
  View.canon [⟨rQ1, k1_pay3 (k1_pay4 (View.ld x2 rK1)) (k1_pay5 (View.ld x0 rQ1) (View.ld x1 rK1) (View.ld x3 rC1) (View.ld x4 rC1) (View.ld x5 rD1) (View.ld x6 rD1)) (View.ld x7 rM1)⟩]

/-- A store of the whole buffer covers it. -/
theorem cover1_8 (p0 : Vec F S1x256x2048 .f32) (y : S1x256x2048.Idx) :
    ∃ pc ∈ ([⟨rA1, p0⟩] : List (View.Piece (Elt F) S1x256x2048 .f32)), y ∈ pc.1.set :=
  View.cover_of_tiled [⟨rA1, p0⟩] S1x256x2048.size (by rfl) y
theorem cover1_9 (p0 : Vec F S1x256x64 .bf16) (y : S1x256x64.Idx) :
    ∃ pc ∈ ([⟨rQ1, p0⟩] : List (View.Piece (Elt F) S1x256x64 .bf16)), y ∈ pc.1.set :=
  View.cover_of_tiled [⟨rQ1, p0⟩] S1x256x64.size (by rfl) y

/-! ## The body's triple -/

set_option maxHeartbeats 2000000 in
/-- The kernel body on whole staging memrefs, the inputs' at contents `x0 … x7` and the outputs' at anything, runs to
    the continuation with the inputs' as they were and each output's at its payload of the inputs. -/
theorem sound_kernel1 (c : Dev nD) (E : Set ℕ) (i : grid1.Coords)
    (arg2 : Memref sig .tc .vmem S1x256x64 .bf16) (harg2 : arg2.IsWhole)
    (arg3 : Memref sig .tc .vmem S1x2048x64 .bf16) (harg3 : arg3.IsWhole)
    (arg4 : Memref sig .tc .vmem S1x2048x64 .bf16) (harg4 : arg4.IsWhole)
    (arg5 : Memref sig .tc .vmem S256x32 .f32) (harg5 : arg5.IsWhole)
    (arg6 : Memref sig .tc .vmem S256x32 .f32) (harg6 : arg6.IsWhole)
    (arg7 : Memref sig .tc .vmem S2048x32 .f32) (harg7 : arg7.IsWhole)
    (arg8 : Memref sig .tc .vmem S2048x32 .f32) (harg8 : arg8.IsWhole)
    (arg9 : Memref sig .tc .vmem S256x2048 .f32) (harg9 : arg9.IsWhole)
    (arg10 : Memref sig .tc .vmem S1x256x2048 .f32) (harg10 : arg10.IsWhole)
    (arg11 : Memref sig .tc .vmem S1x256x64 .bf16) (harg11 : arg11.IsWhole)
    (x0 : Vec F S1x256x64 .bf16) (x1 : Vec F S1x2048x64 .bf16) (x2 : Vec F S1x2048x64 .bf16) (x3 : Vec F S256x32 .f32) (x4 : Vec F S256x32 .f32) (x5 : Vec F S2048x32 .f32) (x6 : Vec F S2048x32 .f32) (x7 : Vec F S256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out1_8 x0 x1 x2 x3 x4 x5 x6 x7) ∗ owns (c : Thread nD τ) arg11 fullShare (out1_9 x0 x1 x2 x3 x4 x5 x6 x7)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The pipeline's proof data -/

/-- Pipeline 1's proof data on core `c`: the arrays as the region finds them; after the body at point `t` each input's
    buffer at its block, each output's at its payload of the point's input blocks; the invariant carries only the scoped
    rest and the generator register, untouched; nothing owed. The cosine table is read through windows 3 and 5 and the
    sine table through windows 4 and 6: of each table's read share the earlier window holds the left half and the later
    the right half; every other array is held whole. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨3, _⟩ => fullShare.left
    | ⟨4, _⟩ => fullShare.left
    | ⟨5, _⟩ => fullShare.right
    | ⟨6, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2I.lean ====
/-
  Region 2 of the program: the output projection kernel, one grid point per block of 512 rows. At a point the
  body reads its three input blocks whole — 512 rows of the attention output, the [1024, 1024] weights, the
  [1, 1024] bias row — and overwrites its output block whole with rows·weightsᵀ + bias, a pure function of those
  reads. The output buffer after the body is one piece covering the block; the inputs are left as found.
-/
import proofs.«145299_j26654567039014_2_alg».proof.Proof.Gen.KernelIdeal.Launch
import proofs.«145299_j26654567039014_2_alg».proof.Proof.Gen.KernelIdeal.Skeleton
import proofs.«145299_j26654567039014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rX2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0

/-! ## What the body leaves in the output window's buffer: one piece, the payload of the three reads -/

def out2_3 (x0 : Vec F S512x1024 .bf16) (x1 : Vec F S1024x1024 .bf16) (x2 : Vec F S1x1024 .f32) : Vec F S512x1024 .f32 :=
  View.canon [⟨rX2, k2_pay1 (View.ld x0 rX2) (View.ld x1 rW2) (View.ld x2 rB2)⟩]

/-- A store of the whole buffer covers it. -/
theorem cover2 (p0 : Vec F S512x1024 .f32) (y : S512x1024.Idx) :
    ∃ pc ∈ ([⟨rX2, p0⟩] : List (View.Piece (Elt F) S512x1024 .f32)), y ∈ pc.1.set :=
  View.cover_of_tiled [⟨rX2, p0⟩] S512x1024.size (by rfl) y

/-! ## The body's triple -/

set_option maxHeartbeats 1000000 in
/-- The kernel body on whole staging memrefs, the inputs' at contents `x0 x1 x2` and the output's at anything, runs to
    the continuation with the inputs' as they were and the output's at its payload of the inputs. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The pipeline's proof data -/

/-- Pipeline 2's proof data on core `c`: the arrays as the region finds them; after the body at point `t` each input's
    buffer at its block, the output's at its payload of the point's input blocks; the invariant carries only the scoped
    rest and the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RunI.lean ====
/-
  The run of the whole program: four stretches of host operations around three kernel regions. Between two items
  every unscoped buffer of a core is held whole at a known valuation: the launch memory, then, item by item, the
  host operations' results (a stretch rewrites only the buffers it writes) and, after a region, the region's arrays
  at what its pipeline's write-backs leave (an input array as entered, an output array with every flushed block
  overwritten), every other buffer as before. Beside the buffers rides the core's generator register, at some
  state, and its dues, at nothing. Each region is entered by splitting its windows' arrays out of the held
  buffers and left by putting them back; region 1 reads the cosine table through two windows and the sine table
  through two more, so at its entry each table's full share is split in two halves, one per window, and at its
  exit the halves, still at the same contents, are joined. Read against the final state, the last valuation gives
  every argument as launched and both results.
-/
import proofs.«145299_j26654567039014_2_alg».proof.Proof.Gen.KernelIdeal.Regions
import proofs.«145299_j26654567039014_2_alg».proof.Proof.Region0I
import proofs.«145299_j26654567039014_2_alg».proof.Proof.Region1I
import proofs.«145299_j26654567039014_2_alg».proof.Proof.Region2I

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After region 1: its two output arrays at what the pipeline leaves, every other buffer — its input arrays
    among them — as entered. -/
def W4 (c : Dev nD) : Valuation τ sig (Elt F) :=
  Function.update (Function.update (W3 m c) (Proc.devRef .tc main_v18_0) ((dat1 (U3 m) c).arrAt 8 cfg1.N))
    (Proc.devRef .tc main_v18_1) ((dat1 (U3 m) c).arrAt 9 cfg1.N)
abbrev U4 : (c : Dev nD) → (b : Ref sig .tc) → Buf (Elt F) ((c : Thread nD τ).loc b) := fun c b => W4 m c b
theorem W4_of_ne (c : Dev nD) (b : Ref sig .tc) (h0 : b ≠ main_v18_0) (h1 : b ≠ main_v18_1) :
    W4 m c (Proc.devRef .tc b) = W3 m c (Proc.devRef .tc b) := by
  unfold W4
  rw [Function.update_of_ne (StableHlo.devRef_ne_of_ne h1), Function.update_of_ne (StableHlo.devRef_ne_of_ne h0)]

/-- After the third host stretch (region 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After region 2. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After the last host stretch: what the final state is read against. -/
abbrev W7 : Dev nD → Valuation τ sig (Elt F) := fun c => StableHlo.after hostOps3 (W6 m c)

/-! ## The proof data family and the thread state -/

/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays: ten windows on eight buffers -/

/-- The distinct buffers behind region 1's windows: the cosine table's is the array of windows 3 and 5, the sine
    table's of windows 4 and 6. -/
theorem arrImage1 : Finset.univ.image (Pipeline.arrRef spec1) = ({main_v8, main_v11, main_v14, main_v15, main_v16, main_v17, main_v18_0, main_v18_1} : Finset (Ref sig .tc)) := by decide

/-- The shares region 1's proof data holds its arrays at. -/
theorem share1 (c : Dev nD) : ∀ w : Fin cfg1.W, (pdats m 1 c).share w = (![fullShare, fullShare, fullShare, fullShare.left, fullShare.left, fullShare.right, fullShare.right, fullShare, fullShare, fullShare] : Fin 10 → PosShare TreeShare) w := by
  intro w; fin_cases w <;> rfl

/-- Region 1's arrays at contents `G`, window by window, each a whole buffer at its share. -/
theorem arrays1_eq (c : Dev nD) (G : (w : Fin cfg1.W) → Buf (Elt F) ((cfg1.win w).arr.view.loc (c.tc : Thread nD τ))) :
    (pdats m 1 c).arrays G = bigSep Finset.univ fun w : Fin cfg1.W =>
      (((c.tc : Thread nD τ).loc (Pipeline.arrRef spec1 w)) ↦{(![fullShare, fullShare, fullShare, fullShare.left, fullShare.left, fullShare.right, fullShare.right, fullShare, fullShare, fullShare] : Fin 10 → PosShare TreeShare) w} G w : sProp 𝕄) := by
  unfold Dat.arrays
  exact bigSep_congr fun w _ => by
    rw [show ((Pipeline.pin (pcfgs (F := F)) adm 1).win w).arr.view.set = Finset.univ from (arr_whole1 w).set_eq_univ, share1 m c w]
    rfl

/-- What region 1's windows' arrays hold at its exit: an input window's array as entered, an output's at the
    pipeline's last write-back. -/
theorem hF1 (c : Dev nD) (w : Fin cfg1.W) : (dat1 (U3 m) c).arrAt w cfg1.N = U4 m c (Pipeline.arrRef spec1 w) := by
  fin_cases w
  · exact (((dat1 (U3 m) c).arrAt_in 0 rfl _).trans (A_eq1 (U3 m) c 0)).trans (W4_of_ne m c _ (by decide) (by decide)).symm
  · exact (((dat1 (U3 m) c).arrAt_in 1 rfl _).trans (A_eq1 (U3 m) c 1)).trans (W4_of_ne m c _ (by decide) (by decide)).symm
  · exact (((dat1 (U3 m) c).arrAt_in 2 rfl _).trans (A_eq1 (U3 m) c 2)).trans (W4_of_ne m c _ (by decide) (by decide)).symm
  · exact (((dat1 (U3 m) c).arrAt_in 3 rfl _).trans (A_eq1 (U3 m) c 3)).trans (W4_of_ne m c _ (by decide) (by decide)).symm
  · exact (((dat1 (U3 m) c).arrAt_in 4 rfl _).trans (A_eq1 (U3 m) c 4)).trans (W4_of_ne m c _ (by decide) (by decide)).symm
  · exact (((dat1 (U3 m) c).arrAt_in 5 rfl _).trans (A_eq1 (U3 m) c 5)).trans (W4_of_ne m c _ (by decide) (by decide)).symm
  · exact (((dat1 (U3 m) c).arrAt_in 6 rfl _).trans (A_eq1 (U3 m) c 6)).trans (W4_of_ne m c _ (by decide) (by decide)).symm
  · exact (((dat1 (U3 m) c).arrAt_in 7 rfl _).trans (A_eq1 (U3 m) c 7)).trans (W4_of_ne m c _ (by decide) (by decide)).symm
  · show _ = W4 m c (Proc.devRef .tc main_v18_0)
    unfold W4
    rw [Function.update_of_ne (StableHlo.devRef_ne_of_ne (by decide : (main_v18_0 : Ref sig .tc) ≠ main_v18_1)), Function.update_self]
    rfl
  · show _ = W4 m c (Proc.devRef .tc main_v18_1)
    unfold W4
    rw [Function.update_self]
    rfl

theorem hrest1 (c : Dev nD) : ∀ b, b ∉ Finset.univ.image (Pipeline.arrRef spec1) → U4 m c b = U3 m c b := by
  intro b hb
  rw [arrImage1] at hb
  exact W4_of_ne m c b (fun e => hb (by rw [e]; decide)) (fun e => hb (by rw [e]; decide))

/-- The eight buffers one by one. -/
theorem arrBufs1_eq (c : Dev nD) (V : (b : Ref sig .tc) → Buf (Elt F) ((c.tc : Thread nD τ).loc b)) :
    (Pipeline.arrBufs spec1 c V : sProp 𝕄) = iprop((((c.tc : Thread nD τ).loc main_v8) ↦{fullShare} V main_v8)
      ∗ (((c.tc : Thread nD τ).loc main_v11) ↦{fullShare} V main_v11)
      ∗ (((c.tc : Thread nD τ).loc main_v14) ↦{fullShare} V main_v14)
      ∗ (((c.tc : Thread nD τ).loc main_v15) ↦{fullShare} V main_v15)
      ∗ (((c.tc : Thread nD τ).loc main_v16) ↦{fullShare} V main_v16)
      ∗ (((c.tc : Thread nD τ).loc main_v17) ↦{fullShare} V main_v17)
      ∗ (((c.tc : Thread nD τ).loc main_v18_0) ↦{fullShare} V main_v18_0)
      ∗ (((c.tc : Thread nD τ).loc main_v18_1) ↦{fullShare} V main_v18_1)) :=
  bigSep_eq_bigSepL_of_eq [main_v8, main_v11, main_v14, main_v15, main_v16, main_v17, main_v18_0, main_v18_1] (by decide) (by decide) _

/-- ENTRY: the eight buffers, each whole at the full share, make the ten windows' arrays: the cosine table's full
    share splits into the halves windows 3 and 5 hold, the sine table's into those of windows 4 and 6. -/
theorem hsplit1 (c : Dev nD) :
    (Pipeline.arrBufs spec1 c (U3 m c) : sProp 𝕄) ⊢ (pdats m 1 c).arrays fun w => U3 m c (Pipeline.arrRef spec1 w) := by
  rw [arrays1_eq m c, bigSep_W1, arrBufs1_eq]
  iintro ⟨H8, H11, H14, H15, H16, H17, Ha, Hb⟩
  ihave H15' := (pointsTo_share (PosShare.mem_left_op_right fullShare)).1 $$ H15
  icases H15' with ⟨H15l, H15r⟩
  ihave H16' := (pointsTo_share (PosShare.mem_left_op_right fullShare)).1 $$ H16
  icases H16' with ⟨H16l, H16r⟩
  isplitl [H8]; · iexact H8
  isplitl [H11]; · iexact H11
  isplitl [H14]; · iexact H14
  isplitl [H15l]; · iexact H15l
  isplitl [H16l]; · iexact H16l
  isplitl [H15r]; · iexact H15r
  isplitl [H16r]; · iexact H16r
  isplitl [H17]; · iexact H17
  isplitl [Ha]; · iexact Ha
  iexact Hb

/-- EXIT: the ten windows' arrays, the tables' halves at one and the same contents joined, are the eight buffers
    whole at the full share. -/
theorem hjoin1 (c : Dev nD) (V' : (b : Ref sig .tc) → Buf (Elt F) ((c : Thread nD τ).loc b)) :
    ((pdats m 1 c).arrays fun w => V' (Pipeline.arrRef spec1 w)) ⊢ (Pipeline.arrBufs spec1 c V' : sProp 𝕄) := by
  rw [arrays1_eq m c, bigSep_W1, arrBufs1_eq]
  iintro ⟨H8, H11, H14, H15l, H16l, H15r, H16r, H17, Ha, Hb⟩
  isplitl [H8]; · iexact H8
  isplitl [H11]; · iexact H11
  isplitl [H14]; · iexact H14
  isplitl [H15l H15r]
  · iapply (pointsTo_share (PosShare.mem_left_op_right fullShare)).2
    isplitl [H15l]; · iexact H15l
    iexact H15r
  isplitl [H16l H16r]
  · iapply (pointsTo_share (PosShare.mem_left_op_right fullShare)).2
    isplitl [H16l]; · iexact H16l
    iexact H16r
  isplitl [H17]; · iexact H17
  isplitl [Ha]; · iexact Ha
  iexact Hb

/-- EXIT, whole: region 1's arrays at what the pipeline leaves and the bypassing buffers as entered are the core's
    unscoped buffers at the exit valuation. -/
theorem hexit1 (c : Dev nD) :
    iprop(((pdats m 1 c).arrays ((pdats m 1 c).arrAt · cfg1.N)) ∗ Pipeline.unscopedRest (Ix := Unit) (Name := ℕ) (U := Pipeline.UD sig nD τ) (Lvl := ℕ) spec1 c (U3 m c))
      ⊢ (unscopedBufs c (U4 m c) : sProp 𝕄) := by
  rw [Pipeline.unscopedBufs_split₀ cfgs 1 winFacts₀1.arr_unscoped c (U4 m c)]
  refine sep_mono ?_ (Entails.of_eq ?_)
  · rw [show ((pdats m 1 c).arrAt · cfg1.N) = fun w => U4 m c (Pipeline.arrRef spec1 w) from funext fun w => hF1 m c w]
    exact hjoin1 m c (U4 m c)
  · unfold Pipeline.unscopedRest
    exact bigSep_congr fun b hb => by rw [hrest1 m c b (Finset.mem_sdiff.mp hb).2]

set_option backward.isDefEq.respectTransparency.types false in
/-- Region 1: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (U3 m c)
  hentry c := by
    rw [Pipeline.ownSems0_none]
    have hub := Pipeline.unscopedBufs_split₀ (Ix := Unit) (Name := ℕ) (U := Pipeline.UD sig nD τ) (Lvl := ℕ) (Val := Elt F) cfgs 1 winFacts₀1.arr_unscoped c (U3 m c)
    rw [Pipeline.unscopedBufs_held] at hub
    rw [hub]
    iintro ⟨⟨⟨Hb, Hrest⟩, Hp, HO⟩, -, -⟩
    ihave Ha := (hsplit1 m c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := hexit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last thread state without the dues: every unscoped buffer at the last valuation, the generator register at some state. -/
abbrev Tₙ (c : Dev nD) : sProp 𝕄 := iprop(StableHlo.held (c : Thread nD τ) (Pipeline.ucRefs τ sig) (W7 m c) ∗ ∃ r, prngReg c r)

/-- @main's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

set_option backward.isDefEq.respectTransparency.types false in
/-- THE RUN: from any memory with zero counters every weakly fair execution of @main terminates, nothing faulting,
    and the final memory holds every unscoped buffer at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.ArgsI.lean ====
/-
  No item of the program writes an argument array: no host operation's result is one, and no kernel region has
  one among its windows' arrays (each argument reaches a kernel only through a host reshape, concatenate or
  conversion). So the last boundary's valuation, walked back item by item, gives every argument as launched.
-/
import proofs.«145299_j26654567039014_2_alg».proof.Proof.RunI

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- A buffer that no host stretch writes and that is no region's array holds at the end what it held at launch. -/
theorem W7_of_untouched (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : r ≠ main_v18_0) (a1' : r ≠ main_v18_1) (a2 : ∀ w, Pipeline.arrRef spec2 w ≠ r) :
    W7 m c (Proc.devRef .tc r) = m ((c : Thread nD τ).loc r) :=
  (StableHlo.after_of_writes_sub hostOps3 _ hostOps3_writes h3).trans <|
  (W6_of_ne m c r a2).trans <|
  (StableHlo.after_of_writes_sub hostOps2 _ hostOps2_writes h2).trans <|
  (W4_of_ne m c r a1 a1').trans <|
  (StableHlo.after_of_writes_sub hostOps1 _ hostOps1_writes h1).trans <|
  (W2_of_ne m c r a0).trans <|
  (StableHlo.after_of_writes_sub hostOps0 _ hostOps0_writes h0).trans rfl

theorem W7_main_arg0 (c : Dev nD) : W7 m c (Proc.devRef .tc main_arg0) = m ((c : Thread nD τ).loc main_arg0) :=
  W7_of_untouched m c main_arg0 (by decide) (by decide) (by decide) (by decide) (by decide) (by decide) (by decide) (by decide)
theorem W7_main_arg1 (c : Dev nD) : W7 m c (Proc.devRef .tc main_arg1) = m ((c : Thread nD τ).loc main_arg1) :=
  W7_of_untouched m c main_arg1 (by decide) (by decide) (by decide) (by decide) (by decide) (by decide) (by decide) (by decide)
theorem W7_main_arg2 (c : Dev nD) : W7 m c (Proc.devRef .tc main_arg2) = m ((c : Thread nD τ).loc main_arg2) :=
  W7_of_untouched m c main_arg2 (by decide) (by decide) (by decide) (by decide) (by decide) (by decide) (by decide) (by decide)
theorem W7_main_arg3 (c : Dev nD) : W7 m c (Proc.devRef .tc main_arg3) = m ((c : Thread nD τ).loc main_arg3) :=
  W7_of_untouched m c main_arg3 (by decide) (by decide) (by decide) (by decide) (by decide) (by decide) (by decide) (by decide)
theorem W7_main_arg4 (c : Dev nD) : W7 m c (Proc.devRef .tc main_arg4) = m ((c : Thread nD τ).loc main_arg4) :=
  W7_of_untouched m c main_arg4 (by decide) (by decide) (by decide) (by decide) (by decide) (by decide) (by decide) (by decide)
theorem W7_main_arg5 (c : Dev nD) : W7 m c (Proc.devRef .tc main_arg5) = m ((c : Thread nD τ).loc main_arg5) :=
  W7_of_untouched m c main_arg5 (by decide) (by decide) (by decide) (by decide) (by decide) (by decide) (by decide) (by decide)
theorem W7_main_arg6 (c : Dev nD) : W7 m c (Proc.devRef .tc main_arg6) = m ((c : Thread nD τ).loc main_arg6) :=
  W7_of_untouched m c main_arg6 (by decide) (by decide) (by decide) (by decide) (by decide) (by decide) (by decide) (by decide)
theorem W7_main_arg7 (c : Dev nD) : W7 m c (Proc.devRef .tc main_arg7) = m ((c : Thread nD τ).loc main_arg7) :=
  W7_of_untouched m c main_arg7 (by decide) (by decide) (by decide) (by decide) (by decide) (by decide) (by decide) (by decide)
theorem W7_main_arg8 (c : Dev nD) : W7 m c (Proc.devRef .tc main_arg8) = m ((c : Thread nD τ).loc main_arg8) :=
  W7_of_untouched m c main_arg8 (by decide) (by decide) (by decide) (by decide) (by decide) (by decide) (by decide) (by decide)
theorem W7_main_arg9 (c : Dev nD) : W7 m c (Proc.devRef .tc main_arg9) = m ((c : Thread nD τ).loc main_arg9) :=
  W7_of_untouched m c main_arg9 (by decide) (by decide) (by decide) (by decide) (by decide) (by decide) (by decide) (by decide)
theorem W7_main_arg10 (c : Dev nD) : W7 m c (Proc.devRef .tc main_arg10) = m ((c : Thread nD τ).loc main_arg10) :=
  W7_of_untouched m c main_arg10 (by decide) (by decide) (by decide) (by decide) (by decide) (by decide) (by decide) (by decide)
theorem W7_main_arg11 (c : Dev nD) : W7 m c (Proc.devRef .tc main_arg11) = m ((c : Thread nD τ).loc main_arg11) :=
  W7_of_untouched m c main_arg11 (by decide) (by decide) (by decide) (by decide) (by decide) (by decide) (by decide) (by decide)

/-- THE FRAME: every weakly fair execution of @main terminates, nothing faulting, with every argument array as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c),
     (h c _ (mem_uc main_arg11 (by decide))).trans (W7_main_arg11 m c)⟩)
    (run_all m ρ)

end Cert.KernelIdeal.Hand

end
-- ==== Proof.Spec.lean ====
/-
  The attention layer as a function of its twelve argument arrays, on the extended reals, index by index.

  Shapes: x[2,2048,1024], mask[1,1,2048,2048], cos and sin[1,2048,32], four weight matrices [1024,1024]
  (rows indexed by the OUTPUT feature, as a linear layer stores them) and four biases [1024]. There are 16
  heads of width 64; feature e of a projection belongs to head e / 64 at position e % 64. The rotary
  embedding pairs position j < 32 of a head with position j + 32.
-/
import Idealize.ShloMosaic.PureOps.Ideal
import Idealize.ShloMosaic.Lib.ValueIdx

noncomputable section

open scoped BigOperators

namespace Cert.AttnSpec

open Idealize.ShloMosaic Idealize.ShloMosaic.ValueIdx

/-! ## The arrays' types -/

/-- An activation array [2, 2048, 1024]. -/
abbrev Act : Type := (⟨3, ![2, 2048, 1024]⟩ : Shape).Idx → EReal
/-- The additive mask [1, 1, 2048, 2048]. -/
abbrev Mask : Type := (⟨4, ![1, 1, 2048, 2048]⟩ : Shape).Idx → EReal
/-- A rotary table [1, 2048, 32]. -/
abbrev Rot : Type := (⟨3, ![1, 2048, 32]⟩ : Shape).Idx → EReal
/-- A weight matrix [1024, 1024]. -/
abbrev Mat : Type := (⟨2, ![1024, 1024]⟩ : Shape).Idx → EReal
/-- A bias [1024]. -/
abbrev Bias : Type := (⟨1, ![1024]⟩ : Shape).Idx → EReal
/-- A per-head array, read by its four coordinates (batch, head, token, position in the head). -/
abbrev Heads : Type := Fin 2 → Fin 16 → Fin 2048 → Fin 64 → EReal

/-! ## The constants, as the reference spells them -/

/-- The f32 pattern of −∞, the value a row maximum starts from. -/
def negInf : EReal := Ideal.ofBits .f32 0xFF800000#32
/-- The f32 pattern of 0, the value a row sum starts from. -/
def zero : EReal := Ideal.ofBits .f32 0x00000000#32
/-- The f32 pattern of 64, the head width. -/
def headWidth : EReal := Ideal.ofBits .f32 0x42800000#32
/-- The f32 pattern of 1/8. -/
def eighth : EReal := Ideal.ofBits .f32 0x3E000000#32

theorem negInf_eq_bot : negInf = ⊥ := by simp [negInf, Ideal.ofBits, Ideal.ieee]

theorem zero_eq : zero = 0 := by simp [zero, Ideal.ofBits, Ideal.ieee]

theorem headWidth_eq : headWidth = ((64 : ℝ) : EReal) := by
  simp [headWidth, Ideal.ofBits, Ideal.ieee, -EReal.coe_mul]; norm_num

theorem eighth_eq : eighth = (((1 : ℝ) / 8 : ℝ) : EReal) := by
  simp [eighth, Ideal.ofBits, Ideal.ieee, -EReal.coe_mul]; norm_num

/-- The square root of 64 is 8. -/
theorem sqrt_headWidth : Ideal.sqrt headWidth = ((8 : ℝ) : EReal) := by
  rw [headWidth_eq, Ideal.sqrt_coe, if_neg (by norm_num)]
  congr 1
  rw [show (64 : ℝ) = 8 ^ 2 by norm_num]
  exact Real.sqrt_sq (by norm_num)

/-- A score divided by the square root of the head width. -/
def scaled (y : EReal) : EReal := Ideal.div y (Ideal.sqrt headWidth)

/-- Dividing by √64 is multiplying by 1/8, on every extended real. -/
theorem scaled_eq_mul (y : EReal) : scaled y = y * eighth := by
  unfold scaled
  rw [sqrt_headWidth, Ideal.div_coe (by norm_num : (8 : ℝ) ≠ 0), eighth_eq]

/-! ## Projections and heads -/

/-- A linear layer: feature e of token (b, t) is the row e of W against x[b, t, ·], plus the bias. -/
def proj (x : Act) (W : Mat) (bias : Bias) (b : Fin 2) (t : Fin 2048) (e : Fin 1024) : EReal :=
  (∑ d : Fin 1024, x (ix3 b t d) * W (ix2 e d)) + bias (ix1 e)

/-- Position j of head h is feature 64 h + j. -/
def feat (h : Fin 16) (j : Fin 64) : Fin 1024 := ⟨h.val * 64 + j.val, by have := h.isLt; have := j.isLt; omega⟩

/-- The head a feature belongs to. -/
def headOf (e : Fin 1024) : Fin 16 := ⟨e.val / 64, by have := e.isLt; omega⟩
/-- A feature's position in its head. -/
def posOf (e : Fin 1024) : Fin 64 := ⟨e.val % 64, by omega⟩

/-- A projection split into heads. -/
def heads (x : Act) (W : Mat) (bias : Bias) : Heads := fun b h t j => proj x W bias b t (feat h j)

/-! ## Rotary embedding -/

/-- The low half of a head's positions, as a column of the rotary tables. -/
def lowCol (j : Fin 64) (hj : j.val < 32) : Fin 32 := ⟨j.val, hj⟩
/-- The high half of a head's positions, as a column of the rotary tables. -/
def highCol (j : Fin 64) (hj : ¬ j.val < 32) : Fin 32 := ⟨j.val - 32, by have := j.isLt; omega⟩
/-- The partner of a low position. -/
def upper (j : Fin 64) (hj : j.val < 32) : Fin 64 := ⟨j.val + 32, by omega⟩
/-- The partner of a high position. -/
def lower (j : Fin 64) (_hj : ¬ j.val < 32) : Fin 64 := ⟨j.val - 32, by have := j.isLt; omega⟩

/-- The rotation: a low position j gives y[j] cos[t, j] − y[j + 32] sin[t, j]; a high position j gives
    y[j] cos[t, j − 32] + y[j − 32] sin[t, j − 32]. -/
def rotary (cos sin : Rot) (y : Heads) : Heads := fun b h t j =>
  if hj : j.val < 32 then
    y b h t j * cos (ix3 0 t (lowCol j hj)) - y b h t (upper j hj) * sin (ix3 0 t (lowCol j hj))
  else
    y b h t j * cos (ix3 0 t (highCol j hj)) + y b h t (lower j hj) * sin (ix3 0 t (highCol j hj))

/-! ## Scores and weights -/

/-- The masked, scaled scores of query q against key k. -/
def scores (mask : Mask) (Qr Kr : Heads) (b : Fin 2) (h : Fin 16) (q k : Fin 2048) : EReal :=
  scaled (∑ j : Fin 64, Qr b h q j * Kr b h k j) + mask (ix4 0 0 q k)

/-- A row's maximum, from −∞. -/
def rowMax (s : Fin 2 → Fin 16 → Fin 2048 → Fin 2048 → EReal) (b : Fin 2) (h : Fin 16) (q : Fin 2048) : EReal :=
  (Finset.univ : Finset (Fin 2048)).fold max negInf (fun k => s b h q k)

/-- The exponentials of a row's scores less the row's maximum. -/
def expShift (s : Fin 2 → Fin 16 → Fin 2048 → Fin 2048 → EReal) (b : Fin 2) (h : Fin 16) (q k : Fin 2048) : EReal :=
  Ideal.exp (s b h q k - rowMax s b h q)

/-- A row's sum of exponentials, from 0. -/
def rowSum (s : Fin 2 → Fin 16 → Fin 2048 → Fin 2048 → EReal) (b : Fin 2) (h : Fin 16) (q : Fin 2048) : EReal :=
  zero + ∑ k : Fin 2048, expShift s b h q k

/-- The softmax of a row of scores. -/
def softmax (s : Fin 2 → Fin 16 → Fin 2048 → Fin 2048 → EReal) (b : Fin 2) (h : Fin 16) (q k : Fin 2048) : EReal :=
  Ideal.div (expShift s b h q k) (rowSum s b h q)

/-- The rotated queries. -/
def queries (x : Act) (cos sin : Rot) (Wq : Mat) (bq : Bias) : Heads := rotary cos sin (heads x Wq bq)
/-- The rotated keys. -/
def keys (x : Act) (cos sin : Rot) (Wk : Mat) (bk : Bias) : Heads := rotary cos sin (heads x Wk bk)

/-- The attention weights by coordinates. -/
def awAt (x : Act) (mask : Mask) (cos sin : Rot) (Wq : Mat) (bq : Bias) (Wk : Mat) (bk : Bias)
    (b : Fin 2) (h : Fin 16) (q k : Fin 2048) : EReal :=
  softmax (scores mask (queries x cos sin Wq bq) (keys x cos sin Wk bk)) b h q k

/-- The second result: the attention weights [2, 16, 2048, 2048]. -/
def specAw (x : Act) (mask : Mask) (cos sin : Rot) (Wq : Mat) (bq : Bias) (Wk : Mat) (bk : Bias) :
    (⟨4, ![2, 16, 2048, 2048]⟩ : Shape).Idx → EReal :=
  fun i => awAt x mask cos sin Wq bq Wk bk (i 0) (i 1) (i 2) (i 3)

theorem specAw_ix4 (x : Act) (mask : Mask) (cos sin : Rot) (Wq : Mat) (bq : Bias) (Wk : Mat) (bk : Bias)
    (b : Fin 2) (h : Fin 16) (q k : Fin 2048) :
    specAw x mask cos sin Wq bq Wk bk (ix4 b h q k) = awAt x mask cos sin Wq bq Wk bk b h q k := rfl

/-! ## Context and output -/

/-- The weighted sum of the values. -/
def context (aw : Fin 2 → Fin 16 → Fin 2048 → Fin 2048 → EReal) (V : Heads) : Heads := fun b h q j =>
  ∑ k : Fin 2048, aw b h q k * V b h k j

/-- The heads merged back into features. -/
def merged (c : Heads) (b : Fin 2) (t : Fin 2048) (e : Fin 1024) : EReal := c b (headOf e) t (posOf e)

/-- The output by coordinates: the output projection of the merged context. -/
def outAt (x : Act) (mask : Mask) (cos sin : Rot) (Wq : Mat) (bq : Bias) (Wk : Mat) (bk : Bias) (Wv : Mat) (bv : Bias)
    (Wo : Mat) (bo : Bias) (b : Fin 2) (t : Fin 2048) (e : Fin 1024) : EReal :=
  (∑ d : Fin 1024, merged (context (awAt x mask cos sin Wq bq Wk bk) (heads x Wv bv)) b t d * Wo (ix2 e d)) + bo (ix1 e)

/-- The first result: the layer's output [2, 2048, 1024]. -/
def specOut (x : Act) (mask : Mask) (cos sin : Rot) (Wq : Mat) (bq : Bias) (Wk : Mat) (bk : Bias) (Wv : Mat) (bv : Bias)
    (Wo : Mat) (bo : Bias) : (⟨3, ![2, 2048, 1024]⟩ : Shape).Idx → EReal :=
  fun i => outAt x mask cos sin Wq bq Wk bk Wv bv Wo bo (i 0) (i 1) (i 2)

theorem specOut_ix3 (x : Act) (mask : Mask) (cos sin : Rot) (Wq : Mat) (bq : Bias) (Wk : Mat) (bk : Bias) (Wv : Mat)
    (bv : Bias) (Wo : Mat) (bo : Bias) (b : Fin 2) (t : Fin 2048) (e : Fin 1024) :
    specOut x mask cos sin Wq bq Wk bk Wv bv Wo bo (ix3 b t e) = outAt x mask cos sin Wq bq Wk bk Wv bv Wo bo b t e := rfl

end Cert.AttnSpec
-- ==== Proof.RefHeads.lean ====
/-
  The reference's three projections, reshaped [2,2048,1024] → [2,2048,16,64] and transposed to [2,16,2048,64],
  read at an index: each is the specification's linear layer, feature 64 h + j of token (b, t).
-/
import proofs.«145299_j26654567039014_2_alg».proof.Proof.Spec
import proofs.«145299_j26654567039014_2_alg».proof.Proof.Gen.ReferenceIdeal.Read

noncomputable section

open scoped BigOperators

namespace Cert.ReferenceIdeal.RefValue

open Cert.ReferenceIdeal Cert.ReferenceIdeal.Read Cert.AttnSpec Idealize.ShloMosaic Idealize.ShloMosaic.ValueIdx

/-! ## The query projection -/

theorem idx_v4_v5 (b : Fin 2) (h : Fin 16) (t : Fin 2048) (j : Fin 64) :
    idx_main_v4 (idx_main_v5 (ix4 b h t j)) = ix3 b t (feat h j) := by
  have hb := b.isLt; have hh := h.isLt; have ht := t.isLt; have hj := j.isLt
  funext a; apply Fin.ext
  match a with
  | ⟨0, _⟩ => show (((b.val * 2048 + t.val) * 16 + h.val) * 64 + j.val) / 2097152 = b.val; omega
  | ⟨1, _⟩ => show (((b.val * 2048 + t.val) * 16 + h.val) * 64 + j.val) / 1024 % 2048 = t.val; omega
  | ⟨2, _⟩ => show (((b.val * 2048 + t.val) * 16 + h.val) * 64 + j.val) % 1024 = h.val * 64 + j.val; omega

theorem lidx_v0 (b : Fin 2) (t : Fin 2048) (e k : Fin 1024) : lidx_main_v0 (ix3 b t e) k = ix3 b t k := by
  funext a; apply Fin.ext
  match a with
  | ⟨0, _⟩ => rfl
  | ⟨1, _⟩ => rfl
  | ⟨2, _⟩ => rfl

theorem ridx_v0 (b : Fin 2) (t : Fin 2048) (e k : Fin 1024) : ridx_main_v0 (ix3 b t e) k = ix2 e k := by
  funext a; apply Fin.ext
  match a with
  | ⟨0, _⟩ => rfl
  | ⟨1, _⟩ => rfl

theorem idx_v1_v2 (b : Fin 2) (t : Fin 2048) (e : Fin 1024) : idx_main_v1 (idx_main_v2 (ix3 b t e)) = ix1 e := by
  funext a; apply Fin.ext
  match a with
  | ⟨0, _⟩ => rfl

/-- The query projection, transposed into heads, is the specification's projection read head by head. -/
theorem v5_at (x : Act) (W : Mat) (bias : Bias) (b : Fin 2) (h : Fin 16) (t : Fin 2048) (j : Fin 64) :
    val_main_v5 (F := Ideal) x W bias (ix4 b h t j) = heads x W bias b h t j := by
  rw [val_main_v5_apply, val_main_v4_apply, val_main_v3_apply, val_main_v0_apply, val_main_v2_apply,
    val_main_v1_apply, idx_v4_v5]
  simp only [lidx_v0, ridx_v0, idx_v1_v2, Ideal.addf_def]
  rfl

/-! ## The key projection -/

theorem idx_v10_v11 (b : Fin 2) (h : Fin 16) (t : Fin 2048) (j : Fin 64) :
    idx_main_v10 (idx_main_v11 (ix4 b h t j)) = ix3 b t (feat h j) := by
  have hb := b.isLt; have hh := h.isLt; have ht := t.isLt; have hj := j.isLt
  funext a; apply Fin.ext
  match a with
  | ⟨0, _⟩ => show (((b.val * 2048 + t.val) * 16 + h.val) * 64 + j.val) / 2097152 = b.val; omega
  | ⟨1, _⟩ => show (((b.val * 2048 + t.val) * 16 + h.val) * 64 + j.val) / 1024 % 2048 = t.val; omega
  | ⟨2, _⟩ => show (((b.val * 2048 + t.val) * 16 + h.val) * 64 + j.val) % 1024 = h.val * 64 + j.val; omega

theorem lidx_v6 (b : Fin 2) (t : Fin 2048) (e k : Fin 1024) : lidx_main_v6 (ix3 b t e) k = ix3 b t k := by
  funext a; apply Fin.ext
  match a with
  | ⟨0, _⟩ => rfl
  | ⟨1, _⟩ => rfl
  | ⟨2, _⟩ => rfl

theorem ridx_v6 (b : Fin 2) (t : Fin 2048) (e k : Fin 1024) : ridx_main_v6 (ix3 b t e) k = ix2 e k := by
  funext a; apply Fin.ext
  match a with
  | ⟨0, _⟩ => rfl
  | ⟨1, _⟩ => rfl

theorem idx_v7_v8 (b : Fin 2) (t : Fin 2048) (e : Fin 1024) : idx_main_v7 (idx_main_v8 (ix3 b t e)) = ix1 e := by
  funext a; apply Fin.ext
  match a with
  | ⟨0, _⟩ => rfl

/-- The key projection, transposed into heads, is the specification's projection read head by head. -/
theorem v11_at (x : Act) (W : Mat) (bias : Bias) (b : Fin 2) (h : Fin 16) (t : Fin 2048) (j : Fin 64) :
    val_main_v11 (F := Ideal) x W bias (ix4 b h t j) = heads x W bias b h t j := by
  rw [val_main_v11_apply, val_main_v10_apply, val_main_v9_apply, val_main_v6_apply, val_main_v8_apply,
    val_main_v7_apply, idx_v10_v11]
  simp only [lidx_v6, ridx_v6, idx_v7_v8, Ideal.addf_def]
  rfl

/-! ## The value projection -/

theorem idx_v16_v17 (b : Fin 2) (h : Fin 16) (t : Fin 2048) (j : Fin 64) :
    idx_main_v16 (idx_main_v17 (ix4 b h t j)) = ix3 b t (feat h j) := by
  have hb := b.isLt; have hh := h.isLt; have ht := t.isLt; have hj := j.isLt
  funext a; apply Fin.ext
  match a with
  | ⟨0, _⟩ => show (((b.val * 2048 + t.val) * 16 + h.val) * 64 + j.val) / 2097152 = b.val; omega
  | ⟨1, _⟩ => show (((b.val * 2048 + t.val) * 16 + h.val) * 64 + j.val) / 1024 % 2048 = t.val; omega
  | ⟨2, _⟩ => show (((b.val * 2048 + t.val) * 16 + h.val) * 64 + j.val) % 1024 = h.val * 64 + j.val; omega

theorem lidx_v12 (b : Fin 2) (t : Fin 2048) (e k : Fin 1024) : lidx_main_v12 (ix3 b t e) k = ix3 b t k := by
  funext a; apply Fin.ext
  match a with
  | ⟨0, _⟩ => rfl
  | ⟨1, _⟩ => rfl
  | ⟨2, _⟩ => rfl

theorem ridx_v12 (b : Fin 2) (t : Fin 2048) (e k : Fin 1024) : ridx_main_v12 (ix3 b t e) k = ix2 e k := by
  funext a; apply Fin.ext
  match a with
  | ⟨0, _⟩ => rfl
  | ⟨1, _⟩ => rfl

theorem idx_v13_v14 (b : Fin 2) (t : Fin 2048) (e : Fin 1024) : idx_main_v13 (idx_main_v14 (ix3 b t e)) = ix1 e := by
  funext a; apply Fin.ext
  match a with
  | ⟨0, _⟩ => rfl

/-- The value projection, transposed into heads, is the specification's projection read head by head. -/
theorem v17_at (x : Act) (W : Mat) (bias : Bias) (b : Fin 2) (h : Fin 16) (t : Fin 2048) (j : Fin 64) :
    val_main_v17 (F := Ideal) x W bias (ix4 b h t j) = heads x W bias b h t j := by
  rw [val_main_v17_apply, val_main_v16_apply, val_main_v15_apply, val_main_v12_apply, val_main_v14_apply,
    val_main_v13_apply, idx_v16_v17]
  simp only [lidx_v12, ridx_v12, idx_v13_v14, Ideal.addf_def]
  rfl

end Cert.ReferenceIdeal.RefValue
-- ==== Proof.RefRotary.lean ====
/-
  The reference's rotary embedding read at an index. It slices a head's positions into halves, multiplies by
  the broadcast tables and joins the two results along the positions; at position j the joined array is the
  specification's rotation.
-/
import proofs.«145299_j26654567039014_2_alg».proof.Proof.Spec
import proofs.«145299_j26654567039014_2_alg».proof.Proof.Gen.ReferenceIdeal.Read
import proofs.«145299_j26654567039014_2_alg».proof.Proof.RefHeads

noncomputable section

open scoped BigOperators

namespace Cert.ReferenceIdeal.RefValue

open Cert.ReferenceIdeal Cert.ReferenceIdeal.Read Cert.AttnSpec Idealize.ShloMosaic Idealize.ShloMosaic.ValueIdx

/-- Column c of the rotary tables as a low position of a head. -/
def lo64 (c : Fin 32) : Fin 64 := ⟨c.val, by have := c.isLt; omega⟩
/-- Column c of the rotary tables as a high position of a head. -/
def hi64 (c : Fin 32) : Fin 64 := ⟨32 + c.val, by have := c.isLt; omega⟩

theorem lo64_lowCol (j : Fin 64) (hj : j.val < 32) : lo64 (lowCol j hj) = j := Fin.ext rfl
theorem hi64_lowCol (j : Fin 64) (hj : j.val < 32) : hi64 (lowCol j hj) = upper j hj := Fin.ext (Nat.add_comm 32 j.val)
theorem hi64_highCol (j : Fin 64) (hj : ¬ j.val < 32) : hi64 (highCol j hj) = j :=
  Fin.ext (by show 32 + (j.val - 32) = j.val; omega)
theorem lo64_highCol (j : Fin 64) (hj : ¬ j.val < 32) : lo64 (highCol j hj) = lower j hj := Fin.ext rfl

/-! ## The rotated queries -/

theorem idx_v20 (b : Fin 2) (h : Fin 16) (t : Fin 2048) (c : Fin 32) :
    idx_main_v20 (ix4 b h t c) = ix4 b h t (lo64 c) := by
  funext a; apply Fin.ext
  match a with
  | ⟨0, _⟩ => rfl
  | ⟨1, _⟩ => rfl
  | ⟨2, _⟩ => rfl
  | ⟨3, _⟩ => rfl

theorem idx_v21 (b : Fin 2) (h : Fin 16) (t : Fin 2048) (c : Fin 32) :
    idx_main_v21 (ix4 b h t c) = ix4 b h t (hi64 c) := by
  funext a; apply Fin.ext
  match a with
  | ⟨0, _⟩ => rfl
  | ⟨1, _⟩ => rfl
  | ⟨2, _⟩ => rfl
  | ⟨3, _⟩ => rfl

theorem idx_v18_v24 (b : Fin 2) (h : Fin 16) (t : Fin 2048) (c : Fin 32) :
    idx_main_v18 (idx_main_v24 (ix4 b h t c)) = ix3 0 t c := by
  funext a; apply Fin.ext
  match a with
  | ⟨0, _⟩ => rfl
  | ⟨1, _⟩ => rfl
  | ⟨2, _⟩ => rfl

theorem idx_v19_v26 (b : Fin 2) (h : Fin 16) (t : Fin 2048) (c : Fin 32) :
    idx_main_v19 (idx_main_v26 (ix4 b h t c)) = ix3 0 t c := by
  funext a; apply Fin.ext
  match a with
  | ⟨0, _⟩ => rfl
  | ⟨1, _⟩ => rfl
  | ⟨2, _⟩ => rfl

theorem idx_v18_v29 (b : Fin 2) (h : Fin 16) (t : Fin 2048) (c : Fin 32) :
    idx_main_v18 (idx_main_v29 (ix4 b h t c)) = ix3 0 t c := by
  funext a; apply Fin.ext
  match a with
  | ⟨0, _⟩ => rfl
  | ⟨1, _⟩ => rfl
  | ⟨2, _⟩ => rfl

theorem idx_v19_v31 (b : Fin 2) (h : Fin 16) (t : Fin 2048) (c : Fin 32) :
    idx_main_v19 (idx_main_v31 (ix4 b h t c)) = ix3 0 t c := by
  funext a; apply Fin.ext
  match a with
  | ⟨0, _⟩ => rfl
  | ⟨1, _⟩ => rfl
  | ⟨2, _⟩ => rfl

/-- The low half of the rotated queries: y[c] cos[t, c] − y[c + 32] sin[t, c]. -/
theorem v28_at (x : Act) (cos sin : Rot) (W : Mat) (bias : Bias) (b : Fin 2) (h : Fin 16) (t : Fin 2048) (c : Fin 32) :
    val_main_v28 (F := Ideal) x cos sin W bias (ix4 b h t c)
      = heads x W bias b h t (lo64 c) * cos (ix3 0 t c) - heads x W bias b h t (hi64 c) * sin (ix3 0 t c) := by
  rw [val_main_v28_apply, val_main_v25_apply, val_main_v27_apply, val_main_v20_apply, val_main_v21_apply,
    val_main_v24_apply, val_main_v26_apply, val_main_v18_apply, val_main_v19_apply]
  simp only [idx_v20, idx_v21, idx_v18_v24, idx_v19_v26, v5_at, Ideal.subf_def, Ideal.mulf_def]

/-- The high half of the rotated queries: y[c + 32] cos[t, c] + y[c] sin[t, c]. -/
theorem v33_at (x : Act) (cos sin : Rot) (W : Mat) (bias : Bias) (b : Fin 2) (h : Fin 16) (t : Fin 2048) (c : Fin 32) :
    val_main_v33 (F := Ideal) x cos sin W bias (ix4 b h t c)
      = heads x W bias b h t (hi64 c) * cos (ix3 0 t c) + heads x W bias b h t (lo64 c) * sin (ix3 0 t c) := by
  rw [val_main_v33_apply, val_main_v30_apply, val_main_v32_apply, val_main_v20_apply, val_main_v21_apply,
    val_main_v29_apply, val_main_v31_apply, val_main_v18_apply, val_main_v19_apply]
  simp only [idx_v20, idx_v21, idx_v18_v29, idx_v19_v31, v5_at, Ideal.addf_def, Ideal.mulf_def]

/-- The rotated queries: the two halves joined along the head's positions are the specification's rotation. -/
theorem v34_at (x : Act) (cos sin : Rot) (W : Mat) (bias : Bias) (b : Fin 2) (h : Fin 16) (t : Fin 2048) (j : Fin 64) :
    val_main_v34 (F := Ideal) x cos sin W bias (ix4 b h t j) = rotary cos sin (heads x W bias) b h t j := by
  unfold val_main_v34 rotary
  by_cases hj : j.val < 32
  · rw [dif_pos hj]
    refine (concatenate_pair_apply_left (t := S2x16x2048x64) (s₁ := S2x16x2048x32) (s₂ := S2x16x2048x32) _ _ _ _ (ix4 b h t j) rfl
      (ix4 b h t (lowCol j hj)) ?_).trans ?_
    · intro a
      match a with
      | ⟨0, _⟩ => rfl
      | ⟨1, _⟩ => rfl
      | ⟨2, _⟩ => rfl
      | ⟨3, _⟩ => rfl
    · rw [v28_at, lo64_lowCol, hi64_lowCol]
  · rw [dif_neg hj]
    refine (concatenate_pair_apply_right (t := S2x16x2048x64) (s₁ := S2x16x2048x32) (s₂ := S2x16x2048x32) _ _ _ _ (ix4 b h t j) rfl rfl
      (ix4 b h t (highCol j hj)) ?_ ?_).trans ?_
    · intro a ha
      match a with
      | ⟨0, _⟩ => rfl
      | ⟨1, _⟩ => rfl
      | ⟨2, _⟩ => rfl
      | ⟨3, _⟩ => exact absurd rfl ha
    · have := j.isLt
      show j.val - 32 + 32 = j.val
      omega
    · rw [v33_at, hi64_highCol, lo64_highCol]

/-! ## The rotated keys -/

theorem idx_v22 (b : Fin 2) (h : Fin 16) (t : Fin 2048) (c : Fin 32) :
    idx_main_v22 (ix4 b h t c) = ix4 b h t (lo64 c) := by
  funext a; apply Fin.ext
  match a with
  | ⟨0, _⟩ => rfl
  | ⟨1, _⟩ => rfl
  | ⟨2, _⟩ => rfl
  | ⟨3, _⟩ => rfl

theorem idx_v23 (b : Fin 2) (h : Fin 16) (t : Fin 2048) (c : Fin 32) :
    idx_main_v23 (ix4 b h t c) = ix4 b h t (hi64 c) := by
  funext a; apply Fin.ext
  match a with
  | ⟨0, _⟩ => rfl
  | ⟨1, _⟩ => rfl
  | ⟨2, _⟩ => rfl
  | ⟨3, _⟩ => rfl

theorem idx_v18_v35 (b : Fin 2) (h : Fin 16) (t : Fin 2048) (c : Fin 32) :
    idx_main_v18 (idx_main_v35 (ix4 b h t c)) = ix3 0 t c := by
  funext a; apply Fin.ext
  match a with
  | ⟨0, _⟩ => rfl
  | ⟨1, _⟩ => rfl
  | ⟨2, _⟩ => rfl

theorem idx_v19_v37 (b : Fin 2) (h : Fin 16) (t : Fin 2048) (c : Fin 32) :
    idx_main_v19 (idx_main_v37 (ix4 b h t c)) = ix3 0 t c := by
  funext a; apply Fin.ext
  match a with
  | ⟨0, _⟩ => rfl
  | ⟨1, _⟩ => rfl
  | ⟨2, _⟩ => rfl

theorem idx_v18_v40 (b : Fin 2) (h : Fin 16) (t : Fin 2048) (c : Fin 32) :
    idx_main_v18 (idx_main_v40 (ix4 b h t c)) = ix3 0 t c := by
  funext a; apply Fin.ext
  match a with
  | ⟨0, _⟩ => rfl
  | ⟨1, _⟩ => rfl
  | ⟨2, _⟩ => rfl

theorem idx_v19_v42 (b : Fin 2) (h : Fin 16) (t : Fin 2048) (c : Fin 32) :
    idx_main_v19 (idx_main_v42 (ix4 b h t c)) = ix3 0 t c := by
  funext a; apply Fin.ext
  match a with
  | ⟨0, _⟩ => rfl
  | ⟨1, _⟩ => rfl
  | ⟨2, _⟩ => rfl

/-- The low half of the rotated keys: y[c] cos[t, c] − y[c + 32] sin[t, c]. -/
theorem v39_at (x : Act) (cos sin : Rot) (W : Mat) (bias : Bias) (b : Fin 2) (h : Fin 16) (t : Fin 2048) (c : Fin 32) :
    val_main_v39 (F := Ideal) x cos sin W bias (ix4 b h t c)
      = heads x W bias b h t (lo64 c) * cos (ix3 0 t c) - heads x W bias b h t (hi64 c) * sin (ix3 0 t c) := by
  rw [val_main_v39_apply, val_main_v36_apply, val_main_v38_apply, val_main_v22_apply, val_main_v23_apply,
    val_main_v35_apply, val_main_v37_apply, val_main_v18_apply, val_main_v19_apply]
  simp only [idx_v22, idx_v23, idx_v18_v35, idx_v19_v37, v11_at, Ideal.subf_def, Ideal.mulf_def]

/-- The high half of the rotated keys: y[c + 32] cos[t, c] + y[c] sin[t, c]. -/
theorem v44_at (x : Act) (cos sin : Rot) (W : Mat) (bias : Bias) (b : Fin 2) (h : Fin 16) (t : Fin 2048) (c : Fin 32) :
    val_main_v44 (F := Ideal) x cos sin W bias (ix4 b h t c)
      = heads x W bias b h t (hi64 c) * cos (ix3 0 t c) + heads x W bias b h t (lo64 c) * sin (ix3 0 t c) := by
  rw [val_main_v44_apply, val_main_v41_apply, val_main_v43_apply, val_main_v22_apply, val_main_v23_apply,
    val_main_v40_apply, val_main_v42_apply, val_main_v18_apply, val_main_v19_apply]
  simp only [idx_v22, idx_v23, idx_v18_v40, idx_v19_v42, v11_at, Ideal.addf_def, Ideal.mulf_def]

/-- The rotated keys: the two halves joined along the head's positions are the specification's rotation. -/
theorem v45_at (x : Act) (cos sin : Rot) (W : Mat) (bias : Bias) (b : Fin 2) (h : Fin 16) (t : Fin 2048) (j : Fin 64) :
    val_main_v45 (F := Ideal) x cos sin W bias (ix4 b h t j) = rotary cos sin (heads x W bias) b h t j := by
  unfold val_main_v45 rotary
  by_cases hj : j.val < 32
  · rw [dif_pos hj]
    refine (concatenate_pair_apply_left (t := S2x16x2048x64) (s₁ := S2x16x2048x32) (s₂ := S2x16x2048x32) _ _ _ _ (ix4 b h t j) rfl
      (ix4 b h t (lowCol j hj)) ?_).trans ?_
    · intro a
      match a with
      | ⟨0, _⟩ => rfl
      | ⟨1, _⟩ => rfl
      | ⟨2, _⟩ => rfl
      | ⟨3, _⟩ => rfl
    · rw [v39_at, lo64_lowCol, hi64_lowCol]
  · rw [dif_neg hj]
    refine (concatenate_pair_apply_right (t := S2x16x2048x64) (s₁ := S2x16x2048x32) (s₂ := S2x16x2048x32) _ _ _ _ (ix4 b h t j) rfl rfl
      (ix4 b h t (highCol j hj)) ?_ ?_).trans ?_
    · intro a ha
      match a with
      | ⟨0, _⟩ => rfl
      | ⟨1, _⟩ => rfl
      | ⟨2, _⟩ => rfl
      | ⟨3, _⟩ => exact absurd rfl ha
    · have := j.isLt
      show j.val - 32 + 32 = j.val
      omega
    · rw [v44_at, hi64_highCol, lo64_highCol]

end Cert.ReferenceIdeal.RefValue
-- ==== Proof.RefScores.lean ====
/-
  The reference's scores read at an index: the contraction of the rotated queries and keys over a head's 64
  positions, divided by the square root of the head width, plus the broadcast mask.
-/
import proofs.«145299_j26654567039014_2_alg».proof.Proof.Spec
import proofs.«145299_j26654567039014_2_alg».proof.Proof.Gen.ReferenceIdeal.Read
import proofs.«145299_j26654567039014_2_alg».proof.Proof.RefRotary

noncomputable section

open scoped BigOperators

namespace Cert.ReferenceIdeal.RefValue

open Cert.ReferenceIdeal Cert.ReferenceIdeal.Read Cert.AttnSpec Idealize.ShloMosaic Idealize.ShloMosaic.ValueIdx

theorem lidx_v46 (b : Fin 2) (h : Fin 16) (q k : Fin 2048) (c : Fin 64) :
    lidx_main_v46 (ix4 b h q k) c = ix4 b h q c := by
  funext a; apply Fin.ext
  match a with
  | ⟨0, _⟩ => rfl
  | ⟨1, _⟩ => rfl
  | ⟨2, _⟩ => rfl
  | ⟨3, _⟩ => rfl

theorem ridx_v46 (b : Fin 2) (h : Fin 16) (q k : Fin 2048) (c : Fin 64) :
    ridx_main_v46 (ix4 b h q k) c = ix4 b h k c := by
  funext a; apply Fin.ext
  match a with
  | ⟨0, _⟩ => rfl
  | ⟨1, _⟩ => rfl
  | ⟨2, _⟩ => rfl
  | ⟨3, _⟩ => rfl

theorem idx_v50 (b : Fin 2) (h : Fin 16) (q k : Fin 2048) : idx_main_v50 (ix4 b h q k) = ix4 0 0 q k := by
  funext a; apply Fin.ext
  match a with
  | ⟨0, _⟩ => rfl
  | ⟨1, _⟩ => rfl
  | ⟨2, _⟩ => rfl
  | ⟨3, _⟩ => rfl

/-- The reference's masked, scaled scores are the specification's. -/
theorem v51_at (x : Act) (mask : Mask) (cos sin : Rot) (Wq : Mat) (bq : Bias) (Wk : Mat) (bk : Bias)
    (b : Fin 2) (h : Fin 16) (q k : Fin 2048) :
    val_main_v51 (F := Ideal) x mask cos sin Wq bq Wk bk (ix4 b h q k)
      = scores mask (queries x cos sin Wq bq) (keys x cos sin Wk bk) b h q k := by
  rw [val_main_v51_apply, val_main_v49_apply, val_main_v46_apply, val_main_v48_apply, val_main_v47_apply,
    val_main_cst_apply, val_main_v50_apply]
  simp only [lidx_v46, ridx_v46, idx_v50, v34_at, v45_at, Ideal.addf_def, Ideal.hostDivf_def, Ideal.hostUnary_sqrt_def,
    Ideal.ofBits_def]
  rfl

end Cert.ReferenceIdeal.RefValue
-- ==== Proof.RefWeights.lean ====
/-
  The reference's softmax read at an index: the row maximum (a fold of max from −∞ over the keys, then one more
  max against −∞, which changes nothing), the exponentials of the differences, the row sum from 0, and the
  quotient. This is the second result.
-/
import proofs.«145299_j26654567039014_2_alg».proof.Proof.Spec
import proofs.«145299_j26654567039014_2_alg».proof.Proof.Gen.ReferenceIdeal.Read
import proofs.«145299_j26654567039014_2_alg».proof.Proof.RefScores

noncomputable section

open scoped BigOperators

namespace Cert.ReferenceIdeal.RefValue

open Cert.ReferenceIdeal Cert.ReferenceIdeal.Gen Cert.ReferenceIdeal.Read Cert.AttnSpec Idealize.ShloMosaic Idealize.ShloMosaic.ValueIdx

/-- A reduced index with key k put back on the last axis. -/
theorem lift_rows (hR : S2x16x2048x2048.Reduces [3] S2x16x2048) (b : Fin 2) (h : Fin 16) (q : Fin 2048)
    (k : Fin (S2x16x2048x2048.size 3)) : hR.lift (ix3 b h q) k = ix4 b h q (⟨k.val, k.isLt⟩ : Fin 2048) := by
  funext c; apply Fin.ext
  fin_cases c <;> rfl

theorem idx_v55_v56 (b : Fin 2) (h : Fin 16) (q k : Fin 2048) :
    idx_main_v55 (idx_main_v56 (ix4 b h q k)) = ix3 b h q := by
  funext a; apply Fin.ext
  match a with
  | ⟨0, _⟩ => rfl
  | ⟨1, _⟩ => rfl
  | ⟨2, _⟩ => rfl

theorem idx_v60_v61 (b : Fin 2) (h : Fin 16) (q k : Fin 2048) :
    idx_main_v60 (idx_main_v61 (ix4 b h q k)) = ix3 b h q := by
  funext a; apply Fin.ext
  match a with
  | ⟨0, _⟩ => rfl
  | ⟨1, _⟩ => rfl
  | ⟨2, _⟩ => rfl

theorem idx_v59 (b : Fin 2) (h : Fin 16) (q k : Fin 2048) : idx_main_v59 (ix3 b h q) k = ix4 b h q k := by
  funext a; apply Fin.ext
  match a with
  | ⟨0, _⟩ => rfl
  | ⟨1, _⟩ => rfl
  | ⟨2, _⟩ => rfl
  | ⟨3, _⟩ => rfl

/-- The host's max-reduce over the keys, from −∞, is the fold of max over the keys. -/
theorem reduce_rows (y : S2x16x2048x2048.Idx → EReal) (b : Fin 2) (h : Fin 16) (q : Fin 2048) :
    Host.reduce (FloatOps.maximumf (F := Ideal) (φ := .f32)) y (val_main_cst_0 (F := Ideal))
        reducesTo_S2x16x2048x2048_S2x16x2048_d3 h_S_ (ix3 b h q)
      = (Finset.univ : Finset (Fin 2048)).fold max negInf (fun k => y (ix4 b h q k)) := by
  rw [Host.reduce_eq_fold_single (FloatOps.maximumf (F := Ideal) (φ := .f32)) y _ reducesTo_S2x16x2048x2048_S2x16x2048_d3
    (by decide) h_S_]
  exact congrArg (fun f => Finset.fold max negInf f (Finset.univ : Finset (Fin 2048)))
    (funext fun k => congrArg y (lift_rows _ b h q k))

/-- The reference's row maximum is the specification's. -/
theorem v54_at (x : Act) (mask : Mask) (cos sin : Rot) (Wq : Mat) (bq : Bias) (Wk : Mat) (bk : Bias) (b : Fin 2) (h : Fin 16) (q : Fin 2048) :
    val_main_v54 (F := Ideal) x mask cos sin Wq bq Wk bk (ix3 b h q) = rowMax (scores mask (queries x cos sin Wq bq) (keys x cos sin Wk bk)) b h q := by
  have hbot : ∀ y : EReal, max (Ideal.ofBits .f32 0xFF800000#32) y = y := fun y =>
    max_eq_right (by show negInf ≤ y; rw [negInf_eq_bot]; exact bot_le)
  rw [val_main_v54_apply, val_main_v53_apply, val_main_cst_1_apply]
  unfold val_main_v52
  rw [reduce_rows]
  simp only [v51_at, Ideal.maximumf_def, Ideal.ofBits_def, hbot]
  rfl

/-- The reference's exponentials are the specification's. -/
theorem v58_at (x : Act) (mask : Mask) (cos sin : Rot) (Wq : Mat) (bq : Bias) (Wk : Mat) (bk : Bias) (b : Fin 2) (h : Fin 16) (q k : Fin 2048) :
    val_main_v58 (F := Ideal) x mask cos sin Wq bq Wk bk (ix4 b h q k) = expShift (scores mask (queries x cos sin Wq bq) (keys x cos sin Wk bk)) b h q k := by
  rw [val_main_v58_apply, val_main_v57_apply, val_main_v56_apply, val_main_v55_apply, idx_v55_v56, v54_at, v51_at]
  simp only [Ideal.hostUnary_exp_def, Ideal.subf_def]
  rfl

/-- The reference's row sum is the specification's. -/
theorem v59_at (x : Act) (mask : Mask) (cos sin : Rot) (Wq : Mat) (bq : Bias) (Wk : Mat) (bk : Bias) (b : Fin 2) (h : Fin 16) (q : Fin 2048) :
    val_main_v59 (F := Ideal) x mask cos sin Wq bq Wk bk (ix3 b h q) = rowSum (scores mask (queries x cos sin Wq bq) (keys x cos sin Wk bk)) b h q := by
  rw [val_main_v59_apply, val_main_cst_2_apply]
  simp only [idx_v59, v58_at, Ideal.ofBits_def]
  rfl

/-- The reference's attention weights are the specification's softmax. -/
theorem v62_at (x : Act) (mask : Mask) (cos sin : Rot) (Wq : Mat) (bq : Bias) (Wk : Mat) (bk : Bias) (b : Fin 2) (h : Fin 16) (q k : Fin 2048) :
    val_main_v62 (F := Ideal) x mask cos sin Wq bq Wk bk (ix4 b h q k) = awAt x mask cos sin Wq bq Wk bk b h q k := by
  rw [val_main_v62_apply, val_main_v61_apply, val_main_v60_apply, idx_v60_v61, v59_at, v58_at]
  simp only [Ideal.hostDivf_def]
  rfl

/-- The reference's second result is the specification's attention weights. -/
theorem v62_eq_specAw (x : Act) (mask : Mask) (cos sin : Rot) (Wq : Mat) (bq : Bias) (Wk : Mat) (bk : Bias) :
    val_main_v62 (F := Ideal) x mask cos sin Wq bq Wk bk = specAw x mask cos sin Wq bq Wk bk := by
  funext i
  obtain ⟨b, h, q, k, rfl⟩ : ∃ (b : Fin 2) (h : Fin 16) (q k : Fin 2048), i = ix4 b h q k :=
    ⟨i 0, i 1, i 2, i 3, eq_ix4 i⟩
  rw [v62_at, specAw_ix4]

end Cert.ReferenceIdeal.RefValue
-- ==== Proof.RefOut.lean ====
/-
  The reference's context and output read at an index: the attention weights against the value heads, the heads
  transposed back and merged into features, and the output projection. This is the first result.
-/
import proofs.«145299_j26654567039014_2_alg».proof.Proof.Spec
import proofs.«145299_j26654567039014_2_alg».proof.Proof.Gen.ReferenceIdeal.Read
import proofs.«145299_j26654567039014_2_alg».proof.Proof.RefWeights

noncomputable section

open scoped BigOperators

namespace Cert.ReferenceIdeal.RefValue

open Cert.ReferenceIdeal Cert.ReferenceIdeal.Read Cert.AttnSpec Idealize.ShloMosaic Idealize.ShloMosaic.ValueIdx

theorem lidx_v63 (b : Fin 2) (h : Fin 16) (q : Fin 2048) (j : Fin 64) (k : Fin 2048) :
    lidx_main_v63 (ix4 b h q j) k = ix4 b h q k := by
  funext a; apply Fin.ext
  match a with
  | ⟨0, _⟩ => rfl
  | ⟨1, _⟩ => rfl
  | ⟨2, _⟩ => rfl
  | ⟨3, _⟩ => rfl

theorem ridx_v63 (b : Fin 2) (h : Fin 16) (q : Fin 2048) (j : Fin 64) (k : Fin 2048) :
    ridx_main_v63 (ix4 b h q j) k = ix4 b h k j := by
  funext a; apply Fin.ext
  match a with
  | ⟨0, _⟩ => rfl
  | ⟨1, _⟩ => rfl
  | ⟨2, _⟩ => rfl
  | ⟨3, _⟩ => rfl

/-- Feature e of token (b, t) of the merged array is position e % 64 of head e / 64. -/
theorem idx_v64_v65 (b : Fin 2) (t : Fin 2048) (e : Fin 1024) :
    idx_main_v64 (idx_main_v65 (ix3 b t e)) = ix4 b (headOf e) t (posOf e) := by
  have hb := b.isLt; have ht := t.isLt; have he := e.isLt
  funext a; apply Fin.ext
  match a with
  | ⟨0, _⟩ => show ((b.val * 2048 + t.val) * 1024 + e.val) / 2097152 = b.val; omega
  | ⟨1, _⟩ => show ((b.val * 2048 + t.val) * 1024 + e.val) / 64 % 16 = e.val / 64; omega
  | ⟨2, _⟩ => show ((b.val * 2048 + t.val) * 1024 + e.val) / 1024 % 2048 = t.val; omega
  | ⟨3, _⟩ => show ((b.val * 2048 + t.val) * 1024 + e.val) % 64 = e.val % 64; omega

theorem lidx_v66 (b : Fin 2) (t : Fin 2048) (e k : Fin 1024) : lidx_main_v66 (ix3 b t e) k = ix3 b t k := by
  funext a; apply Fin.ext
  match a with
  | ⟨0, _⟩ => rfl
  | ⟨1, _⟩ => rfl
  | ⟨2, _⟩ => rfl

theorem ridx_v66 (b : Fin 2) (t : Fin 2048) (e k : Fin 1024) : ridx_main_v66 (ix3 b t e) k = ix2 e k := by
  funext a; apply Fin.ext
  match a with
  | ⟨0, _⟩ => rfl
  | ⟨1, _⟩ => rfl

theorem idx_v67_v68 (b : Fin 2) (t : Fin 2048) (e : Fin 1024) : idx_main_v67 (idx_main_v68 (ix3 b t e)) = ix1 e := by
  funext a; apply Fin.ext
  match a with
  | ⟨0, _⟩ => rfl

/-- The reference's context is the specification's: the weights of a query against the value heads. -/
theorem v63_at (x : Act) (mask : Mask) (cos sin : Rot) (Wq : Mat) (bq : Bias) (Wk : Mat) (bk : Bias) (Wv : Mat) (bv : Bias) (b : Fin 2) (h : Fin 16) (q : Fin 2048) (j : Fin 64) :
    val_main_v63 (F := Ideal) x mask cos sin Wq bq Wk bk Wv bv (ix4 b h q j) = context (awAt x mask cos sin Wq bq Wk bk) (heads x Wv bv) b h q j := by
  rw [val_main_v63_apply]
  simp only [lidx_v63, ridx_v63, v62_at, v17_at]
  rfl

/-- The reference's merged context is the specification's. -/
theorem v65_at (x : Act) (mask : Mask) (cos sin : Rot) (Wq : Mat) (bq : Bias) (Wk : Mat) (bk : Bias) (Wv : Mat) (bv : Bias) (b : Fin 2) (t : Fin 2048) (e : Fin 1024) :
    val_main_v65 (F := Ideal) x mask cos sin Wq bq Wk bk Wv bv (ix3 b t e) = merged (context (awAt x mask cos sin Wq bq Wk bk) (heads x Wv bv)) b t e := by
  rw [val_main_v65_apply, val_main_v64_apply, idx_v64_v65, v63_at]
  rfl

/-- The reference's output is the specification's. -/
theorem v69_at (x : Act) (mask : Mask) (cos sin : Rot) (Wq : Mat) (bq : Bias) (Wk : Mat) (bk : Bias) (Wv : Mat) (bv : Bias) (Wo : Mat) (bo : Bias) (b : Fin 2) (t : Fin 2048) (e : Fin 1024) :
    val_main_v69 (F := Ideal) x mask cos sin Wq bq Wk bk Wv bv Wo bo (ix3 b t e) = outAt x mask cos sin Wq bq Wk bk Wv bv Wo bo b t e := by
  rw [val_main_v69_apply, val_main_v66_apply, val_main_v68_apply, val_main_v67_apply]
  simp only [lidx_v66, ridx_v66, idx_v67_v68, v65_at, Ideal.addf_def]
  rfl

/-- The reference's first result is the specification's output. -/
theorem v69_eq_specOut (x : Act) (mask : Mask) (cos sin : Rot) (Wq : Mat) (bq : Bias) (Wk : Mat) (bk : Bias) (Wv : Mat) (bv : Bias) (Wo : Mat) (bo : Bias) :
    val_main_v69 (F := Ideal) x mask cos sin Wq bq Wk bk Wv bv Wo bo = specOut x mask cos sin Wq bq Wk bk Wv bv Wo bo := by
  funext i
  obtain ⟨b, t, e, rfl⟩ : ∃ (b : Fin 2) (t : Fin 2048) (e : Fin 1024), i = ix3 b t e := ⟨i 0, i 1, i 2, eq_ix3 i⟩
  rw [v69_at, specOut_ix3]

end Cert.ReferenceIdeal.RefValue
-- ==== Proof.RefIsSpec.lean ====
/-
  The reference is the specification: its two results, as the generated stage functions of the argument arrays
  and as the terms its run leaves in memory, are the specification's output and attention weights.
-/
import proofs.«145299_j26654567039014_2_alg».proof.Proof.Spec
import proofs.«145299_j26654567039014_2_alg».proof.Proof.Gen.ReferenceIdeal.Read
import proofs.«145299_j26654567039014_2_alg».proof.Proof.RefWeights
import proofs.«145299_j26654567039014_2_alg».proof.Proof.RefOut

noncomputable section

open scoped BigOperators

namespace Cert.ReferenceIdeal.RefValue

open Cert.ReferenceIdeal Cert.ReferenceIdeal.Gen Cert.ReferenceIdeal.Read Idealize.SL.Sem Idealize.ShloMosaic.TcCoe Cert.AttnSpec Idealize.ShloMosaic Idealize.ShloMosaic.ValueIdx

/-- The reference's first result is the specification's output. -/
theorem ref_out_eq (x : Act) (mask : Mask) (cos sin : Rot) (Wq : Mat) (bq : Bias) (Wk : Mat) (bk : Bias) (Wv : Mat) (bv : Bias) (Wo : Mat) (bo : Bias) :
    val_main_v69 (F := Ideal) x mask cos sin Wq bq Wk bk Wv bv Wo bo = specOut x mask cos sin Wq bq Wk bk Wv bv Wo bo :=
  v69_eq_specOut x mask cos sin Wq bq Wk bk Wv bv Wo bo

/-- The reference's second result is the specification's attention weights. -/
theorem ref_aw_eq (x : Act) (mask : Mask) (cos sin : Rot) (Wq : Mat) (bq : Bias) (Wk : Mat) (bk : Bias) :
    val_main_v62 (F := Ideal) x mask cos sin Wq bq Wk bk = specAw x mask cos sin Wq bq Wk bk :=
  v62_eq_specAw x mask cos sin Wq bq Wk bk

/-- What the reference's run leaves in its first result, in terms of the arguments in memory. -/
theorem res_out_eq (m : (ℓ : Loc nD τ sig) → Buf (Elt Ideal) ℓ) (c : Dev nD) :
    Cert.ReferenceIdeal.Value.res_main_v69 m c = specOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (val_main_v69_eq m c).trans (ref_out_eq _ _ _ _ _ _ _ _ _ _ _ _)

/-- What the reference's run leaves in its second result, in terms of the arguments in memory. -/
theorem res_aw_eq (m : (ℓ : Loc nD τ sig) → Buf (Elt Ideal) ℓ) (c : Dev nD) :
    Cert.ReferenceIdeal.Value.res_main_v62 m c = specAw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (val_main_v62_eq m c).trans (ref_aw_eq _ _ _ _ _ _ _ _)

end Cert.ReferenceIdeal.RefValue
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.PayProj.lean ====
/-
  The two projection kernels' arithmetic read at an entry, on the extended reals.

  The fused projection: a block of 512 rows of x against the 3072 stacked weight rows, plus the bias row; entry (p, c)
  is (Σ_k x[p, k] · w[c, k]) + b[0, c].  Its three blocks of 1024 columns are the three projections: entry (p, q) of
  block i is entry (p, 1024·i + q) of the whole.  The output projection is the same affine map with 1024 weight rows.
  A change of float format is the identity on the extended reals and a matrix product accumulated into the zero matrix
  is the plain sum of products.
-/
import proofs.«145299_j26654567039014_2_alg».proof.Proof.Gen.KernelIdeal.Skeleton
import proofs.«145299_j26654567039014_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## The free coordinates of the two products' operand indices -/

theorem projDot_lhs0 (j : S512x3072.Idx) (k : dot_S512x1024_S3072x1024_S512x3072_1_1_0_0_n_n.contr.Idx) :
    (dot_S512x1024_S3072x1024_S512x3072_1_1_0_0_n_n.lhsIdx j k 0).val = (j 0).val := by
  unfold DotDims.lhsIdx
  rw [dif_neg (show ¬(0 : Fin S512x1024.rank) ∈ dot_S512x1024_S3072x1024_S512x3072_1_1_0_0_n_n.lhsBatch by decide),
    dif_pos (show (0 : Fin S512x1024.rank) ∈ dot_S512x1024_S3072x1024_S512x3072_1_1_0_0_n_n.lhsNonContracting by decide)]
  rfl

theorem projDot_rhs0 (j : S512x3072.Idx) (k : dot_S512x1024_S3072x1024_S512x3072_1_1_0_0_n_n.contr.Idx) :
    (dot_S512x1024_S3072x1024_S512x3072_1_1_0_0_n_n.rhsIdx j k 0).val = (j 1).val := by
  unfold DotDims.rhsIdx
  rw [dif_neg (show ¬(0 : Fin S3072x1024.rank) ∈ dot_S512x1024_S3072x1024_S512x3072_1_1_0_0_n_n.rhsBatch by decide),
    dif_pos (show (0 : Fin S3072x1024.rank) ∈ dot_S512x1024_S3072x1024_S512x3072_1_1_0_0_n_n.rhsNonContracting by decide)]
  rfl

theorem outDot_lhs0 (j : S512x1024.Idx) (k : dot_S512x1024_S1024x1024_S512x1024_1_1_0_0_n_n.contr.Idx) :
    (dot_S512x1024_S1024x1024_S512x1024_1_1_0_0_n_n.lhsIdx j k 0).val = (j 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

theorem outDot_rhs0 (j : S512x1024.Idx) (k : dot_S512x1024_S1024x1024_S512x1024_1_1_0_0_n_n.contr.Idx) :
    (dot_S512x1024_S1024x1024_S512x1024_1_1_0_0_n_n.rhsIdx j k 0).val = (j 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-! ## The fused projection -/

/-- The fused projection at entry `(p, c)`: the row `p` of x against the weight row `c`, plus the bias at `c`. -/
theorem k0_pay1_apply (x : Vec Ideal S512x1024 .f32) (w : Vec Ideal S3072x1024 .bf16) (b : Vec Ideal S1x3072 .f32)
    (p : Fin 512) (c : Fin 3072) :
    k0_pay1 (F := Ideal) x w b (ix2 p c)
      = (∑ k : Fin 1024, x (ix2 p k) * w (ix2 c k)) + b (ix2 (0 : Fin 1) c) := by
  unfold k0_pay1
  rw [addf_apply, shapeCast_self, shapeCast_self, shapeCast_self, broadcastTo_1b_ab_apply,
    Cert.LibLayout.matmul_rows_rows_apply dot_S512x1024_S3072x1024_S512x3072_1_1_0_0_n_n rfl rfl rfl rfl
      projDot_lhs0 projDot_rhs0]
  rfl

/-- A block of 1024 columns of the fused projection, from column `o`: entry `(p, q)` is the whole's entry at column
    `c = o + q`. -/
theorem k0_block_apply (o : ℕ) (h : S512x3072.Slices ![0, o] S512x1024) (hb : FTy.bits .bf16 < FTy.bits .f32)
    (x : Vec Ideal S512x1024 .f32) (w : Vec Ideal S3072x1024 .bf16) (b : Vec Ideal S1x3072 .f32)
    (p : Fin 512) (q : Fin 1024) (c : Fin 3072) (hc : c.val = o + q.val) :
    (truncf .bf16 (extractStridedSlice S512x1024 ![0, o] (k0_pay1 (F := Ideal) x w b) h) hb : FVec Ideal S512x1024 .bf16) (ix2 p q)
      = (∑ k : Fin 1024, x (ix2 p k) * w (ix2 c k)) + b (ix2 (0 : Fin 1) c) := by
  rw [truncf_apply, slice2_axis1_apply o _ h p q c hc, k0_pay1_apply]

/-- The first projection's block (columns 0 … 1023). -/
theorem k0_pay2_apply (x : Vec Ideal S512x1024 .f32) (w : Vec Ideal S3072x1024 .bf16) (b : Vec Ideal S1x3072 .f32)
    (p : Fin 512) (q : Fin 1024) :
    k0_pay2 (F := Ideal) x w b (ix2 p q)
      = (∑ k : Fin 1024, x (ix2 p k) * w (ix2 (⟨q.val, by omega⟩ : Fin 3072) k))
          + b (ix2 (0 : Fin 1) (⟨q.val, by omega⟩ : Fin 3072)) := by
  unfold k0_pay2
  exact k0_block_apply 0 _ _ x w b p q ⟨q.val, by omega⟩ (Nat.zero_add _).symm

/-- The second projection's block (columns 1024 … 2047). -/
theorem k0_pay3_apply (x : Vec Ideal S512x1024 .f32) (w : Vec Ideal S3072x1024 .bf16) (b : Vec Ideal S1x3072 .f32)
    (p : Fin 512) (q : Fin 1024) :
    k0_pay3 (F := Ideal) x w b (ix2 p q)
      = (∑ k : Fin 1024, x (ix2 p k) * w (ix2 (⟨1024 + q.val, by omega⟩ : Fin 3072) k))
          + b (ix2 (0 : Fin 1) (⟨1024 + q.val, by omega⟩ : Fin 3072)) := by
  unfold k0_pay3
  exact k0_block_apply 1024 _ _ x w b p q ⟨1024 + q.val, by omega⟩ rfl

/-- The third projection's block (columns 2048 … 3071). -/
theorem k0_pay4_apply (x : Vec Ideal S512x1024 .f32) (w : Vec Ideal S3072x1024 .bf16) (b : Vec Ideal S1x3072 .f32)
    (p : Fin 512) (q : Fin 1024) :
    k0_pay4 (F := Ideal) x w b (ix2 p q)
      = (∑ k : Fin 1024, x (ix2 p k) * w (ix2 (⟨2048 + q.val, by omega⟩ : Fin 3072) k))
          + b (ix2 (0 : Fin 1) (⟨2048 + q.val, by omega⟩ : Fin 3072)) := by
  unfold k0_pay4
  exact k0_block_apply 2048 _ _ x w b p q ⟨2048 + q.val, by omega⟩ rfl

/-! ## The output projection -/

/-- The output projection at entry `(p, q)`: the row `p` of the block against the weight row `q`, plus the bias at `q`. -/
theorem k2_pay1_apply (x : Vec Ideal S512x1024 .bf16) (w : Vec Ideal S1024x1024 .bf16) (b : Vec Ideal S1x1024 .f32)
    (p : Fin 512) (q : Fin 1024) :
    k2_pay1 (F := Ideal) x w b (ix2 p q)
      = (∑ k : Fin 1024, x (ix2 p k) * w (ix2 q k)) + b (ix2 (0 : Fin 1) q) := by
  unfold k2_pay1
  rw [addf_apply, shapeCast_self, shapeCast_self, shapeCast_self, broadcastTo_1b_ab_apply,
    Cert.LibLayout.matmul_rows_rows_apply dot_S512x1024_S1024x1024_S512x1024_1_1_0_0_n_n rfl rfl rfl rfl
      outDot_lhs0 outDot_rhs0]

end Cert.KernelIdeal.PayValue

end
-- ==== Proof.Arr0.lean ====
/-
  The fused projection's three result arrays after its pipeline, entry by entry, on the extended reals.

  The grid has 8 points; point t stages rows 512·t … 512·t + 511 of the [4096, 1024] input, the whole stacked weights
  [3072, 1024] and the whole bias row [1, 3072], and writes back rows 512·t … of each of the three results.  Result g
  (g = 0, 1, 2) at entry (P, q) is (Σ_k input[P, k] · weights[1024·g + q, k]) + bias[0, 1024·g + q]: each written block is
  the block of that one function of the region's entry arrays, and the 8 blocks cover the result.
-/
import proofs.«145299_j26654567039014_2_alg».proof.Proof.Region0I
import proofs.«145299_j26654567039014_2_alg».proof.Proof.PayProj
import Idealize.ShloMosaic.Lib.Pipeline.Value
import Idealize.ShloMosaic.Lib.ValueIdx

noncomputable section

namespace Cert.KernelIdeal.ArrValue

open Cert.KernelIdeal Cert.KernelIdeal.Gen Cert.KernelIdeal.Hand Cert.KernelIdeal.PayValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- Column `q` of the first, second, third block of 1024 among 3072 columns. -/
def col0 (q : Fin 1024) : Fin 3072 := ⟨q.val, by omega⟩
def col1 (q : Fin 1024) : Fin 3072 := ⟨1024 + q.val, by omega⟩
def col2 (q : Fin 1024) : Fin 3072 := ⟨2048 + q.val, by omega⟩

/-- The affine map of the three entry arrays at row `P` of the input and row `e` of the stacked weights. -/
def affine0 (X : S4096x1024.Idx → EReal) (W : S3072x1024.Idx → EReal) (B : S1x3072.Idx → EReal) (P : Fin 4096) (e : Fin 3072) :
    EReal :=
  (∑ k : Fin 1024, X (ix2 P k) * W (ix2 e k)) + B (ix2 (0 : Fin 1) e)

/-- One block of 1024 columns of it, as a whole array. -/
def G0 (κ : Fin 1024 → Fin 3072) (X : S4096x1024.Idx → EReal) (W : S3072x1024.Idx → EReal) (B : S1x3072.Idx → EReal) :
    S4096x1024.Idx → EReal :=
  fun i => affine0 X W B ⟨(i 0).val, (i 0).isLt⟩ (κ ⟨(i 1).val, (i 1).isLt⟩)

/-- The printed index maps over the grid: the input's and the results' block index is the point, everything else is 0. -/
theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ True ∧ True ∧ True
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- The input's block at point `t`: rows `512·t …` of the entry array. -/
theorem iblk0_0_apply (c : Dev nD) (t : Fin cfg0.N) (p : Fin 512) (k : Fin 1024) (P : Fin 4096) (hP : P.val = 512 * t.val + p.val) :
    (iblk0 V c 0 t : Vec Ideal S512x1024 .f32) (ix2 p k) = (V c main_v0 : S4096x1024.Idx → EReal) (ix2 P k) := by
  obtain ⟨e0, e1⟩ := (idx_facts0 t).1
  unfold iblk0
  rw [View.read_apply]
  show (V c main_v0 : S4096x1024.Idx → EReal) _ = _
  congr 1
  funext a
  apply Fin.ext
  match a with
  | ⟨0, _⟩ => show win0_0.index t (0 : Fin 2) * 512 + 1 * p.val = P.val; omega
  | ⟨1, _⟩ => show win0_0.index t (1 : Fin 2) * 1024 + 1 * k.val = k.val; omega

/-- The stacked weights' block at every point: the whole entry array. -/
theorem iblk0_1_apply (c : Dev nD) (t : Fin cfg0.N) (e : Fin 3072) (k : Fin 1024) :
    (iblk0 V c 1 t : Vec Ideal S3072x1024 .bf16) (ix2 e k) = (V c main_v2 : S3072x1024.Idx → EReal) (ix2 e k) := by
  obtain ⟨e0, e1⟩ := (idx_facts0 t).2.1
  unfold iblk0
  rw [View.read_apply]
  show (V c main_v2 : S3072x1024.Idx → EReal) _ = _
  congr 1
  funext a
  apply Fin.ext
  match a with
  | ⟨0, _⟩ => show win0_1.index t (0 : Fin 2) * 3072 + 1 * e.val = e.val; omega
  | ⟨1, _⟩ => show win0_1.index t (1 : Fin 2) * 1024 + 1 * k.val = k.val; omega

/-- The bias row's block at every point: the whole entry array. -/
theorem iblk0_2_apply (c : Dev nD) (t : Fin cfg0.N) (u : Fin 1) (e : Fin 3072) :
    (iblk0 V c 2 t : Vec Ideal S1x3072 .f32) (ix2 u e) = (V c main_v4 : S1x3072.Idx → EReal) (ix2 u e) := by
  obtain ⟨e0, e1⟩ := (idx_facts0 t).2.2.1
  unfold iblk0
  rw [View.read_apply]
  show (V c main_v4 : S1x3072.Idx → EReal) _ = _
  congr 1
  funext a
  apply Fin.ext
  match a with
  | ⟨0, _⟩ => show win0_2.index t (0 : Fin 2) * 1 + 1 * u.val = u.val; omega
  | ⟨1, _⟩ => show win0_2.index t (1 : Fin 2) * 3072 + 1 * e.val = e.val; omega

/-! ## Output window 3 -/

/-- What point `t` writes back to window 3 is block `t` of the affine map of the entry arrays at the columns `col0`. -/
theorem flushed0_3_eq (c : Dev nD) (t : Fin cfg0.N) :
    (dat0 V c).flushed 3 t
      = ((cfg0.win 3).blk t).view.read (Elt Ideal) (G0 col0 (V c main_v0) (V c main_v2) (V c main_v4)) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S3072x1024) hz0,
    View.ld_unit_zero (S := S1x3072) hz0]
  obtain ⟨e0, e1⟩ := (idx_facts0 t).2.2.2.2.2.2.1
  funext j
  obtain ⟨p, q, rfl⟩ : ∃ (p : Fin 512) (q : Fin 1024), j = ix2 p q := ⟨j 0, j 1, eq_ix2 j⟩
  have ht : t.val < 8 := t.isLt
  show k0_pay2 (F := Ideal) (iblk0 V c 0 t) (iblk0 V c 1 t) (iblk0 V c 2 t) (ix2 p q)
    = G0 col0 (V c main_v0) (V c main_v2) (V c main_v4) (((cfg0.win 3).blk t).view.emb (ix2 p q))
  refine (k0_pay2_apply (iblk0 V c 0 t) (iblk0 V c 1 t) (iblk0 V c 2 t) p q).trans ?_
  have hemb : ((cfg0.win 3).blk t).view.emb (ix2 p q)
      = (ix2 (⟨512 * t.val + p.val, by omega⟩ : Fin 4096) q : S4096x1024.Idx) := by
    funext a
    apply Fin.ext
    match a with
    | ⟨0, _⟩ => show win0_3.index t (0 : Fin 2) * 512 + 1 * p.val = 512 * t.val + p.val; omega
    | ⟨1, _⟩ => show win0_3.index t (1 : Fin 2) * 1024 + 1 * q.val = q.val; omega
  rw [hemb]
  show _ = affine0 (V c main_v0) (V c main_v2) (V c main_v4) ⟨512 * t.val + p.val, _⟩ (col0 q)
  unfold affine0 col0
  rw [iblk0_2_apply V c t 0 _]
  refine congrArg (· + _) (Finset.sum_congr rfl fun k _ => ?_)
  rw [iblk0_0_apply V c t p k ⟨512 * t.val + p.val, by omega⟩ rfl, iblk0_1_apply V c t _ k]

/-- An index of the array is in point `t`'s block of window 3 iff each coordinate is in the block's range on its axis. -/
theorem mem_blk0_3 (t : Fin cfg0.N) (i : S4096x1024.Idx) :
    i ∈ ((cfg0.win 3).blk t).view.set
      ↔ ∀ a : Fin 2, win0_3.index t a * S512x1024.size a ≤ (i a).val
          ∧ (i a).val < win0_3.index t a * S512x1024.size a + S512x1024.size a := by
  show i ∈ ((View.whole main_v5_0).slice (win0_3.rect t)).set ↔ _
  rw [View.set_slice_whole, Rect.mem_set_unit]
  exact Iff.rfl

/-- Every index of window 3's array is in the block of the point its row falls in. -/
theorem cover0_3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 8 := by decide
  let t : Fin cfg0.N := ⟨(i 0).val / 512, by rw [hN]; omega⟩
  obtain ⟨e0, e1⟩ := (idx_facts0 t).2.2.2.2.2.2.1
  have e0' : win0_3.index t (0 : Fin 2) = (i 0).val / 512 := e0
  refine ⟨t, flush0_3 t, ?_⟩
  rw [mem_blk0_3]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- Window 3's array after the pipeline is the affine map of the entry arrays at the columns `col0`. -/
theorem final0_3 (c : Dev nD) :
    (dat0 V c).arrAt 3 cfg0.N = G0 col0 (V c main_v0) (V c main_v2) (V c main_v4) :=
  (dat0 V c).arrAt_eq_of_cover 3 (G0 col0 (V c main_v0) (V c main_v2) (V c main_v4)) (fun t _ => flushed0_3_eq V c t) cover0_3

/-- Window 3's array after the pipeline at entry `(P, q)`. -/
theorem final0_3_apply (c : Dev nD) (P : Fin 4096) (q : Fin 1024) :
    ((dat0 V c).arrAt 3 cfg0.N : S4096x1024.Idx → EReal) (ix2 P q)
      = affine0 (V c main_v0) (V c main_v2) (V c main_v4) P (col0 q) := by
  rw [final0_3]
  rfl

/-! ## Output window 4 -/

/-- What point `t` writes back to window 4 is block `t` of the affine map of the entry arrays at the columns `col1`. -/
theorem flushed0_4_eq (c : Dev nD) (t : Fin cfg0.N) :
    (dat0 V c).flushed 4 t
      = ((cfg0.win 4).blk t).view.read (Elt Ideal) (G0 col1 (V c main_v0) (V c main_v2) (V c main_v4)) := by
  show (cfg0.win 4).cut (grid0.coords t) ((dat0 V c).after 4 t) = _
  rw [after0_4]
  unfold out0_4
  rw [View.canon_unit_zero hz0]
  simp only [View.ld_unit_zero (S := S512x1024) hz0, View.ld_unit_zero (S := S3072x1024) hz0,
    View.ld_unit_zero (S := S1x3072) hz0]
  obtain ⟨e0, e1⟩ := (idx_facts0 t).2.2.2.2.2.2.2.1
  funext j
  obtain ⟨p, q, rfl⟩ : ∃ (p : Fin 512) (q : Fin 1024), j = ix2 p q := ⟨j 0, j 1, eq_ix2 j⟩
  have ht : t.val < 8 := t.isLt
  show k0_pay3 (F := Ideal) (iblk0 V c 0 t) (iblk0 V c 1 t) (iblk0 V c 2 t) (ix2 p q)
    = G0 col1 (V c main_v0) (V c main_v2) (V c main_v4) (((cfg0.win 4).blk t).view.emb (ix2 p q))
  refine (k0_pay3_apply (iblk0 V c 0 t) (iblk0 V c 1 t) (iblk0 V c 2 t) p q).trans ?_
  have hemb : ((cfg0.win 4).blk t).view.emb (ix2 p q)
      = (ix2 (⟨512 * t.val + p.val, by omega⟩ : Fin 4096) q : S4096x1024.Idx) := by
    funext a
    apply Fin.ext
    match a with
    | ⟨0, _⟩ => show win0_4.index t (0 : Fin 2) * 512 + 1 * p.val = 512 * t.val + p.val; omega
    | ⟨1, _⟩ => show win0_4.index t (1 : Fin 2) * 1024 + 1 * q.val = q.val; omega
  rw [hemb]
  show _ = affine0 (V c main_v0) (V c main_v2) (V c main_v4) ⟨512 * t.val + p.val, _⟩ (col1 q)
  unfold affine0 col1
  rw [iblk0_2_apply V c t 0 _]
  refine congrArg (· + _) (Finset.sum_congr rfl fun k _ => ?_)
  rw [iblk0_0_apply V c t p k ⟨512 * t.val + p.val, by omega⟩ rfl, iblk0_1_apply V c t _ k]

/-- An index of the array is in point `t`'s block of window 4 iff each coordinate is in the block's range on its axis. -/
theorem mem_blk0_4 (t : Fin cfg0.N) (i : S4096x1024.Idx) :
    i ∈ ((cfg0.win 4).blk t).view.set
      ↔ ∀ a : Fin 2, win0_4.index t a * S512x1024.size a ≤ (i a).val
          ∧ (i a).val < win0_4.index t a * S512x1024.size a + S512x1024.size a := by
  show i ∈ ((View.whole main_v5_1).slice (win0_4.rect t)).set ↔ _
  rw [View.set_slice_whole, Rect.mem_set_unit]
  exact Iff.rfl

/-- Every index of window 4's array is in the block of the point its row falls in. -/
theorem cover0_4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := by decide
  let t : Fin cfg0.N := ⟨(i 0).val / 512, by rw [hN]; omega⟩
  obtain ⟨e0, e1⟩ := (idx_facts0 t).2.2.2.2.2.2.2.1
  have e0' : win0_4.index t (0 : Fin 2) = (i 0).val / 512 := e0
  refine ⟨t, flush0_4 t, ?_⟩
  rw [mem_blk0_4]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- Window 4's array after the pipeline is the affine map of the entry arrays at the columns `col1`. -/
theorem final0_4 (c : Dev nD) :
    (dat0 V c).arrAt 4 cfg0.N = G0 col1 (V c main_v0) (V c main_v2) (V c main_v4) :=
  (dat0 V c).arrAt_eq_of_cover 4 (G0 col1 (V c main_v0) (V c main_v2) (V c main_v4)) (fun t _ => flushed0_4_eq V c t) cover0_4

/-- Window 4's array after the pipeline at entry `(P, q)`. -/
theorem final0_4_apply (c : Dev nD) (P : Fin 4096) (q : Fin 1024) :
    ((dat0 V c).arrAt 4 cfg0.N : S4096x1024.Idx → EReal) (ix2 P q)
      = affine0 (V c main_v0) (V c main_v2) (V c main_v4) P (col1 q) := by
  rw [final0_4]
  rfl

/-! ## Output window 5 -/

/-- What point `t` writes back to window 5 is block `t` of the affine map of the entry arrays at the columns `col2`. -/
theorem flushed0_5_eq (c : Dev nD) (t : Fin cfg0.N) :
    (dat0 V c).flushed 5 t
      = ((cfg0.win 5).blk t).view.read (Elt Ideal) (G0 col2 (V c main_v0) (V c main_v2) (V c main_v4)) := by
  show (cfg0.win 5).cut (grid0.coords t) ((dat0 V c).after 5 t) = _
  rw [after0_5]
  unfold out0_5
  rw [View.canon_unit_zero hz0]
  simp only [View.ld_unit_zero (S := S512x1024) hz0, View.ld_unit_zero (S := S3072x1024) hz0,
    View.ld_unit_zero (S := S1x3072) hz0]
  obtain ⟨e0, e1⟩ := (idx_facts0 t).2.2.2.2.2.2.2.2
  funext j
  obtain ⟨p, q, rfl⟩ : ∃ (p : Fin 512) (q : Fin 1024), j = ix2 p q := ⟨j 0, j 1, eq_ix2 j⟩
  have ht : t.val < 8 := t.isLt
  show k0_pay4 (F := Ideal) (iblk0 V c 0 t) (iblk0 V c 1 t) (iblk0 V c 2 t) (ix2 p q)
    = G0 col2 (V c main_v0) (V c main_v2) (V c main_v4) (((cfg0.win 5).blk t).view.emb (ix2 p q))
  refine (k0_pay4_apply (iblk0 V c 0 t) (iblk0 V c 1 t) (iblk0 V c 2 t) p q).trans ?_
  have hemb : ((cfg0.win 5).blk t).view.emb (ix2 p q)
      = (ix2 (⟨512 * t.val + p.val, by omega⟩ : Fin 4096) q : S4096x1024.Idx) := by
    funext a
    apply Fin.ext
    match a with
    | ⟨0, _⟩ => show win0_5.index t (0 : Fin 2) * 512 + 1 * p.val = 512 * t.val + p.val; omega
    | ⟨1, _⟩ => show win0_5.index t (1 : Fin 2) * 1024 + 1 * q.val = q.val; omega
  rw [hemb]
  show _ = affine0 (V c main_v0) (V c main_v2) (V c main_v4) ⟨512 * t.val + p.val, _⟩ (col2 q)
  unfold affine0 col2
  rw [iblk0_2_apply V c t 0 _]
  refine congrArg (· + _) (Finset.sum_congr rfl fun k _ => ?_)
  rw [iblk0_0_apply V c t p k ⟨512 * t.val + p.val, by omega⟩ rfl, iblk0_1_apply V c t _ k]

/-- An index of the array is in point `t`'s block of window 5 iff each coordinate is in the block's range on its axis. -/
theorem mem_blk0_5 (t : Fin cfg0.N) (i : S4096x1024.Idx) :
    i ∈ ((cfg0.win 5).blk t).view.set
      ↔ ∀ a : Fin 2, win0_5.index t a * S512x1024.size a ≤ (i a).val
          ∧ (i a).val < win0_5.index t a * S512x1024.size a + S512x1024.size a := by
  show i ∈ ((View.whole main_v5_2).slice (win0_5.rect t)).set ↔ _
  rw [View.set_slice_whole, Rect.mem_set_unit]
  exact Iff.rfl

/-- Every index of window 5's array is in the block of the point its row falls in. -/
theorem cover0_5 (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := by decide
  let t : Fin cfg0.N := ⟨(i 0).val / 512, by rw [hN]; omega⟩
  obtain ⟨e0, e1⟩ := (idx_facts0 t).2.2.2.2.2.2.2.2
  have e0' : win0_5.index t (0 : Fin 2) = (i 0).val / 512 := e0
  refine ⟨t, flush0_5 t, ?_⟩
  rw [mem_blk0_5]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- Window 5's array after the pipeline is the affine map of the entry arrays at the columns `col2`. -/
theorem final0_5 (c : Dev nD) :
    (dat0 V c).arrAt 5 cfg0.N = G0 col2 (V c main_v0) (V c main_v2) (V c main_v4) :=
  (dat0 V c).arrAt_eq_of_cover 5 (G0 col2 (V c main_v0) (V c main_v2) (V c main_v4)) (fun t _ => flushed0_5_eq V c t) cover0_5

/-- Window 5's array after the pipeline at entry `(P, q)`. -/
theorem final0_5_apply (c : Dev nD) (P : Fin 4096) (q : Fin 1024) :
    ((dat0 V c).arrAt 5 cfg0.N : S4096x1024.Idx → EReal) (ix2 P q)
      = affine0 (V c main_v0) (V c main_v2) (V c main_v4) P (col2 q) := by
  rw [final0_5]
  rfl

end Cert.KernelIdeal.ArrValue

end
-- ==== Proof.LibColumns.lean ====
/-
  Column-wise layout operations on matrices, read at an index written by coordinates.

  A block of columns cut from a matrix; a single entry `[1, 1]` repeated down a column `[a, 1]`; two matrices with the
  same rows set side by side, read in the left piece and in the right piece; and a matrix widened by padding columns on
  the right, read inside the original columns. Each holds for any element type and any extents.
-/
import Idealize.ShloMosaic.Lib.Pipeline.Value
import Idealize.ShloMosaic.Lib.ValueIdx
import Idealize.ShloMosaic.Lib.KernelVsHost

namespace Cert.LibColumns

open Idealize.ShloMosaic Idealize.ShloMosaic.ValueIdx

variable {α : Type}

/-- Columns `o … o + m − 1` cut from an `[a, n]` matrix: entry `(p, j)` of the cut is entry `(p, o + j)` of the matrix. -/
theorem slice_cols_apply {a n m : ℕ} (o : ℕ) (X : (⟨2, ![a, n]⟩ : Shape).Idx → α)
    (h : (⟨2, ![a, n]⟩ : Shape).Slices ![0, o] ⟨2, ![a, m]⟩) (p : Fin a) (j : Fin m) (hj : o + j.val < n) :
    extractStridedSlice ⟨2, ![a, m]⟩ ![0, o] X h (ix2 p j) = X (ix2 p ⟨o + j.val, hj⟩) :=
  extractStridedSlice_apply _ _ _ _ _ (fun ax => by
    match ax with
    | ⟨0, _⟩ => show p.val = 0 + p.val; omega
    | ⟨1, _⟩ => rfl)

/-- A single entry `[1, 1]` repeated down a column `[a, 1]`: every entry of the column is that entry. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => show (0 : ℕ) = if (1 : ℕ) = 1 then 0 else p.val; rw [if_pos rfl]
  | ⟨1, _⟩ => show (0 : ℕ) = if (1 : ℕ) = 1 then 0 else u.val; rw [if_pos rfl]

/-- Two matrices with the same rows set side by side, `[r, n1]` then `[r, n2]`: a column `j < n1` of the result is
    column `j` of the left piece. -/
theorem concat_cols_left {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n1) (hj : j.val < n) :
    concatenate ⟨2, ![r, n]⟩ 1 [⟨⟨2, ![r, n1]⟩, A⟩, ⟨⟨2, ![r, n2]⟩, B⟩] h (ix2 k ⟨j.val, hj⟩) = A (ix2 k j) :=
  concatenate_pair_apply_left 1 A B h _ rfl (ix2 k j) (fun b => by
    match b with
    | ⟨0, _⟩ => rfl
    | ⟨1, _⟩ => rfl)

/-- The same, in the right piece: column `n1 + j` of the result is column `j` of the right piece. -/
theorem concat_cols_right {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n2)
    (hj : n1 + j.val < n) :
    concatenate ⟨2, ![r, n]⟩ 1 [⟨⟨2, ![r, n1]⟩, A⟩, ⟨⟨2, ![r, n2]⟩, B⟩] h (ix2 k ⟨n1 + j.val, hj⟩) = B (ix2 k j) :=
  concatenate_pair_apply_right 1 A B h _ rfl rfl (ix2 k j)
    (fun b hb => by
      match b with
      | ⟨0, _⟩ => rfl
      | ⟨1, _⟩ => exact absurd rfl hb)
    (by show j.val + n1 = n1 + j.val; omega)

/-- A matrix `[r, n]` widened to `[r, N]` by padding columns on the right only: inside the first `n` columns the
    result is the matrix, whatever the padding value. -/
theorem pad_cols_apply {r n N : ℕ} (hi : ℕ) (X : (⟨2, ![r, n]⟩ : Shape).Idx → α) {u : Shape} (v : u.Idx → α)
    (hp : (⟨2, ![r, n]⟩ : Shape).Pads ![0, 0] ![0, hi] ![0, 0] ⟨2, ![r, N]⟩) (hu : 0 < u.numel)
    (k : Fin r) (j : Fin n) (hj : j.val < N) :
    pad ⟨2, ![r, N]⟩ ![0, 0] ![0, hi] ![0, 0] X v hp hu (ix2 k ⟨j.val, hj⟩) = X (ix2 k j) :=
  pad_apply_of_inside _ _ _ X v hp hu _ (ix2 k j) (fun ax => by
    match ax with
    | ⟨0, _⟩ => show k.val = 0 + k.val * (0 + 1); omega
    | ⟨1, _⟩ => show j.val = 0 + j.val * (0 + 1); omega)

end Cert.LibColumns
-- ==== Proof.PayRotary.lean ====
/-
  The attention kernel's scores read at an entry, on the extended reals.

  A row of 64 numbers is rotated against 32 cosines and 32 sines: for j < 32 the result is x[j]·c[j] − x[j+32]·s[j], for
  j ≥ 32 it is x[j]·c[j−32] + x[j−32]·s[j−32].  As vector operations: the two halves are cut from the matrix, multiplied
  entrywise by the cosine and sine matrices, combined, and set side by side again.  The score of query row r against key
  row k is the sum over j of the products of the two rotated rows, times the constant 0.125 (the word 0x3E000000).  A change
  of float format is the identity on the extended reals and a matrix product accumulated into the zero matrix is the plain
  sum of products.
-/
import proofs.«145299_j26654567039014_2_alg».proof.Proof.Gen.KernelIdeal.Skeleton
import proofs.«145299_j26654567039014_2_alg».proof.Proof.LibLayout
import proofs.«145299_j26654567039014_2_alg».proof.Proof.LibColumns
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- One row of 64 numbers rotated against 32 cosines `c` and 32 sines `s`. -/
def rot (x : Fin 64 → EReal) (c s : Fin 32 → EReal) (j : Fin 64) : EReal :=
  if h : j.val < 32 then x j * c ⟨j.val, h⟩ - x ⟨j.val + 32, by omega⟩ * s ⟨j.val, h⟩
  else x j * c ⟨j.val - 32, by omega⟩ + x ⟨j.val - 32, by omega⟩ * s ⟨j.val - 32, by omega⟩

theorem rot_left (x : Fin 64 → EReal) (c s : Fin 32 → EReal) (i : Fin 32) :
    rot x c s ⟨i.val, by omega⟩ = x ⟨i.val, by omega⟩ * c i - x ⟨i.val + 32, by omega⟩ * s i := by
  unfold rot
  rw [dif_pos (show (⟨i.val, by omega⟩ : Fin 64).val < 32 from i.isLt)]

theorem rot_right (x : Fin 64 → EReal) (c s : Fin 32 → EReal) (i : Fin 32) :
    rot x c s ⟨32 + i.val, by omega⟩ = x ⟨32 + i.val, by omega⟩ * c i + x ⟨i.val, by omega⟩ * s i := by
  unfold rot
  rw [dif_neg (show ¬ (⟨32 + i.val, by omega⟩ : Fin 64).val < 32 from by show ¬ 32 + i.val < 32; omega)]
  have e : (⟨(⟨32 + i.val, by omega⟩ : Fin 64).val - 32, by show 32 + i.val - 32 < 32; omega⟩ : Fin 32) = i :=
    Fin.ext (Nat.add_sub_cancel_left 32 i.val)
  have e' : (⟨(⟨32 + i.val, by omega⟩ : Fin 64).val - 32, by show 32 + i.val - 32 < 64; omega⟩ : Fin 64) = ⟨i.val, by omega⟩ :=
    Fin.ext (Nat.add_sub_cancel_left 32 i.val)
  rw [e, e']

section
variable {n : ℕ} (X : FVec Ideal ⟨2, ![n, 64]⟩ .f32) (C S : FVec Ideal ⟨2, ![n, 32]⟩ .f32)
  (h0 : (⟨2, ![n, 64]⟩ : Shape).Slices ![0, 0] ⟨2, ![n, 32]⟩) (h32 : (⟨2, ![n, 64]⟩ : Shape).Slices ![0, 32] ⟨2, ![n, 32]⟩)
  (hc : Shape.Concatenates [(⟨2, ![n, 32]⟩ : Shape), ⟨2, ![n, 32]⟩] ⟨2, ![n, 64]⟩ 1)

/-- The matrix whose rows are the rotated rows of `X`, as the vector operations build it. -/
def rotMat : FVec Ideal ⟨2, ![n, 64]⟩ .f32 :=
  concatenate ⟨2, ![n, 64]⟩ 1
    [⟨⟨2, ![n, 32]⟩, subf (mulf (extractStridedSlice ⟨2, ![n, 32]⟩ ![0, 0] X h0) C)
        (mulf (extractStridedSlice ⟨2, ![n, 32]⟩ ![0, 32] X h32) S)⟩,
     ⟨⟨2, ![n, 32]⟩, addf (mulf (extractStridedSlice ⟨2, ![n, 32]⟩ ![0, 32] X h32) C)
        (mulf (extractStridedSlice ⟨2, ![n, 32]⟩ ![0, 0] X h0) S)⟩] hc

/-- The rotated matrix in its left half. -/
theorem rotMat_left (r : Fin n) (i : Fin 32) :
    rotMat X C S h0 h32 hc (ix2 r (⟨i.val, by omega⟩ : Fin 64))
      = X (ix2 r ⟨i.val, by omega⟩) * C (ix2 r i) - X (ix2 r ⟨i.val + 32, by omega⟩) * S (ix2 r i) := by
  unfold rotMat
  refine (Cert.LibColumns.concat_cols_left _ _ hc r i (by omega)).trans ?_
  rw [subf_apply, mulf_apply, mulf_apply,
    slice2_axis1_apply 0 X h0 r i ⟨i.val, by omega⟩ (Nat.zero_add _).symm,
    slice2_axis1_apply 32 X h32 r i ⟨i.val + 32, by omega⟩ (Nat.add_comm _ _)]

/-- The rotated matrix in its right half. -/
theorem rotMat_right (r : Fin n) (i : Fin 32) :
    rotMat X C S h0 h32 hc (ix2 r (⟨32 + i.val, by omega⟩ : Fin 64))
      = X (ix2 r ⟨32 + i.val, by omega⟩) * C (ix2 r i) + X (ix2 r ⟨i.val, by omega⟩) * S (ix2 r i) := by
  unfold rotMat
  refine (Cert.LibColumns.concat_cols_right _ _ hc r i (by omega)).trans ?_
  rw [addf_apply, mulf_apply, mulf_apply,
    slice2_axis1_apply 0 X h0 r i ⟨i.val, by omega⟩ (Nat.zero_add _).symm,
    slice2_axis1_apply 32 X h32 r i ⟨32 + i.val, by omega⟩ rfl]

/-- The rotated matrix at `(r, j)`: row `r` of `X` rotated against rows `r` of `C` and `S`, at `j`. -/
theorem rotMat_apply (r : Fin n) (j : Fin 64) :
    rotMat X C S h0 h32 hc (ix2 r j)
      = rot (fun j => X (ix2 r j)) (fun i => C (ix2 r i)) (fun i => S (ix2 r i)) j := by
  by_cases h : j.val < 32
  · obtain ⟨i, rfl⟩ : ∃ i : Fin 32, j = ⟨i.val, Nat.lt_trans i.isLt (by decide)⟩ := ⟨⟨j.val, h⟩, rfl⟩
    exact (rotMat_left X C S h0 h32 hc r i).trans (rot_left (fun j => X (ix2 r j)) (fun i => C (ix2 r i)) (fun i => S (ix2 r i)) i).symm
  · obtain ⟨i, rfl⟩ : ∃ i : Fin 32, j = ⟨32 + i.val, Nat.add_lt_add_left i.isLt 32⟩ :=
      ⟨⟨j.val - 32, by omega⟩, Fin.ext (by show j.val = 32 + (j.val - 32); omega)⟩
    exact (rotMat_right X C S h0 h32 hc r i).trans (rot_right (fun j => X (ix2 r j)) (fun i => C (ix2 r i)) (fun i => S (ix2 r i)) i).symm
end

/-! ## The scores -/

theorem scoreDot_lhs0 (j : S256x2048.Idx) (k : dot_S256x64_S2048x64_S256x2048_1_1_0_0_n_n.contr.Idx) :
    (dot_S256x64_S2048x64_S256x2048_1_1_0_0_n_n.lhsIdx j k 0).val = (j 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl

theorem scoreDot_rhs0 (j : S256x2048.Idx) (k : dot_S256x64_S2048x64_S256x2048_1_1_0_0_n_n.contr.Idx) :
    (dot_S256x64_S2048x64_S256x2048_1_1_0_0_n_n.rhsIdx j k 0).val = (j 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl

/-- The scores' body as the rotated matrices' product times the constant. -/
theorem k1_pay5_eq (v0 : Vec Ideal S1x256x64 .bf16) (v3 : Vec Ideal S1x2048x64 .bf16) (v8 v10 : Vec Ideal S256x32 .f32)
    (v12 v14 : Vec Ideal S2048x32 .f32) :
    k1_pay5 (F := Ideal) v0 v3 v8 v10 v12 v14
      = mulf (matmul dot_S256x64_S2048x64_S256x2048_1_1_0_0_n_n none
          (truncf .bf16 (rotMat (extf .f32 (shapeCast S256x64 v0 shapeCasts_S1x256x64_S256x64) bitsLt_bf16_f32 : FVec Ideal S256x64 .f32)
            (shapeCast S256x32 v8 shapeCasts_S256x32_S256x32) (shapeCast S256x32 v10 shapeCasts_S256x32_S256x32)
            slices_S256x64_o0_0_S256x32 slices_S256x64_o0_32_S256x32 concatenates_S256x32_S256x32_S256x64_d1) bitsLt_bf16_f32 : FVec Ideal S256x64 .bf16)
          (truncf .bf16 (rotMat (extf .f32 (shapeCast S2048x64 v3 shapeCasts_S1x2048x64_S2048x64) bitsLt_bf16_f32 : FVec Ideal S2048x64 .f32)
            (shapeCast S2048x32 v12 shapeCasts_S2048x32_S2048x32) (shapeCast S2048x32 v14 shapeCasts_S2048x32_S2048x32)
            slices_S2048x64_o0_0_S2048x32 slices_S2048x64_o0_32_S2048x32 concatenates_S2048x32_S2048x32_S2048x64_d1) bitsLt_bf16_f32 : FVec Ideal S2048x64 .bf16)
          (constant S256x2048 .f32 0x00000000#32))
        (broadcast S256x2048 (Scalar.ofBits .f32 0x3E000000#32)) := rfl

/-- The score of query row `r` against key row `k`: the sum over the 64 columns of the products of the two rotated rows,
    times the constant. -/
theorem k1_pay5_apply (v0 : Vec Ideal S1x256x64 .bf16) (v3 : Vec Ideal S1x2048x64 .bf16) (v8 v10 : Vec Ideal S256x32 .f32)
    (v12 v14 : Vec Ideal S2048x32 .f32) (r : Fin 256) (k : Fin 2048) :
    k1_pay5 (F := Ideal) v0 v3 v8 v10 v12 v14 (ix2 r k)
      = (∑ j : Fin 64,
          rot (fun j => v0 (ix3 (0 : Fin 1) r j)) (fun i => v8 (ix2 r i)) (fun i => v10 (ix2 r i)) j
            * rot (fun j => v3 (ix3 (0 : Fin 1) k j)) (fun i => v12 (ix2 k i)) (fun i => v14 (ix2 k i)) j)
          * Ideal.ofBits .f32 0x3E000000#32 := by
  rw [k1_pay5_eq, mulf_apply, broadcast_apply,
    Cert.LibLayout.matmul_rows_rows_apply dot_S256x64_S2048x64_S256x2048_1_1_0_0_n_n rfl rfl rfl rfl
      scoreDot_lhs0 scoreDot_rhs0]
  refine congrArg₂ (· * ·) (Finset.sum_congr rfl fun j _ => ?_) rfl
  rw [truncf_apply, truncf_apply, rotMat_apply, rotMat_apply]
  simp only [extf_apply, shapeCast_self, shapeCast_1ab_ab_apply]

end Cert.KernelIdeal.PayValue

end
-- ==== Proof.PaySoftmax.lean ====
/-
  The attention kernel's weights and their product with the values, read at an entry, on the extended reals.

  The scores of a block of rows, plus the mask, are turned into weights row by row: the row's maximum M is taken from −∞
  (the word 0xFF800000), the differences to M are exponentiated, and each exponential is divided by the row's sum of
  exponentials.  As vector operations the maximum and the sum are reductions over the second axis, laid as a column and
  broadcast along the rows.  The weights times the values is a matrix product accumulated into the zero matrix: a plain
  sum of products.  A leading unit axis put on or dropped changes no entry.
-/
import proofs.«145299_j26654567039014_2_alg».proof.Proof.Gen.KernelIdeal.Skeleton
import proofs.«145299_j26654567039014_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- The weights of one row of scores `L` at position `t`: the exponential of the difference to the row's maximum (taken
    from the value of the word `0xFF800000`, `−∞`) over the sum of the row's exponentials. -/
def softRow {n : ℕ} (L : Fin n → EReal) (t : Fin n) : EReal :=
  Ideal.div (Ideal.exp (L t - Finset.univ.fold max (Ideal.ofBits .f32 0xFF800000#32) L))
    (∑ u : Fin n, Ideal.exp (L u - Finset.univ.fold max (Ideal.ofBits .f32 0xFF800000#32) L))

section
variable {a b : ℕ} (L : FVec Ideal ⟨2, ![a, b]⟩ .f32) (hr : (⟨2, ![a, b]⟩ : Shape).Reduces [1] ⟨1, ![a]⟩)
  (hφ : FKind.Formats FTy.f32) (hm : (0xFF800000#32 : BitVec 32) = 0xFF800000#32)
  (hz : (0x00000000#32 : BitVec 32) = 0x00000000#32)
  (hc : (⟨1, ![a]⟩ : Shape).ShapeCasts ⟨2, ![a, 1]⟩) (hb : (⟨2, ![a, 1]⟩ : Shape).Broadcasts ⟨2, ![a, b]⟩)

/-- The exponentials of the matrix less its rows' maxima, as the vector operations build them. -/
def expMat : FVec Ideal ⟨2, ![a, b]⟩ .f32 :=
  exp (subf L (broadcastTo ⟨2, ![a, b]⟩
    (shapeCast ⟨2, ![a, 1]⟩ (multiReduction .maximumf [1] ⟨1, ![a]⟩ L 0xFF800000#32 hr hφ hm) hc) hb))

/-- The weights of every row, as the vector operations build them. -/
def softMat : FVec Ideal ⟨2, ![a, b]⟩ .f32 :=
  divf (expMat L hr hφ hm hc hb)
    (broadcastTo ⟨2, ![a, b]⟩ (shapeCast ⟨2, ![a, 1]⟩
      (multiReduction .add [1] ⟨1, ![a]⟩ (expMat L hr hφ hm hc hb) 0x00000000#32 hr hφ hz) hc) hb)

/-- The exponential at `(r, t)`. -/
theorem expMat_apply (r : Fin a) (t : Fin b) :
    expMat L hr hφ hm hc hb (ix2 r t)
      = Ideal.exp (L (ix2 r t) - Finset.univ.fold max (Ideal.ofBits .f32 0xFF800000#32) (fun u => L (ix2 r u))) := by
  unfold expMat
  show FloatOps.exp (subf L _ (ix2 r t)) = _
  rw [subf_apply, Cert.LibLayout.broadcastTo_a1_ab_apply, Cert.LibLayout.shapeCast_a_a1_apply,
    Cert.LibLayout.max_rows_apply]
  rfl

/-- The weights at `(r, t)`: the weights of row `r` at position `t`. -/
theorem softMat_apply (r : Fin a) (t : Fin b) :
    softMat L hr hφ hm hz hc hb (ix2 r t) = softRow (fun u => L (ix2 r u)) t := by
  unfold softMat softRow
  rw [divf_apply, Cert.LibLayout.broadcastTo_a1_ab_apply, Cert.LibLayout.shapeCast_a_a1_apply,
    Cert.LibLayout.sum_rows_apply, expMat_apply]
  simp only [expMat_apply]
end

/-! ## The kernel's bodies -/

/-- The weights' body is the row-wise weights of the scores plus the mask. -/
theorem k1_pay1_eq (v38 : FVec Ideal S256x2048 .f32) (v39 : Vec Ideal S256x2048 .f32) :
    k1_pay1 (F := Ideal) v38 v39
      = softMat (addf v38 (shapeCast S256x2048 v39 shapeCasts_S256x2048_S256x2048)) reduces_S256x2048_S256 (.inl rfl) rfl rfl
          shapeCasts_S256_S256x1 broadcasts_S256x1_S256x2048 := rfl

/-- The weights at `(r, k)`. -/
theorem k1_pay1_apply (v38 : FVec Ideal S256x2048 .f32) (v39 : Vec Ideal S256x2048 .f32) (r : Fin 256) (k : Fin 2048) :
    k1_pay1 (F := Ideal) v38 v39 (ix2 r k) = softRow (fun u => v38 (ix2 r u) + v39 (ix2 r u)) k := by
  rw [k1_pay1_eq, softMat_apply]
  simp only [addf_apply, shapeCast_self]

/-- The weights with a leading unit axis. -/
theorem k1_pay2_apply (v38 : FVec Ideal S256x2048 .f32) (v39 : Vec Ideal S256x2048 .f32) (u : Fin 1) (r : Fin 256)
    (k : Fin 2048) :
    k1_pay2 (F := Ideal) v38 v39 (ix3 u r k) = softRow (fun u => v38 (ix2 r u) + v39 (ix2 r u)) k := by
  unfold k1_pay2
  rw [shapeCast_ab_1ab_apply, k1_pay1_apply]

theorem ctxDot_lhs0 (j : S256x64.Idx) (k : dot_S256x2048_S2048x64_S256x64_1_0_0_1_n_n.contr.Idx) :
    (dot_S256x2048_S2048x64_S256x64_1_0_0_1_n_n.lhsIdx j k 0).val = (j 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl

theorem ctxDot_rhs1 (j : S256x64.Idx) (k : dot_S256x2048_S2048x64_S256x64_1_0_0_1_n_n.contr.Idx) :
    (dot_S256x2048_S2048x64_S256x64_1_0_0_1_n_n.rhsIdx j k 1).val = (j 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- The weights times the values at `(r, j)`, with a leading unit axis: the sum over the keys of the weight times the
    value. -/
theorem k1_pay3_apply (v7 : FVec Ideal S2048x64 .bf16) (v38 : FVec Ideal S256x2048 .f32) (v39 : Vec Ideal S256x2048 .f32)
    (u : Fin 1) (r : Fin 256) (j : Fin 64) :
    k1_pay3 (F := Ideal) v7 v38 v39 (ix3 u r j) = ∑ k : Fin 2048, k1_pay1 (F := Ideal) v38 v39 (ix2 r k) * v7 (ix2 k j) := by
  unfold k1_pay3
  rw [shapeCast_ab_1ab_apply, truncf_apply,
    Cert.LibLayout.matmul_rows_cols_apply dot_S256x2048_S2048x64_S256x64_1_0_0_1_n_n rfl rfl rfl rfl
      ctxDot_lhs0 ctxDot_rhs1]
  rfl

/-- The values without their leading unit axis. -/
theorem k1_pay4_apply (v6 : Vec Ideal S1x2048x64 .bf16) (k : Fin 2048) (j : Fin 64) :
    k1_pay4 (F := Ideal) v6 (ix2 k j) = v6 (ix3 (0 : Fin 1) k j) := by
  unfold k1_pay4
  rw [shapeCast_1ab_ab_apply]

end Cert.KernelIdeal.PayValue

end
-- ==== Proof.Arr1Blk.lean ====
/-
  The attention kernel's windows over its grid, on the extended reals: which rows of which array each block holds.

  The grid has 8 × 32 points, the query block outer and the head inner: point t works on head t % 32 and on the query rows
  256·(t / 32) … 256·(t / 32) + 255.  The queries' block and the two results' blocks are those rows of that head; the keys'
  and the values' blocks are the whole head; the blocks of the rotary tables' first windows and of the mask are those rows;
  the rotary tables' second windows hold the whole tables.  The masked, scaled score of a query row against a key row, as
  a function of the region's entry arrays, is what the scores' body computes of the blocks at a point.
-/
import proofs.«145299_j26654567039014_2_alg».proof.Proof.Region1I
import proofs.«145299_j26654567039014_2_alg».proof.Proof.PayRotary
import proofs.«145299_j26654567039014_2_alg».proof.Proof.PaySoftmax
import Idealize.ShloMosaic.Lib.Pipeline.Value
import Idealize.ShloMosaic.Lib.ValueIdx

noncomputable section

namespace Cert.KernelIdeal.ArrValue

open Cert.KernelIdeal Cert.KernelIdeal.Gen Cert.KernelIdeal.Hand Cert.KernelIdeal.PayValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem N_1' : cfg1.N = 256 := by decide

/-- The head a point works on. -/
def bhOf (t : Fin cfg1.N) : Fin 32 := ⟨t.val % 32, Nat.mod_lt _ (by decide)⟩
/-- The query row of the arrays that row `r` of a point's block is. -/
def rowOf (t : Fin cfg1.N) (r : Fin 256) : Fin 2048 :=
  ⟨256 * (t.val / 32) + r.val, by have := t.isLt; have := N_1'; omega⟩

/-! ## The printed index maps, decided over the grid -/

theorem idx1_0 : ∀ t : Fin cfg1.N, win1_0.index t (0 : Fin 3) = t.val % 32 ∧ win1_0.index t (1 : Fin 3) = t.val / 32 ∧ win1_0.index t (2 : Fin 3) = 0 :=
  (by decide +kernel : ∀ t : Fin grid1.N, _)
theorem idx1_1 : ∀ t : Fin cfg1.N, win1_1.index t (0 : Fin 3) = t.val % 32 ∧ win1_1.index t (1 : Fin 3) = 0 ∧ win1_1.index t (2 : Fin 3) = 0 :=
  (by decide +kernel : ∀ t : Fin grid1.N, _)
theorem idx1_2 : ∀ t : Fin cfg1.N, win1_2.index t (0 : Fin 3) = t.val % 32 ∧ win1_2.index t (1 : Fin 3) = 0 ∧ win1_2.index t (2 : Fin 3) = 0 :=
  (by decide +kernel : ∀ t : Fin grid1.N, _)
theorem idx1_3 : ∀ t : Fin cfg1.N, win1_3.index t (0 : Fin 2) = t.val / 32 ∧ win1_3.index t (1 : Fin 2) = 0 :=
  (by decide +kernel : ∀ t : Fin grid1.N, _)
theorem idx1_4 : ∀ t : Fin cfg1.N, win1_4.index t (0 : Fin 2) = t.val / 32 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val / 32 ∧ win1_7.index t (1 : Fin 2) = 0 :=
  (by decide +kernel : ∀ t : Fin grid1.N, _)
theorem idx1_8 : ∀ t : Fin cfg1.N, win1_8.index t (0 : Fin 3) = t.val % 32 ∧ win1_8.index t (1 : Fin 3) = t.val / 32 ∧ win1_8.index t (2 : Fin 3) = 0 :=
  (by decide +kernel : ∀ t : Fin grid1.N, _)
theorem idx1_9 : ∀ t : Fin cfg1.N, win1_9.index t (0 : Fin 3) = t.val % 32 ∧ win1_9.index t (1 : Fin 3) = t.val / 32 ∧ win1_9.index t (2 : Fin 3) = 0 :=
  (by decide +kernel : ∀ t : Fin grid1.N, _)

/-! ## The input blocks read off the entry arrays -/

/-- The queries' block: the point's rows of the point's head. -/
theorem iblk1_0_apply (c : Dev nD) (t : Fin cfg1.N) (u : Fin 1) (r : Fin 256) (j : Fin 64) :
    (iblk1 V c 0 t : Vec Ideal S1x256x64 .bf16) (ix3 u r j)
      = (V c main_v8 : S32x2048x64.Idx → EReal) (ix3 (bhOf t) (rowOf t r) j) := by
  obtain ⟨e0, e1, e2⟩ := idx1_0 t
  have hu : u.val = 0 := by omega
  unfold iblk1
  rw [View.read_apply]
  show (V c main_v8 : S32x2048x64.Idx → EReal) _ = _
  congr 1
  funext a
  apply Fin.ext
  match a with
  | ⟨0, _⟩ => show win1_0.index t (0 : Fin 3) * 1 + 1 * u.val = t.val % 32; omega
  | ⟨1, _⟩ => show win1_0.index t (1 : Fin 3) * 256 + 1 * r.val = 256 * (t.val / 32) + r.val; omega
  | ⟨2, _⟩ => show win1_0.index t (2 : Fin 3) * 64 + 1 * j.val = j.val; omega

/-- The keys' block: the whole of the point's head. -/
theorem iblk1_1_apply (c : Dev nD) (t : Fin cfg1.N) (u : Fin 1) (k : Fin 2048) (j : Fin 64) :
    (iblk1 V c 1 t : Vec Ideal S1x2048x64 .bf16) (ix3 u k j)
      = (V c main_v11 : S32x2048x64.Idx → EReal) (ix3 (bhOf t) k j) := by
  obtain ⟨e0, e1, e2⟩ := idx1_1 t
  have hu : u.val = 0 := by omega
  unfold iblk1
  rw [View.read_apply]
  show (V c main_v11 : S32x2048x64.Idx → EReal) _ = _
  congr 1
  funext a
  apply Fin.ext
  match a with
  | ⟨0, _⟩ => show win1_1.index t (0 : Fin 3) * 1 + 1 * u.val = t.val % 32; omega
  | ⟨1, _⟩ => show win1_1.index t (1 : Fin 3) * 2048 + 1 * k.val = k.val; omega
  | ⟨2, _⟩ => show win1_1.index t (2 : Fin 3) * 64 + 1 * j.val = j.val; omega

/-- The values' block: the whole of the point's head. -/
theorem iblk1_2_apply (c : Dev nD) (t : Fin cfg1.N) (u : Fin 1) (k : Fin 2048) (j : Fin 64) :
    (iblk1 V c 2 t : Vec Ideal S1x2048x64 .bf16) (ix3 u k j)
      = (V c main_v14 : S32x2048x64.Idx → EReal) (ix3 (bhOf t) k j) := by
  obtain ⟨e0, e1, e2⟩ := idx1_2 t
  have hu : u.val = 0 := by omega
  unfold iblk1
  rw [View.read_apply]
  show (V c main_v14 : S32x2048x64.Idx → EReal) _ = _
  congr 1
  funext a
  apply Fin.ext
  match a with
  | ⟨0, _⟩ => show win1_2.index t (0 : Fin 3) * 1 + 1 * u.val = t.val % 32; omega
  | ⟨1, _⟩ => show win1_2.index t (1 : Fin 3) * 2048 + 1 * k.val = k.val; omega
  | ⟨2, _⟩ => show win1_2.index t (2 : Fin 3) * 64 + 1 * j.val = j.val; omega

/-- The first rotary table's block of the point's rows. -/
theorem iblk1_3_apply (c : Dev nD) (t : Fin cfg1.N) (r : Fin 256) (i : Fin 32) :
    (iblk1 V c 3 t : Vec Ideal S256x32 .f32) (ix2 r i) = (V c main_v15 : S2048x32.Idx → EReal) (ix2 (rowOf t r) i) := by
  obtain ⟨e0, e1⟩ := idx1_3 t
  unfold iblk1
  rw [View.read_apply]
  show (V c main_v15 : S2048x32.Idx → EReal) _ = _
  congr 1
  funext a
  apply Fin.ext
  match a with
  | ⟨0, _⟩ => show win1_3.index t (0 : Fin 2) * 256 + 1 * r.val = 256 * (t.val / 32) + r.val; omega
  | ⟨1, _⟩ => show win1_3.index t (1 : Fin 2) * 32 + 1 * i.val = i.val; omega

/-- The second rotary table's block of the point's rows. -/
theorem iblk1_4_apply (c : Dev nD) (t : Fin cfg1.N) (r : Fin 256) (i : Fin 32) :
    (iblk1 V c 4 t : Vec Ideal S256x32 .f32) (ix2 r i) = (V c main_v16 : S2048x32.Idx → EReal) (ix2 (rowOf t r) i) := by
  obtain ⟨e0, e1⟩ := idx1_4 t
  unfold iblk1
  rw [View.read_apply]
  show (V c main_v16 : S2048x32.Idx → EReal) _ = _
  congr 1
  funext a
  apply Fin.ext
  match a with
  | ⟨0, _⟩ => show win1_4.index t (0 : Fin 2) * 256 + 1 * r.val = 256 * (t.val / 32) + r.val; omega
  | ⟨1, _⟩ => show win1_4.index t (1 : Fin 2) * 32 + 1 * i.val = i.val; omega

/-- The first rotary table whole. -/
theorem iblk1_5_apply (c : Dev nD) (t : Fin cfg1.N) (k : Fin 2048) (i : Fin 32) :
    (iblk1 V c 5 t : Vec Ideal S2048x32 .f32) (ix2 k i) = (V c main_v15 : S2048x32.Idx → EReal) (ix2 k i) := by
  obtain ⟨e0, e1⟩ := idx1_5 t
  unfold iblk1
  rw [View.read_apply]
  show (V c main_v15 : S2048x32.Idx → EReal) _ = _
  congr 1
  funext a
  apply Fin.ext
  match a with
  | ⟨0, _⟩ => show win1_5.index t (0 : Fin 2) * 2048 + 1 * k.val = k.val; omega
  | ⟨1, _⟩ => show win1_5.index t (1 : Fin 2) * 32 + 1 * i.val = i.val; omega

/-- The second rotary table whole. -/
theorem iblk1_6_apply (c : Dev nD) (t : Fin cfg1.N) (k : Fin 2048) (i : Fin 32) :
    (iblk1 V c 6 t : Vec Ideal S2048x32 .f32) (ix2 k i) = (V c main_v16 : S2048x32.Idx → EReal) (ix2 k i) := by
  obtain ⟨e0, e1⟩ := idx1_6 t
  unfold iblk1
  rw [View.read_apply]
  show (V c main_v16 : S2048x32.Idx → EReal) _ = _
  congr 1
  funext a
  apply Fin.ext
  match a with
  | ⟨0, _⟩ => show win1_6.index t (0 : Fin 2) * 2048 + 1 * k.val = k.val; omega
  | ⟨1, _⟩ => show win1_6.index t (1 : Fin 2) * 32 + 1 * i.val = i.val; omega

/-- The mask's block of the point's rows. -/
theorem iblk1_7_apply (c : Dev nD) (t : Fin cfg1.N) (r : Fin 256) (k : Fin 2048) :
    (iblk1 V c 7 t : Vec Ideal S256x2048 .f32) (ix2 r k) = (V c main_v17 : S2048x2048.Idx → EReal) (ix2 (rowOf t r) k) := by
  obtain ⟨e0, e1⟩ := idx1_7 t
  unfold iblk1
  rw [View.read_apply]
  show (V c main_v17 : S2048x2048.Idx → EReal) _ = _
  congr 1
  funext a
  apply Fin.ext
  match a with
  | ⟨0, _⟩ => show win1_7.index t (0 : Fin 2) * 256 + 1 * r.val = 256 * (t.val / 32) + r.val; omega
  | ⟨1, _⟩ => show win1_7.index t (1 : Fin 2) * 2048 + 1 * k.val = k.val; omega

/-! ## The scores -/

/-- The masked, scaled score of query row `row` against key row `u` in head `bh`, of the entry arrays: queries `Q`, keys
    `K`, the two rotary tables `C` and `S`, the mask `M`. -/
def score (Q K : S32x2048x64.Idx → EReal) (C S : S2048x32.Idx → EReal) (M : S2048x2048.Idx → EReal)
    (bh : Fin 32) (row u : Fin 2048) : EReal :=
  (∑ j : Fin 64, rot (fun j => Q (ix3 bh row j)) (fun i => C (ix2 row i)) (fun i => S (ix2 row i)) j
      * rot (fun j => K (ix3 bh u j)) (fun i => C (ix2 u i)) (fun i => S (ix2 u i)) j)
    * Ideal.ofBits .f32 0x3E000000#32 + M (ix2 row u)

/-- The scores' body of the blocks at a point. -/
def sblk (c : Dev nD) (t : Fin cfg1.N) : FVec Ideal S256x2048 .f32 :=
  k1_pay5 (F := Ideal) (iblk1 V c 0 t) (iblk1 V c 1 t) (iblk1 V c 3 t) (iblk1 V c 4 t) (iblk1 V c 5 t) (iblk1 V c 6 t)

/-- The scores' body plus the mask's block, at row `r` of the point's block and key row `u`, is the score of the entry
    arrays. -/
theorem sblk_apply (c : Dev nD) (t : Fin cfg1.N) (r : Fin 256) (u : Fin 2048) :
    sblk V c t (ix2 r u) + (iblk1 V c 7 t : Vec Ideal S256x2048 .f32) (ix2 r u)
      = score (V c main_v8) (V c main_v11) (V c main_v15) (V c main_v16) (V c main_v17) (bhOf t) (rowOf t r) u := by
  unfold sblk score
  refine (congrArg (· + _) (k1_pay5_apply (iblk1 V c 0 t) (iblk1 V c 1 t) (iblk1 V c 3 t) (iblk1 V c 4 t) (iblk1 V c 5 t)
    (iblk1 V c 6 t) r u)).trans ?_
  rw [iblk1_7_apply V c t r u]
  have hq : (fun j : Fin 64 => (iblk1 V c 0 t : Vec Ideal S1x256x64 .bf16) (ix3 (0 : Fin 1) r j))
      = fun j => (V c main_v8 : S32x2048x64.Idx → EReal) (ix3 (bhOf t) (rowOf t r) j) :=
    funext fun j => iblk1_0_apply V c t 0 r j
  have hk : (fun j : Fin 64 => (iblk1 V c 1 t : Vec Ideal S1x2048x64 .bf16) (ix3 (0 : Fin 1) u j))
      = fun j => (V c main_v11 : S32x2048x64.Idx → EReal) (ix3 (bhOf t) u j) :=
    funext fun j => iblk1_1_apply V c t 0 u j
  have h3 : (fun i : Fin 32 => (iblk1 V c 3 t : Vec Ideal S256x32 .f32) (ix2 r i))
      = fun i => (V c main_v15 : S2048x32.Idx → EReal) (ix2 (rowOf t r) i) :=
    funext fun i => iblk1_3_apply V c t r i
  have h4 : (fun i : Fin 32 => (iblk1 V c 4 t : Vec Ideal S256x32 .f32) (ix2 r i))
      = fun i => (V c main_v16 : S2048x32.Idx → EReal) (ix2 (rowOf t r) i) :=
    funext fun i => iblk1_4_apply V c t r i
  have h5 : (fun i : Fin 32 => (iblk1 V c 5 t : Vec Ideal S2048x32 .f32) (ix2 u i))
      = fun i => (V c main_v15 : S2048x32.Idx → EReal) (ix2 u i) :=
    funext fun i => iblk1_5_apply V c t u i
  have h6 : (fun i : Fin 32 => (iblk1 V c 6 t : Vec Ideal S2048x32 .f32) (ix2 u i))
      = fun i => (V c main_v16 : S2048x32.Idx → EReal) (ix2 u i) :=
    funext fun i => iblk1_6_apply V c t u i
  rw [hq, hk, h3, h4, h5, h6]

end Cert.KernelIdeal.ArrValue

end
-- ==== Proof.Arr1.lean ====
/-
  The attention kernel's two result arrays after its pipeline, entry by entry, on the extended reals.

  Point t of the 8 × 32 grid writes back, for head t % 32 and query rows 256·(t / 32) …, a block of the weights and a block
  of the context rows.  The weights at (head, query row, key) are the row-wise weights of the masked, scaled scores of that
  head and query row; the context at (head, query row, j) is the sum over the keys of the weight times the value.  Each
  written block is the block of that one function of the region's entry arrays, and the 256 blocks cover each result.
-/
import proofs.«145299_j26654567039014_2_alg».proof.Proof.Arr1Blk

noncomputable section

namespace Cert.KernelIdeal.ArrValue

open Cert.KernelIdeal Cert.KernelIdeal.Gen Cert.KernelIdeal.Hand Cert.KernelIdeal.PayValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1_3 : (![0, 0, 0] : Fin 3 → Nat) = fun _ => 0 := funext fun a => by fin_cases a <;> rfl
theorem hz1_2 : (![0, 0] : Fin 2 → Nat) = fun _ => 0 := funext fun a => by fin_cases a <;> rfl

/-- The weights by coordinates: the row-wise weights of the scores of head `bh` and query row `row`, at key `k`. -/
def weightAt (Q K : S32x2048x64.Idx → EReal) (C S : S2048x32.Idx → EReal) (M : S2048x2048.Idx → EReal)
    (bh : Fin 32) (row k : Fin 2048) : EReal :=
  softRow (fun u => score Q K C S M bh row u) k

/-- The context rows by coordinates: the sum over the keys of the weight times the value. -/
def contextAt (Q K Vh : S32x2048x64.Idx → EReal) (C S : S2048x32.Idx → EReal) (M : S2048x2048.Idx → EReal)
    (bh : Fin 32) (row : Fin 2048) (j : Fin 64) : EReal :=
  ∑ k : Fin 2048, weightAt Q K C S M bh row k * Vh (ix3 bh k j)

/-- The weights as a whole array. -/
def G8 (Q K : S32x2048x64.Idx → EReal) (C S : S2048x32.Idx → EReal) (M : S2048x2048.Idx → EReal) :
    S32x2048x2048.Idx → EReal :=
  fun i => weightAt Q K C S M ⟨(i 0).val, (i 0).isLt⟩ ⟨(i 1).val, (i 1).isLt⟩ ⟨(i 2).val, (i 2).isLt⟩

/-- The context rows as a whole array. -/
def G9 (Q K Vh : S32x2048x64.Idx → EReal) (C S : S2048x32.Idx → EReal) (M : S2048x2048.Idx → EReal) :
    S32x2048x64.Idx → EReal :=
  fun i => contextAt Q K Vh C S M ⟨(i 0).val, (i 0).isLt⟩ ⟨(i 1).val, (i 1).isLt⟩ ⟨(i 2).val, (i 2).isLt⟩

/-- The weights' body of the blocks at a point, at row `r` of the block and key `k`. -/
theorem wblk_apply (c : Dev nD) (t : Fin cfg1.N) (r : Fin 256) (k : Fin 2048) :
    k1_pay1 (F := Ideal) (sblk V c t) (iblk1 V c 7 t) (ix2 r k)
      = weightAt (V c main_v8) (V c main_v11) (V c main_v15) (V c main_v16) (V c main_v17) (bhOf t) (rowOf t r) k :=
  (k1_pay1_apply (sblk V c t) (iblk1 V c 7 t) r k).trans
    (congrArg (fun L : Fin 2048 → EReal => softRow L k) (funext fun u => sblk_apply V c t r u))

/-! ## Output window 8: the weights -/

/-- What point `t` writes back to window 8 is block `t` of the weights of the entry arrays. -/
theorem flushed1_8_eq (c : Dev nD) (t : Fin cfg1.N) :
    (dat1 V c).flushed 8 t = ((cfg1.win 8).blk t).view.read (Elt Ideal) (G8 (V c main_v8) (V c main_v11) (V c main_v15) (V c main_v16) (V c main_v17)) := by
  show (cfg1.win 8).cut (grid1.coords t) ((dat1 V c).after 8 t) = _
  rw [after1_8]
  unfold out1_8
  rw [View.canon_unit_zero hz1_3]
  simp only [View.ld_unit_zero (S := S1x256x64) hz1_3, View.ld_unit_zero (S := S1x2048x64) hz1_3,
    View.ld_unit_zero (S := S256x32) hz1_2, View.ld_unit_zero (S := S2048x32) hz1_2,
    View.ld_unit_zero (S := S256x2048) hz1_2]
  obtain ⟨e0, e1, e2⟩ := idx1_8 t
  funext j
  obtain ⟨u, r, k, rfl⟩ : ∃ (u : Fin 1) (r : Fin 256) (k : Fin 2048), j = ix3 u r k := ⟨j 0, j 1, j 2, eq_ix3 j⟩
  have hu : u.val = 0 := by omega
  show k1_pay2 (F := Ideal) (sblk V c t) (iblk1 V c 7 t) (ix3 u r k)
    = G8 (V c main_v8) (V c main_v11) (V c main_v15) (V c main_v16) (V c main_v17) (((cfg1.win 8).blk t).view.emb (ix3 u r k))
  refine (k1_pay2_apply (sblk V c t) (iblk1 V c 7 t) u r k).trans ?_
  have hemb : ((cfg1.win 8).blk t).view.emb (ix3 u r k) = (ix3 (bhOf t) (rowOf t r) k : S32x2048x2048.Idx) := by
    funext a
    apply Fin.ext
    match a with
    | ⟨0, _⟩ => show win1_8.index t (0 : Fin 3) * 1 + 1 * u.val = t.val % 32; omega
    | ⟨1, _⟩ => show win1_8.index t (1 : Fin 3) * 256 + 1 * r.val = 256 * (t.val / 32) + r.val; omega
    | ⟨2, _⟩ => show win1_8.index t (2 : Fin 3) * 2048 + 1 * k.val = k.val; omega
  rw [hemb]
  show _ = weightAt (V c main_v8) (V c main_v11) (V c main_v15) (V c main_v16) (V c main_v17) (bhOf t) (rowOf t r) k
  exact congrArg (fun L : Fin 2048 → EReal => softRow L k) (funext fun u' => sblk_apply V c t r u')

/-- An index of the array is in point `t`'s block of window 8 iff each coordinate is in the block's range on its axis. -/
theorem mem_blk1_8 (t : Fin cfg1.N) (i : S32x2048x2048.Idx) :
    i ∈ ((cfg1.win 8).blk t).view.set
      ↔ ∀ a : Fin 3, win1_8.index t a * S1x256x2048.size a ≤ (i a).val
          ∧ (i a).val < win1_8.index t a * S1x256x2048.size a + S1x256x2048.size a := by
  show i ∈ ((View.whole main_v18_0).slice (win1_8.rect t)).set ↔ _
  rw [View.set_slice_whole, Rect.mem_set_unit]
  exact Iff.rfl

/-- Every index of window 8's array is in the block of the point of its head and of the block its row falls in. -/
theorem cover1_8 (i : S32x2048x2048.Idx) :
    ∃ t : Fin cfg1.N, (cfg1.win 8).flush t = true ∧ i ∈ ((cfg1.win 8).blk t).view.set := by
  have hi0 : (i 0).val < 32 := (i 0).isLt
  have hi1 : (i 1).val < 2048 := (i 1).isLt
  have hi2 : (i 2).val < 2048 := (i 2).isLt
  let t : Fin cfg1.N := ⟨32 * ((i 1).val / 256) + (i 0).val, by rw [N_1']; omega⟩
  obtain ⟨e0, e1, e2⟩ := idx1_8 t
  have e0' : win1_8.index t (0 : Fin 3) = (32 * ((i 1).val / 256) + (i 0).val) % 32 := e0
  have e1' : win1_8.index t (1 : Fin 3) = (32 * ((i 1).val / 256) + (i 0).val) / 32 := e1
  refine ⟨t, flush1_8 t, ?_⟩
  rw [mem_blk1_8]
  intro a
  match a with
  | ⟨0, _⟩ =>
    show win1_8.index t (0 : Fin 3) * 1 ≤ (i 0).val ∧ (i 0).val < win1_8.index t (0 : Fin 3) * 1 + 1
    omega
  | ⟨1, _⟩ =>
    show win1_8.index t (1 : Fin 3) * 256 ≤ (i 1).val ∧ (i 1).val < win1_8.index t (1 : Fin 3) * 256 + 256
    omega
  | ⟨2, _⟩ =>
    show win1_8.index t (2 : Fin 3) * 2048 ≤ (i 2).val ∧ (i 2).val < win1_8.index t (2 : Fin 3) * 2048 + 2048
    omega

/-- The weights' array after the pipeline is the weights of the entry arrays. -/
theorem final1_8 (c : Dev nD) : (dat1 V c).arrAt 8 cfg1.N = G8 (V c main_v8) (V c main_v11) (V c main_v15) (V c main_v16) (V c main_v17) :=
  (dat1 V c).arrAt_eq_of_cover 8 (G8 (V c main_v8) (V c main_v11) (V c main_v15) (V c main_v16) (V c main_v17)) (fun t _ => flushed1_8_eq V c t) cover1_8

/-- The weights' array after the pipeline at `(bh, row, k)`. -/
theorem final1_8_apply (c : Dev nD) (bh : Fin 32) (row k : Fin 2048) :
    ((dat1 V c).arrAt 8 cfg1.N : S32x2048x2048.Idx → EReal) (ix3 bh row k) = weightAt (V c main_v8) (V c main_v11) (V c main_v15) (V c main_v16) (V c main_v17) bh row k := by
  rw [final1_8]
  rfl

/-! ## Output window 9: the context rows -/

/-- What point `t` writes back to window 9 is block `t` of the context rows of the entry arrays. -/
theorem flushed1_9_eq (c : Dev nD) (t : Fin cfg1.N) :
    (dat1 V c).flushed 9 t = ((cfg1.win 9).blk t).view.read (Elt Ideal) (G9 (V c main_v8) (V c main_v11) (V c main_v14) (V c main_v15) (V c main_v16) (V c main_v17)) := by
  show (cfg1.win 9).cut (grid1.coords t) ((dat1 V c).after 9 t) = _
  rw [after1_9]
  unfold out1_9
  rw [View.canon_unit_zero hz1_3]
  simp only [View.ld_unit_zero (S := S1x256x64) hz1_3, View.ld_unit_zero (S := S1x2048x64) hz1_3,
    View.ld_unit_zero (S := S256x32) hz1_2, View.ld_unit_zero (S := S2048x32) hz1_2,
    View.ld_unit_zero (S := S256x2048) hz1_2]
  obtain ⟨e0, e1, e2⟩ := idx1_9 t
  funext j
  obtain ⟨u, r, j, rfl⟩ : ∃ (u : Fin 1) (r : Fin 256) (j' : Fin 64), j = ix3 u r j' := ⟨j 0, j 1, j 2, eq_ix3 j⟩
  have hu : u.val = 0 := by omega
  show k1_pay3 (F := Ideal) (k1_pay4 (iblk1 V c 2 t)) (sblk V c t) (iblk1 V c 7 t) (ix3 u r j)
    = G9 (V c main_v8) (V c main_v11) (V c main_v14) (V c main_v15) (V c main_v16) (V c main_v17) (((cfg1.win 9).blk t).view.emb (ix3 u r j))
  refine (k1_pay3_apply (k1_pay4 (iblk1 V c 2 t)) (sblk V c t) (iblk1 V c 7 t) u r j).trans ?_
  have hemb : ((cfg1.win 9).blk t).view.emb (ix3 u r j) = (ix3 (bhOf t) (rowOf t r) j : S32x2048x64.Idx) := by
    funext a
    apply Fin.ext
    match a with
    | ⟨0, _⟩ => show win1_9.index t (0 : Fin 3) * 1 + 1 * u.val = t.val % 32; omega
    | ⟨1, _⟩ => show win1_9.index t (1 : Fin 3) * 256 + 1 * r.val = 256 * (t.val / 32) + r.val; omega
    | ⟨2, _⟩ => show win1_9.index t (2 : Fin 3) * 64 + 1 * j.val = j.val; omega
  rw [hemb]
  show _ = contextAt (V c main_v8) (V c main_v11) (V c main_v14) (V c main_v15) (V c main_v16) (V c main_v17) (bhOf t) (rowOf t r) j
  unfold contextAt
  refine Finset.sum_congr rfl fun k _ => ?_
  exact congrArg₂ (· * ·) (wblk_apply V c t r k)
    ((k1_pay4_apply (iblk1 V c 2 t) k j).trans (iblk1_2_apply V c t 0 k j))

/-- An index of the array is in point `t`'s block of window 9 iff each coordinate is in the block's range on its axis. -/
theorem mem_blk1_9 (t : Fin cfg1.N) (i : S32x2048x64.Idx) :
    i ∈ ((cfg1.win 9).blk t).view.set
      ↔ ∀ a : Fin 3, win1_9.index t a * S1x256x64.size a ≤ (i a).val
          ∧ (i a).val < win1_9.index t a * S1x256x64.size a + S1x256x64.size a := by
  show i ∈ ((View.whole main_v18_1).slice (win1_9.rect t)).set ↔ _
  rw [View.set_slice_whole, Rect.mem_set_unit]
  exact Iff.rfl

/-- Every index of window 9's array is in the block of the point of its head and of the block its row falls in. -/
theorem cover1_9 (i : S32x2048x64.Idx) :
    ∃ t : Fin cfg1.N, (cfg1.win 9).flush t = true ∧ i ∈ ((cfg1.win 9).blk t).view.set := by
  have hi0 : (i 0).val < 32 := (i 0).isLt
  have hi1 : (i 1).val < 2048 := (i 1).isLt
  have hi2 : (i 2).val < 64 := (i 2).isLt
  let t : Fin cfg1.N := ⟨32 * ((i 1).val / 256) + (i 0).val, by rw [N_1']; omega⟩
  obtain ⟨e0, e1, e2⟩ := idx1_9 t
  have e0' : win1_9.index t (0 : Fin 3) = (32 * ((i 1).val / 256) + (i 0).val) % 32 := e0
  have e1' : win1_9.index t (1 : Fin 3) = (32 * ((i 1).val / 256) + (i 0).val) / 32 := e1
  refine ⟨t, flush1_9 t, ?_⟩
  rw [mem_blk1_9]
  intro a
  match a with
  | ⟨0, _⟩ =>
    show win1_9.index t (0 : Fin 3) * 1 ≤ (i 0).val ∧ (i 0).val < win1_9.index t (0 : Fin 3) * 1 + 1
    omega
  | ⟨1, _⟩ =>
    show win1_9.index t (1 : Fin 3) * 256 ≤ (i 1).val ∧ (i 1).val < win1_9.index t (1 : Fin 3) * 256 + 256
    omega
  | ⟨2, _⟩ =>
    show win1_9.index t (2 : Fin 3) * 64 ≤ (i 2).val ∧ (i 2).val < win1_9.index t (2 : Fin 3) * 64 + 64
    omega

/-- The context rows' array after the pipeline is the context rows of the entry arrays. -/
theorem final1_9 (c : Dev nD) : (dat1 V c).arrAt 9 cfg1.N = G9 (V c main_v8) (V c main_v11) (V c main_v14) (V c main_v15) (V c main_v16) (V c main_v17) :=
  (dat1 V c).arrAt_eq_of_cover 9 (G9 (V c main_v8) (V c main_v11) (V c main_v14) (V c main_v15) (V c main_v16) (V c main_v17)) (fun t _ => flushed1_9_eq V c t) cover1_9

/-- The context rows' array after the pipeline at `(bh, row, j)`. -/
theorem final1_9_apply (c : Dev nD) (bh : Fin 32) (row : Fin 2048) (j : Fin 64) :
    ((dat1 V c).arrAt 9 cfg1.N : S32x2048x64.Idx → EReal) (ix3 bh row j) = contextAt (V c main_v8) (V c main_v11) (V c main_v14) (V c main_v15) (V c main_v16) (V c main_v17) bh row j := by
  rw [final1_9]
  rfl

end Cert.KernelIdeal.ArrValue

end
-- ==== Proof.Arr2.lean ====
/-
  The output projection's result array after its pipeline, entry by entry, on the extended reals.

  The grid has 8 points; point t stages rows 512·t … 512·t + 511 of the [4096, 1024] rows array, the whole weights and
  the whole bias row, and writes back rows 512·t … of the result.  Each written block is the block of one function of the
  region's entry arrays — entry (P, q) is (Σ_k rows[P, k] · weights[q, k]) + bias[0, q] — and the 8 blocks cover the result.
-/
import proofs.«145299_j26654567039014_2_alg».proof.Proof.Region2I
import proofs.«145299_j26654567039014_2_alg».proof.Proof.PayProj
import Idealize.ShloMosaic.Lib.Pipeline.Value
import Idealize.ShloMosaic.Lib.ValueIdx

noncomputable section

namespace Cert.KernelIdeal.ArrValue

open Cert.KernelIdeal Cert.KernelIdeal.Gen Cert.KernelIdeal.Hand Cert.KernelIdeal.PayValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The affine map of the three entry arrays, entry by entry. -/
def affine2 (X : S4096x1024.Idx → EReal) (W : S1024x1024.Idx → EReal) (B : S1x1024.Idx → EReal) (P : Fin 4096) (q : Fin 1024) :
    EReal :=
  (∑ k : Fin 1024, X (ix2 P k) * W (ix2 q k)) + B (ix2 (0 : Fin 1) q)

/-- The same as a whole array. -/
def G2 (X : S4096x1024.Idx → EReal) (W : S1024x1024.Idx → EReal) (B : S1x1024.Idx → EReal) : S4096x1024.Idx → EReal :=
  fun i => affine2 X W B ⟨(i 0).val, (i 0).isLt⟩ ⟨(i 1).val, (i 1).isLt⟩

/-- The printed index maps over the grid: the rows' and the result's block index is the point, everything else is 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The rows' block at point `t`: rows `512·t …` of the entry array. -/
theorem iblk2_0_apply (c : Dev nD) (t : Fin cfg2.N) (p : Fin 512) (k : Fin 1024) (P : Fin 4096) (hP : P.val = 512 * t.val + p.val) :
    (iblk2 V c 0 t : Vec Ideal S512x1024 .bf16) (ix2 p k) = (V c main_v22 : S4096x1024.Idx → EReal) (ix2 P k) := by
  obtain ⟨e0, e1, -⟩ := idx_facts2 t
  unfold iblk2
  rw [View.read_apply]
  show (V c main_v22 : S4096x1024.Idx → EReal) _ = _
  congr 1
  funext a
  apply Fin.ext
  match a with
  | ⟨0, _⟩ => show win2_0.index t (0 : Fin 2) * 512 + 1 * p.val = P.val; omega
  | ⟨1, _⟩ => show win2_0.index t (1 : Fin 2) * 1024 + 1 * k.val = k.val; omega

/-- The weights' block at every point: the whole entry array. -/
theorem iblk2_1_apply (c : Dev nD) (t : Fin cfg2.N) (q : Fin 1024) (k : Fin 1024) :
    (iblk2 V c 1 t : Vec Ideal S1024x1024 .bf16) (ix2 q k) = (V c main_v23 : S1024x1024.Idx → EReal) (ix2 q k) := by
  obtain ⟨-, -, e0, e1, -⟩ := idx_facts2 t
  unfold iblk2
  rw [View.read_apply]
  show (V c main_v23 : S1024x1024.Idx → EReal) _ = _
  congr 1
  funext a
  apply Fin.ext
  match a with
  | ⟨0, _⟩ => show win2_1.index t (0 : Fin 2) * 1024 + 1 * q.val = q.val; omega
  | ⟨1, _⟩ => show win2_1.index t (1 : Fin 2) * 1024 + 1 * k.val = k.val; omega

/-- The bias row's block at every point: the whole entry array. -/
theorem iblk2_2_apply (c : Dev nD) (t : Fin cfg2.N) (u : Fin 1) (q : Fin 1024) :
    (iblk2 V c 2 t : Vec Ideal S1x1024 .f32) (ix2 u q) = (V c main_v24 : S1x1024.Idx → EReal) (ix2 u q) := by
  obtain ⟨-, -, -, -, e0, e1, -⟩ := idx_facts2 t
  unfold iblk2
  rw [View.read_apply]
  show (V c main_v24 : S1x1024.Idx → EReal) _ = _
  congr 1
  funext a
  apply Fin.ext
  match a with
  | ⟨0, _⟩ => show win2_2.index t (0 : Fin 2) * 1 + 1 * u.val = u.val; omega
  | ⟨1, _⟩ => show win2_2.index t (1 : Fin 2) * 1024 + 1 * q.val = q.val; omega

/-- What point `t` writes back is block `t` of the affine map of the entry arrays. -/
theorem flushed2_eq (c : Dev nD) (t : Fin cfg2.N) :
    (dat2 V c).flushed 3 t
      = ((cfg2.win 3).blk t).view.read (Elt Ideal) (G2 (V c main_v22) (V c main_v23) (V c main_v24)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2,
    View.ld_unit_zero (S := S1x1024) hz2]
  obtain ⟨-, -, -, -, -, -, e0, e1⟩ := idx_facts2 t
  funext j
  obtain ⟨p, q, rfl⟩ : ∃ (p : Fin 512) (q : Fin 1024), j = ix2 p q := ⟨j 0, j 1, eq_ix2 j⟩
  have ht : t.val < 8 := t.isLt
  show k2_pay1 (F := Ideal) (iblk2 V c 0 t) (iblk2 V c 1 t) (iblk2 V c 2 t) (ix2 p q)
    = G2 (V c main_v22) (V c main_v23) (V c main_v24) (((cfg2.win 3).blk t).view.emb (ix2 p q))
  refine (k2_pay1_apply (iblk2 V c 0 t) (iblk2 V c 1 t) (iblk2 V c 2 t) p q).trans ?_
  have hemb : ((cfg2.win 3).blk t).view.emb (ix2 p q)
      = (ix2 (⟨512 * t.val + p.val, by omega⟩ : Fin 4096) q : S4096x1024.Idx) := by
    funext a
    apply Fin.ext
    match a with
    | ⟨0, _⟩ => show win2_3.index t (0 : Fin 2) * 512 + 1 * p.val = 512 * t.val + p.val; omega
    | ⟨1, _⟩ => show win2_3.index t (1 : Fin 2) * 1024 + 1 * q.val = q.val; omega
  rw [hemb]
  show _ = affine2 (V c main_v22) (V c main_v23) (V c main_v24) ⟨512 * t.val + p.val, _⟩ q
  unfold affine2
  rw [iblk2_2_apply V c t 0 q]
  refine congrArg (· + _) (Finset.sum_congr rfl fun k _ => ?_)
  rw [iblk2_0_apply V c t p k ⟨512 * t.val + p.val, by omega⟩ rfl, iblk2_1_apply V c t q k]

/-- An index of the result is in point `t`'s block iff each coordinate is in the block's range on its axis. -/
theorem mem_blk2 (t : Fin cfg2.N) (i : S4096x1024.Idx) :
    i ∈ ((cfg2.win 3).blk t).view.set
      ↔ ∀ a : Fin 2, win2_3.index t a * S512x1024.size a ≤ (i a).val
          ∧ (i a).val < win2_3.index t a * S512x1024.size a + S512x1024.size a := by
  show i ∈ ((View.whole main_v25).slice (win2_3.rect t)).set ↔ _
  rw [View.set_slice_whole, Rect.mem_set_unit]
  exact Iff.rfl

/-- Every index of the result is in the block of the point its row falls in. -/
theorem cover2_3 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := by decide
  let t : Fin cfg2.N := ⟨(i 0).val / 512, by rw [hN]; omega⟩
  obtain ⟨-, -, -, -, -, -, e0, e1⟩ := idx_facts2 t
  have e0' : win2_3.index t (0 : Fin 2) = (i 0).val / 512 := e0
  refine ⟨t, flush2_3 t, ?_⟩
  rw [mem_blk2]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 1024 ≤ (i 1).val ∧ (i 1).val < win2_3.index t (1 : Fin 2) * 1024 + 1024
    omega

/-- The result array after the pipeline is the affine map of the entry arrays. -/
theorem final2 (c : Dev nD) :
    (dat2 V c).arrAt 3 cfg2.N = G2 (V c main_v22) (V c main_v23) (V c main_v24) :=
  (dat2 V c).arrAt_eq_of_cover 3 (G2 (V c main_v22) (V c main_v23) (V c main_v24)) (fun t _ => flushed2_eq V c t) cover2_3

/-- The result array after the pipeline at entry `(P, q)`. -/
theorem final2_apply (c : Dev nD) (P : Fin 4096) (q : Fin 1024) :
    ((dat2 V c).arrAt 3 cfg2.N : S4096x1024.Idx → EReal) (ix2 P q)
      = affine2 (V c main_v22) (V c main_v23) (V c main_v24) P q := by
  rw [final2]
  rfl

end Cert.KernelIdeal.ArrValue

end
-- ==== Proof.Coords.lean ====
/-
  Coordinates shared by the two layouts of the activations: a row of the flattened [batch·time, features] matrix
  is (batch, time), and a slab of the [batch·head, time, width] stack is (batch, head).
-/
import Mathlib.Tactic

namespace Cert.AttnCoords

/-- Row `b·2048 + t` of the flattened activations. -/
def row (b : Fin 2) (t : Fin 2048) : Fin 4096 := ⟨b.val * 2048 + t.val, by have := b.isLt; have := t.isLt; omega⟩
/-- Slab `b·16 + h` of the per-head stack. -/
def bh (b : Fin 2) (h : Fin 16) : Fin 32 := ⟨b.val * 16 + h.val, by have := b.isLt; have := h.isLt; omega⟩

@[simp] theorem row_val (b : Fin 2) (t : Fin 2048) : (row b t).val = b.val * 2048 + t.val := rfl
@[simp] theorem bh_val (b : Fin 2) (h : Fin 16) : (bh b h).val = b.val * 16 + h.val := rfl

/-- Every row is some (batch, time). -/
theorem row_surj (p : Fin 4096) : ∃ b t, p = row b t :=
  ⟨⟨p.val / 2048, by have := p.isLt; omega⟩, ⟨p.val % 2048, by omega⟩, Fin.ext (by simp only [row_val]; omega)⟩
/-- Every slab is some (batch, head). -/
theorem bh_surj (g : Fin 32) : ∃ b h, g = bh b h :=
  ⟨⟨g.val / 16, by have := g.isLt; omega⟩, ⟨g.val % 16, by omega⟩, Fin.ext (by simp only [bh_val]; omega)⟩

end Cert.AttnCoords
-- ==== Proof.GlueIdx.lean ====
/-
  The arithmetic between a feature and its head and position, and the injectivity of the flat row and slab
  coordinates.
-/
import proofs.«145299_j26654567039014_2_alg».proof.Proof.Spec
import proofs.«145299_j26654567039014_2_alg».proof.Proof.Coords

noncomputable section

namespace Cert.KernelIdeal.Glue

open Cert.AttnSpec Cert.AttnCoords

theorem row_inj {b b' : Fin 2} {t t' : Fin 2048} (e : row b t = row b' t') : b = b' ∧ t = t' := by
  have hv : b.val * 2048 + t.val = b'.val * 2048 + t'.val := congrArg Fin.val e
  have := t.isLt; have := t'.isLt
  exact ⟨Fin.ext (by omega), Fin.ext (by omega)⟩

theorem bh_inj {b b' : Fin 2} {h h' : Fin 16} (e : bh b h = bh b' h') : b = b' ∧ h = h' := by
  have hv : b.val * 16 + h.val = b'.val * 16 + h'.val := congrArg Fin.val e
  have := h.isLt; have := h'.isLt
  exact ⟨Fin.ext (by omega), Fin.ext (by omega)⟩

theorem feat_val (h : Fin 16) (j : Fin 64) : (feat h j).val = h.val * 64 + j.val := rfl
theorem headOf_val (e : Fin 1024) : (headOf e).val = e.val / 64 := rfl
theorem posOf_val (e : Fin 1024) : (posOf e).val = e.val % 64 := rfl

/-- A feature is position e % 64 of head e / 64. -/
theorem feat_headOf_posOf (e : Fin 1024) : feat (headOf e) (posOf e) = e :=
  Fin.ext (by show e.val / 64 * 64 + e.val % 64 = e.val; omega)

theorem headOf_feat (h : Fin 16) (j : Fin 64) : headOf (feat h j) = h :=
  Fin.ext (by have := j.isLt; show (h.val * 64 + j.val) / 64 = h.val; omega)

theorem posOf_feat (h : Fin 16) (j : Fin 64) : posOf (feat h j) = j :=
  Fin.ext (by have := j.isLt; show (h.val * 64 + j.val) % 64 = j.val; omega)

end Cert.KernelIdeal.Glue
-- ==== Proof.Glue0.lean ====
/-
  The host operations before the projection kernel, read at an index over any valuation of the buffers: the
  activations flattened to [4096,1024]; the three projection weights joined along the output features to
  [3072,1024] and narrowed to bf16 (the identity on the extended reals); the three biases joined to [3072] and
  made a row.
-/
import proofs.«145299_j26654567039014_2_alg».proof.Proof.Gen.KernelIdeal.Launch
import proofs.«145299_j26654567039014_2_alg».proof.Proof.Spec
import proofs.«145299_j26654567039014_2_alg».proof.Proof.Coords
import proofs.«145299_j26654567039014_2_alg».proof.Proof.GlueIdx
import Idealize.ShloMosaic.Lib.StableHlo.Run
import Idealize.ShloMosaic.Lib.Pipeline.Value
import Idealize.ShloMosaic.Lib.ValueIdx

noncomputable section

namespace Cert.KernelIdeal.Glue

open Cert.AttnSpec Idealize.ShloMosaic Idealize.ShloMosaic.ValueIdx Cert.AttnCoords Idealize.ShloMosaic.StableHlo Idealize.ShloMosaic.TcCoe Cert.KernelIdeal Cert.KernelIdeal.Gen

variable (W : Valuation τ sig (Elt Ideal))

/-- A three-operand operation's result, with each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The results of a line of host operations, three-operand joins included: each operation's result at its own
    buffer is its function's value, at any other buffer what was there. -/
macro "after_results3" : tactic =>
  `(tactic| (simp only [after_cons, after_nil]
             repeat (first
               | rw [unary_result] | rw [reshape_result] | rw [nary3_result]
               | (rw [unary_result_ne]; rotate_left; decide)
               | (rw [reshape_result_ne]; rotate_left; decide)
               | (rw [nary_result_ne]; rotate_left; decide))))

/-- The flattened activations: row (b, t) is token t of batch b. -/
theorem g0_v0 (b : Fin 2) (t : Fin 2048) (d : Fin 1024) :
    StableHlo.after hostOps0 W (Proc.devRef .tc main_v0) (ix2 (row b t) d) = W (Proc.devRef .tc main_arg0) (ix3 b t d) := by
  have e0 : StableHlo.after hostOps0 W (Proc.devRef .tc main_v0)
      = shapeCast S4096x1024 (W (Proc.devRef .tc main_arg0)) shapeCasts_S2x2048x1024_S4096x1024 := by
    after_results3; rfl
  rw [e0]
  refine shapeCast_apply (s := S2x2048x1024) (t := S4096x1024) _ _ _ _ ?_
  rw [Shape.rowMajor_val_three, Shape.rowMajor_val_two]
  rfl

/-- The joined weights as a term of the valuation. -/
theorem v2_term : StableHlo.after hostOps0 W (Proc.devRef .tc main_v2)
    = (truncf .bf16 (concatenate S3072x1024 0
        [⟨S1024x1024, W (Proc.devRef .tc main_arg4)⟩, ⟨S1024x1024, W (Proc.devRef .tc main_arg6)⟩,
          ⟨S1024x1024, W (Proc.devRef .tc main_arg8)⟩]
        concatenates_S1024x1024_S1024x1024_S1024x1024_S3072x1024_d0) bitsLt_bf16_f32 : FVec Ideal S3072x1024 .bf16) := by
  after_results3; rfl

/-- The joined bias row as a term of the valuation. -/
theorem v4_term : StableHlo.after hostOps0 W (Proc.devRef .tc main_v4)
    = shapeCast S1x3072 (concatenate S3072 0
        [⟨S1024, W (Proc.devRef .tc main_arg5)⟩, ⟨S1024, W (Proc.devRef .tc main_arg7)⟩,
          ⟨S1024, W (Proc.devRef .tc main_arg9)⟩]
        concatenates_S1024_S1024_S1024_S3072_d0) shapeCasts_S3072_S1x3072 := by
  after_results3; rfl

/-- Rows 0 … 1023 of the joined weights are the query weights. -/
theorem g0_v2_0 (e d : Fin 1024) :
    StableHlo.after hostOps0 W (Proc.devRef .tc main_v2) (ix2 (⟨e.val, by have := e.isLt; omega⟩ : Fin 3072) d)
      = W (Proc.devRef .tc main_arg4) (ix2 e d) := by
  rw [v2_term, truncf_apply]
  refine concatenate_apply_piece (t := S3072x1024) _ _ _ _ 0 (by show (0 : Nat) < 3; omega) S1024x1024 (W (Proc.devRef .tc main_arg4)) rfl rfl 0 rfl
    (ix2 e d) ?_ ?_
  · intro a ha
    match a with
    | ⟨0, _⟩ => exact absurd rfl ha
    | ⟨1, _⟩ => rfl
  · show 0 + e.val = e.val; omega

/-- Rows 1024 … 2047 of the joined weights are the key weights. -/
theorem g0_v2_1 (e d : Fin 1024) :
    StableHlo.after hostOps0 W (Proc.devRef .tc main_v2) (ix2 (⟨1024 + e.val, by have := e.isLt; omega⟩ : Fin 3072) d)
      = W (Proc.devRef .tc main_arg6) (ix2 e d) := by
  rw [v2_term, truncf_apply]
  refine concatenate_apply_piece (t := S3072x1024) _ _ _ _ 1 (by show (1 : Nat) < 3; omega) S1024x1024 (W (Proc.devRef .tc main_arg6)) rfl rfl 1024 rfl
    (ix2 e d) ?_ ?_
  · intro a ha
    match a with
    | ⟨0, _⟩ => exact absurd rfl ha
    | ⟨1, _⟩ => rfl
  · rfl

/-- Rows 2048 … 3071 of the joined weights are the value weights. -/
theorem g0_v2_2 (e d : Fin 1024) :
    StableHlo.after hostOps0 W (Proc.devRef .tc main_v2) (ix2 (⟨2048 + e.val, by have := e.isLt; omega⟩ : Fin 3072) d)
      = W (Proc.devRef .tc main_arg8) (ix2 e d) := by
  rw [v2_term, truncf_apply]
  refine concatenate_apply_piece (t := S3072x1024) _ _ _ _ 2 (by show (2 : Nat) < 3; omega) S1024x1024 (W (Proc.devRef .tc main_arg8)) rfl rfl 2048 rfl
    (ix2 e d) ?_ ?_
  · intro a ha
    match a with
    | ⟨0, _⟩ => exact absurd rfl ha
    | ⟨1, _⟩ => rfl
  · rfl

/-- Entries 0 … 1023 of the joined bias row are the query bias. -/
theorem g0_v4_0 (e : Fin 1024) :
    StableHlo.after hostOps0 W (Proc.devRef .tc main_v4) (ix2 (0 : Fin 1) (⟨e.val, by have := e.isLt; omega⟩ : Fin 3072))
      = W (Proc.devRef .tc main_arg5) (ix1 e) := by
  rw [v4_term]
  refine (shapeCast_apply (s := S3072) (t := S1x3072) _ _ _ (ix1 (⟨e.val, by have := e.isLt; omega⟩ : Fin 3072)) ?_).trans ?_
  · rw [Shape.rowMajor_val_one, Shape.rowMajor_val_two]
    show e.val = 0 * 3072 + e.val
    omega
  refine concatenate_apply_piece (t := S3072) _ _ _ _ 0 (by show (0 : Nat) < 3; omega) S1024 (W (Proc.devRef .tc main_arg5)) rfl rfl 0 rfl
    (ix1 e) ?_ ?_
  · intro a ha
    match a with
    | ⟨0, _⟩ => exact absurd rfl ha
  · show 0 + e.val = e.val; omega

/-- Entries 1024 … 2047 of the joined bias row are the key bias. -/
theorem g0_v4_1 (e : Fin 1024) :
    StableHlo.after hostOps0 W (Proc.devRef .tc main_v4) (ix2 (0 : Fin 1) (⟨1024 + e.val, by have := e.isLt; omega⟩ : Fin 3072))
      = W (Proc.devRef .tc main_arg7) (ix1 e) := by
  rw [v4_term]
  refine (shapeCast_apply (s := S3072) (t := S1x3072) _ _ _ (ix1 (⟨1024 + e.val, by have := e.isLt; omega⟩ : Fin 3072)) ?_).trans ?_
  · rw [Shape.rowMajor_val_one, Shape.rowMajor_val_two]
    show 1024 + e.val = 0 * 3072 + (1024 + e.val)
    omega
  refine concatenate_apply_piece (t := S3072) _ _ _ _ 1 (by show (1 : Nat) < 3; omega) S1024 (W (Proc.devRef .tc main_arg7)) rfl rfl 1024 rfl
    (ix1 e) ?_ ?_
  · intro a ha
    match a with
    | ⟨0, _⟩ => exact absurd rfl ha
  · rfl

/-- Entries 2048 … 3071 of the joined bias row are the value bias. -/
theorem g0_v4_2 (e : Fin 1024) :
    StableHlo.after hostOps0 W (Proc.devRef .tc main_v4) (ix2 (0 : Fin 1) (⟨2048 + e.val, by have := e.isLt; omega⟩ : Fin 3072))
      = W (Proc.devRef .tc main_arg9) (ix1 e) := by
  rw [v4_term]
  refine (shapeCast_apply (s := S3072) (t := S1x3072) _ _ _ (ix1 (⟨2048 + e.val, by have := e.isLt; omega⟩ : Fin 3072)) ?_).trans ?_
  · rw [Shape.rowMajor_val_one, Shape.rowMajor_val_two]
    show 2048 + e.val = 0 * 3072 + (2048 + e.val)
    omega
  refine concatenate_apply_piece (t := S3072) _ _ _ _ 2 (by show (2 : Nat) < 3; omega) S1024 (W (Proc.devRef .tc main_arg9)) rfl rfl 2048 rfl
    (ix1 e) ?_ ?_
  · intro a ha
    match a with
    | ⟨0, _⟩ => exact absurd rfl ha
  · rfl

end Cert.KernelIdeal.Glue
-- ==== Proof.Glue1.lean ====
/-
  The host operations between the projection kernel and the attention kernel, read at an index over any valuation
  of the buffers: each projection [4096,1024] reshaped to [2,2048,16,64], transposed to [2,16,2048,64] and flattened
  to [32,2048,64]; the rotary tables and the mask without their unit axes.
-/
import proofs.«145299_j26654567039014_2_alg».proof.Proof.Gen.KernelIdeal.Launch
import proofs.«145299_j26654567039014_2_alg».proof.Proof.Spec
import proofs.«145299_j26654567039014_2_alg».proof.Proof.Coords
import proofs.«145299_j26654567039014_2_alg».proof.Proof.GlueIdx
import Idealize.ShloMosaic.Lib.StableHlo.Run
import Idealize.ShloMosaic.Lib.Pipeline.Value
import Idealize.ShloMosaic.Lib.ValueIdx

noncomputable section

namespace Cert.KernelIdeal.Glue

open Cert.AttnSpec Idealize.ShloMosaic Idealize.ShloMosaic.ValueIdx Cert.AttnCoords Idealize.ShloMosaic.StableHlo Idealize.ShloMosaic.TcCoe Cert.KernelIdeal Cert.KernelIdeal.Gen

variable (W : Valuation τ sig (Elt Ideal))

/-- The query heads: slab 16 b + h, token t, position j is feature 64 h + j of row (b, t). -/
theorem g1_v8 (b : Fin 2) (h : Fin 16) (t : Fin 2048) (j : Fin 64) :
    StableHlo.after hostOps1 W (Proc.devRef .tc main_v8) (ix3 (bh b h) t j)
      = W (Proc.devRef .tc main_v5_0) (ix2 (row b t) (feat h j)) := by
  have e0 : StableHlo.after hostOps1 W (Proc.devRef .tc main_v8)
      = shapeCast S32x2048x64
          (transpose S2x16x2048x64 [0, 2, 1, 3]
            (shapeCast S2x2048x16x64 (W (Proc.devRef .tc main_v5_0)) shapeCasts_S4096x1024_S2x2048x16x64)
            transposes_S2x2048x16x64_S2x16x2048x64_0_2_1_3)
          shapeCasts_S2x16x2048x64_S32x2048x64 := by
    after_results; rfl
  have hb := b.isLt; have hh := h.isLt; have ht := t.isLt; have hj := j.isLt
  rw [e0]
  refine (shapeCast_apply (s := S2x16x2048x64) (t := S32x2048x64) _ _ _ (ix4 b h t j) ?_).trans ?_
  · rw [Shape.rowMajor_val_four, Shape.rowMajor_val_three]
    rfl
  refine (transpose_apply (s := S2x2048x16x64) (t := S2x16x2048x64) _ _ _ _ (ix4 b t h j) ?_).trans ?_
  · intro a
    match a with
    | ⟨0, _⟩ => rfl
    | ⟨1, _⟩ => rfl
    | ⟨2, _⟩ => rfl
    | ⟨3, _⟩ => rfl
  refine shapeCast_apply (s := S4096x1024) (t := S2x2048x16x64) _ _ _ _ ?_
  rw [Shape.rowMajor_val_two, Shape.rowMajor_val_four]
  show (b.val * 2048 + t.val) * 1024 + (h.val * 64 + j.val) = ((b.val * 2048 + t.val) * 16 + h.val) * 64 + j.val
  omega

/-- The key heads: slab 16 b + h, token t, position j is feature 64 h + j of row (b, t). -/
theorem g1_v11 (b : Fin 2) (h : Fin 16) (t : Fin 2048) (j : Fin 64) :
    StableHlo.after hostOps1 W (Proc.devRef .tc main_v11) (ix3 (bh b h) t j)
      = W (Proc.devRef .tc main_v5_1) (ix2 (row b t) (feat h j)) := by
  have e0 : StableHlo.after hostOps1 W (Proc.devRef .tc main_v11)
      = shapeCast S32x2048x64
          (transpose S2x16x2048x64 [0, 2, 1, 3]
            (shapeCast S2x2048x16x64 (W (Proc.devRef .tc main_v5_1)) shapeCasts_S4096x1024_S2x2048x16x64)
            transposes_S2x2048x16x64_S2x16x2048x64_0_2_1_3)
          shapeCasts_S2x16x2048x64_S32x2048x64 := by
    after_results; rfl
  have hb := b.isLt; have hh := h.isLt; have ht := t.isLt; have hj := j.isLt
  rw [e0]
  refine (shapeCast_apply (s := S2x16x2048x64) (t := S32x2048x64) _ _ _ (ix4 b h t j) ?_).trans ?_
  · rw [Shape.rowMajor_val_four, Shape.rowMajor_val_three]
    rfl
  refine (transpose_apply (s := S2x2048x16x64) (t := S2x16x2048x64) _ _ _ _ (ix4 b t h j) ?_).trans ?_
  · intro a
    match a with
    | ⟨0, _⟩ => rfl
    | ⟨1, _⟩ => rfl
    | ⟨2, _⟩ => rfl
    | ⟨3, _⟩ => rfl
  refine shapeCast_apply (s := S4096x1024) (t := S2x2048x16x64) _ _ _ _ ?_
  rw [Shape.rowMajor_val_two, Shape.rowMajor_val_four]
  show (b.val * 2048 + t.val) * 1024 + (h.val * 64 + j.val) = ((b.val * 2048 + t.val) * 16 + h.val) * 64 + j.val
  omega

/-- The value heads: slab 16 b + h, token t, position j is feature 64 h + j of row (b, t). -/
theorem g1_v14 (b : Fin 2) (h : Fin 16) (t : Fin 2048) (j : Fin 64) :
    StableHlo.after hostOps1 W (Proc.devRef .tc main_v14) (ix3 (bh b h) t j)
      = W (Proc.devRef .tc main_v5_2) (ix2 (row b t) (feat h j)) := by
  have e0 : StableHlo.after hostOps1 W (Proc.devRef .tc main_v14)
      = shapeCast S32x2048x64
          (transpose S2x16x2048x64 [0, 2, 1, 3]
            (shapeCast S2x2048x16x64 (W (Proc.devRef .tc main_v5_2)) shapeCasts_S4096x1024_S2x2048x16x64)
            transposes_S2x2048x16x64_S2x16x2048x64_0_2_1_3)
          shapeCasts_S2x16x2048x64_S32x2048x64 := by
    after_results; rfl
  have hb := b.isLt; have hh := h.isLt; have ht := t.isLt; have hj := j.isLt
  rw [e0]
  refine (shapeCast_apply (s := S2x16x2048x64) (t := S32x2048x64) _ _ _ (ix4 b h t j) ?_).trans ?_
  · rw [Shape.rowMajor_val_four, Shape.rowMajor_val_three]
    rfl
  refine (transpose_apply (s := S2x2048x16x64) (t := S2x16x2048x64) _ _ _ _ (ix4 b t h j) ?_).trans ?_
  · intro a
    match a with
    | ⟨0, _⟩ => rfl
    | ⟨1, _⟩ => rfl
    | ⟨2, _⟩ => rfl
    | ⟨3, _⟩ => rfl
  refine shapeCast_apply (s := S4096x1024) (t := S2x2048x16x64) _ _ _ _ ?_
  rw [Shape.rowMajor_val_two, Shape.rowMajor_val_four]
  show (b.val * 2048 + t.val) * 1024 + (h.val * 64 + j.val) = ((b.val * 2048 + t.val) * 16 + h.val) * 64 + j.val
  omega

/-- The cosine table without its leading unit axis. -/
theorem g1_v15 (t : Fin 2048) (i : Fin 32) :
    StableHlo.after hostOps1 W (Proc.devRef .tc main_v15) (ix2 t i)
      = W (Proc.devRef .tc main_arg2) (ix3 (0 : Fin 1) t i) := by
  have e0 : StableHlo.after hostOps1 W (Proc.devRef .tc main_v15)
      = shapeCast S2048x32 (W (Proc.devRef .tc main_arg2)) shapeCasts_S1x2048x32_S2048x32 := by
    after_results; rfl
  rw [e0]
  refine shapeCast_apply (s := S1x2048x32) (t := S2048x32) _ _ _ _ ?_
  rw [Shape.rowMajor_val_three, Shape.rowMajor_val_two]
  show (0 * 2048 + t.val) * 32 + i.val = t.val * 32 + i.val
  omega

/-- The sine table without its leading unit axis. -/
theorem g1_v16 (t : Fin 2048) (i : Fin 32) :
    StableHlo.after hostOps1 W (Proc.devRef .tc main_v16) (ix2 t i)
      = W (Proc.devRef .tc main_arg3) (ix3 (0 : Fin 1) t i) := by
  have e0 : StableHlo.after hostOps1 W (Proc.devRef .tc main_v16)
      = shapeCast S2048x32 (W (Proc.devRef .tc main_arg3)) shapeCasts_S1x2048x32_S2048x32 := by
    after_results; rfl
  rw [e0]
  refine shapeCast_apply (s := S1x2048x32) (t := S2048x32) _ _ _ _ ?_
  rw [Shape.rowMajor_val_three, Shape.rowMajor_val_two]
  show (0 * 2048 + t.val) * 32 + i.val = t.val * 32 + i.val
  omega

/-- The mask without its two leading unit axes. -/
theorem g1_v17 (q k : Fin 2048) :
    StableHlo.after hostOps1 W (Proc.devRef .tc main_v17) (ix2 q k)
      = W (Proc.devRef .tc main_arg1) (ix4 (0 : Fin 1) (0 : Fin 1) q k) := by
  have e0 : StableHlo.after hostOps1 W (Proc.devRef .tc main_v17)
      = shapeCast S2048x2048 (W (Proc.devRef .tc main_arg1)) shapeCasts_S1x1x2048x2048_S2048x2048 := by
    after_results; rfl
  rw [e0]
  refine shapeCast_apply (s := S1x1x2048x2048) (t := S2048x2048) _ _ _ _ ?_
  rw [Shape.rowMajor_val_four, Shape.rowMajor_val_two]
  show ((0 * 1 + 0) * 2048 + q.val) * 2048 + k.val = q.val * 2048 + k.val
  omega

end Cert.KernelIdeal.Glue
-- ==== Proof.Glue2.lean ====
/-
  The host operations between the attention kernel and the output projection, read at an index over any
  valuation of the buffers: the attention weights [32,2048,2048] reshaped to [2,16,2048,2048]; the context
  [32,2048,64] reshaped to [2,16,2048,64], transposed to [2,2048,16,64] and merged to [4096,1024]; the output
  weights narrowed to bf16 (the identity on the extended reals); the output bias as a row.
-/
import proofs.«145299_j26654567039014_2_alg».proof.Proof.Gen.KernelIdeal.Launch
import proofs.«145299_j26654567039014_2_alg».proof.Proof.Spec
import proofs.«145299_j26654567039014_2_alg».proof.Proof.Coords
import proofs.«145299_j26654567039014_2_alg».proof.Proof.GlueIdx
import Idealize.ShloMosaic.Lib.StableHlo.Run
import Idealize.ShloMosaic.Lib.Pipeline.Value
import Idealize.ShloMosaic.Lib.ValueIdx

noncomputable section

namespace Cert.KernelIdeal.Glue

open Cert.AttnSpec Idealize.ShloMosaic Idealize.ShloMosaic.ValueIdx Cert.AttnCoords Idealize.ShloMosaic.StableHlo Idealize.ShloMosaic.TcCoe Cert.KernelIdeal Cert.KernelIdeal.Gen

variable (W : Valuation τ sig (Elt Ideal))

/-- The attention weights' reshape: head (b, h) is slab 16 b + h. -/
theorem g2_v19 (b : Fin 2) (h : Fin 16) (q k : Fin 2048) :
    StableHlo.after hostOps2 W (Proc.devRef .tc main_v19) (ix4 b h q k)
      = W (Proc.devRef .tc main_v18_0) (ix3 (bh b h) q k) := by
  have e : StableHlo.after hostOps2 W (Proc.devRef .tc main_v19)
      = shapeCast S2x16x2048x2048 (W (Proc.devRef .tc main_v18_0)) shapeCasts_S32x2048x2048_S2x16x2048x2048 := by
    after_results; rfl
  rw [e]
  refine shapeCast_apply (s := S32x2048x2048) (t := S2x16x2048x2048) _ _ _ _ ?_
  rw [Shape.rowMajor_val_three, Shape.rowMajor_val_four]
  rfl

/-- The merged context: feature e of row (b, t) is position e % 64 of head e / 64 of slab 16 b + e / 64. -/
theorem g2_v22 (b : Fin 2) (t : Fin 2048) (e : Fin 1024) :
    StableHlo.after hostOps2 W (Proc.devRef .tc main_v22) (ix2 (row b t) e)
      = W (Proc.devRef .tc main_v18_1) (ix3 (bh b (headOf e)) t (posOf e)) := by
  have e0 : StableHlo.after hostOps2 W (Proc.devRef .tc main_v22)
      = shapeCast S4096x1024
          (transpose S2x2048x16x64 [0, 2, 1, 3]
            (shapeCast S2x16x2048x64 (W (Proc.devRef .tc main_v18_1)) shapeCasts_S32x2048x64_S2x16x2048x64)
            transposes_S2x16x2048x64_S2x2048x16x64_0_2_1_3)
          shapeCasts_S2x2048x16x64_S4096x1024 := by
    after_results; rfl
  have hb := b.isLt; have ht := t.isLt; have he := e.isLt
  rw [e0]
  refine (shapeCast_apply (s := S2x2048x16x64) (t := S4096x1024) _ _ _ (ix4 b t (headOf e) (posOf e)) ?_).trans ?_
  · rw [Shape.rowMajor_val_four, Shape.rowMajor_val_two]
    show ((b.val * 2048 + t.val) * 16 + e.val / 64) * 64 + e.val % 64 = (b.val * 2048 + t.val) * 1024 + e.val
    omega
  refine (transpose_apply (s := S2x16x2048x64) (t := S2x2048x16x64) _ _ _ _ (ix4 b (headOf e) t (posOf e)) ?_).trans ?_
  · intro a
    match a with
    | ⟨0, _⟩ => rfl
    | ⟨1, _⟩ => rfl
    | ⟨2, _⟩ => rfl
    | ⟨3, _⟩ => rfl
  refine shapeCast_apply (s := S32x2048x64) (t := S2x16x2048x64) _ _ _ _ ?_
  rw [Shape.rowMajor_val_three, Shape.rowMajor_val_four]
  rfl

/-- The output weights: the narrowing to bf16 is the identity on the extended reals. -/
theorem g2_v23 (e d : Fin 1024) :
    StableHlo.after hostOps2 W (Proc.devRef .tc main_v23) (ix2 e d) = W (Proc.devRef .tc main_arg10) (ix2 e d) := by
  have e0 : StableHlo.after hostOps2 W (Proc.devRef .tc main_v23)
      = (truncf .bf16 (W (Proc.devRef .tc main_arg10)) bitsLt_bf16_f32 : FVec Ideal S1024x1024 .bf16) := by
    after_results
  rw [e0]
  rfl

/-- The output bias as a [1, 1024] row. -/
theorem g2_v24 (e : Fin 1024) :
    StableHlo.after hostOps2 W (Proc.devRef .tc main_v24) (ix2 (0 : Fin 1) e) = W (Proc.devRef .tc main_arg11) (ix1 e) := by
  have e0 : StableHlo.after hostOps2 W (Proc.devRef .tc main_v24)
      = shapeCast S1x1024 (W (Proc.devRef .tc main_arg11)) shapeCasts_S1024_S1x1024 := by
    after_results; rfl
  rw [e0]
  refine shapeCast_apply (s := S1024) (t := S1x1024) _ _ _ _ ?_
  rw [Shape.rowMajor_val_one, Shape.rowMajor_val_two]
  show e.val = 0 * 1024 + e.val
  omega

end Cert.KernelIdeal.Glue
-- ==== Proof.Glue3.lean ====
/-
  The host operation after the output kernel, read at an index over any valuation of the buffers: the output
  [4096,1024] reshaped to [2,2048,1024].
-/
import proofs.«145299_j26654567039014_2_alg».proof.Proof.Gen.KernelIdeal.Launch
import proofs.«145299_j26654567039014_2_alg».proof.Proof.Spec
import proofs.«145299_j26654567039014_2_alg».proof.Proof.Coords
import proofs.«145299_j26654567039014_2_alg».proof.Proof.GlueIdx
import Idealize.ShloMosaic.Lib.StableHlo.Run
import Idealize.ShloMosaic.Lib.Pipeline.Value
import Idealize.ShloMosaic.Lib.ValueIdx

noncomputable section

namespace Cert.KernelIdeal.Glue

open Cert.AttnSpec Idealize.ShloMosaic Idealize.ShloMosaic.ValueIdx Cert.AttnCoords Idealize.ShloMosaic.StableHlo Idealize.ShloMosaic.TcCoe Cert.KernelIdeal Cert.KernelIdeal.Gen

variable (W : Valuation τ sig (Elt Ideal))

/-- The output's reshape: token t of batch b is row (b, t). -/
theorem g3_v26 (b : Fin 2) (t : Fin 2048) (e : Fin 1024) :
    StableHlo.after hostOps3 W (Proc.devRef .tc main_v26) (ix3 b t e) = W (Proc.devRef .tc main_v25) (ix2 (row b t) e) := by
  have e0 : StableHlo.after hostOps3 W (Proc.devRef .tc main_v26)
      = shapeCast S2x2048x1024 (W (Proc.devRef .tc main_v25)) shapeCasts_S4096x1024_S2x2048x1024 := by
    after_results; rfl
  rw [e0]
  refine shapeCast_apply (s := S4096x1024) (t := S2x2048x1024) _ _ _ _ ?_
  rw [Shape.rowMajor_val_two, Shape.rowMajor_val_three]
  rfl

end Cert.KernelIdeal.Glue
-- ==== Proof.SpecBridge.lean ====
/-
  The kernels' arrays, as functions of the arrays their regions find, are the layer's specification once those arrays
  are the specification's own intermediate values in the kernels' layouts.

  The layouts: an activation [2, 2048, 1024] flattened to rows b·2048 + t; a per-head array stacked to slabs b·16 + h; the
  three projections' weights stacked to 3072 rows; the rotary tables and the mask without their unit axes.  Nothing here
  uses more than the definitions: the rotation is the same case split on both sides, dividing by √64 is multiplying by
  1/8, and a sum started from the zero word is the sum.
-/
import proofs.«145299_j26654567039014_2_alg».proof.Proof.Spec
import proofs.«145299_j26654567039014_2_alg».proof.Proof.Coords
import proofs.«145299_j26654567039014_2_alg».proof.Proof.Arr0
import proofs.«145299_j26654567039014_2_alg».proof.Proof.Arr1
import proofs.«145299_j26654567039014_2_alg».proof.Proof.Arr2

noncomputable section

namespace Cert.KernelIdeal.Bridge

open Cert.AttnSpec Cert.AttnCoords Cert.KernelIdeal Cert.KernelIdeal.ArrValue Cert.KernelIdeal.PayValue
open Idealize.ShloMosaic Idealize.ShloMosaic.ValueIdx

/-! ## The projections -/

/-- A block of 1024 columns of the fused projection, at row (b, t) and the column of position j of head h, is the head's
    entry of the projection with that block's weights and bias. -/
theorem heads_of_affine0 (x : Act) (κ : Fin 1024 → Fin 3072) (X : S4096x1024.Idx → EReal) (Wst : S3072x1024.Idx → EReal)
    (Bst : S1x3072.Idx → EReal) (W : Mat) (bias : Bias)
    (hX : ∀ (b : Fin 2) (t : Fin 2048) (d : Fin 1024), X (ix2 (row b t) d) = x (ix3 b t d))
    (hW : ∀ (e d : Fin 1024), Wst (ix2 (κ e) d) = W (ix2 e d))
    (hB : ∀ (e : Fin 1024), Bst (ix2 (0 : Fin 1) (κ e)) = bias (ix1 e))
    (b : Fin 2) (h : Fin 16) (t : Fin 2048) (j : Fin 64) :
    affine0 X Wst Bst (row b t) (κ (feat h j)) = heads x W bias b h t j := by
  unfold affine0 heads proj
  rw [hB]
  refine congrArg (· + _) (Finset.sum_congr rfl fun d _ => ?_)
  rw [hX, hW]

/-- The output projection of the merged context rows is the layer's output. -/
theorem out_of_affine2 (x : Act) (mask : Mask) (cos sin : Rot) (Wq : Mat) (bq : Bias) (Wk : Mat) (bk : Bias) (Wv : Mat)
    (bv : Bias) (Wo : Mat) (bo : Bias)
    (X2 : S4096x1024.Idx → EReal) (W2 : S1024x1024.Idx → EReal) (B2 : S1x1024.Idx → EReal)
    (hX2 : ∀ (b : Fin 2) (t : Fin 2048) (e : Fin 1024),
      X2 (ix2 (row b t) e) = merged (context (awAt x mask cos sin Wq bq Wk bk) (heads x Wv bv)) b t e)
    (hW2 : ∀ (e d : Fin 1024), W2 (ix2 e d) = Wo (ix2 e d))
    (hB2 : ∀ (e : Fin 1024), B2 (ix2 (0 : Fin 1) e) = bo (ix1 e))
    (b : Fin 2) (t : Fin 2048) (e : Fin 1024) :
    affine2 X2 W2 B2 (row b t) e = outAt x mask cos sin Wq bq Wk bk Wv bv Wo bo b t e := by
  unfold affine2 outAt
  rw [hB2]
  refine congrArg (· + _) (Finset.sum_congr rfl fun d _ => ?_)
  rw [hX2, hW2]

/-! ## The rotation -/

/-- A row of a stacked per-head array rotated against the rows of the two tables is the rotation of the per-head array. -/
theorem rot_eq_rotary (cos sin : Rot) (y : Heads) (R : S32x2048x64.Idx → EReal) (C S : S2048x32.Idx → EReal)
    (hR : ∀ (b : Fin 2) (h : Fin 16) (t : Fin 2048) (j : Fin 64), R (ix3 (bh b h) t j) = y b h t j)
    (hC : ∀ (t : Fin 2048) (i : Fin 32), C (ix2 t i) = cos (ix3 (0 : Fin 1) t i))
    (hS : ∀ (t : Fin 2048) (i : Fin 32), S (ix2 t i) = sin (ix3 (0 : Fin 1) t i))
    (b : Fin 2) (h : Fin 16) (t : Fin 2048) (j : Fin 64) :
    rot (fun j => R (ix3 (bh b h) t j)) (fun i => C (ix2 t i)) (fun i => S (ix2 t i)) j = rotary cos sin y b h t j := by
  unfold rot rotary
  by_cases hj : j.val < 32
  · rw [dif_pos hj, dif_pos hj]
    dsimp only
    rw [hR, hR, hC, hS]
    rfl
  · rw [dif_neg hj, dif_neg hj]
    dsimp only
    rw [hR, hR, hC, hS]
    rfl

/-! ## The scores and the weights -/

/-- The masked, scaled score of the stacked arrays is the specification's. -/
theorem score_eq (x : Act) (mask : Mask) (cos sin : Rot) (Wq : Mat) (bq : Bias) (Wk : Mat) (bk : Bias)
    (Q K : S32x2048x64.Idx → EReal) (C S : S2048x32.Idx → EReal) (M : S2048x2048.Idx → EReal)
    (hQ : ∀ (b : Fin 2) (h : Fin 16) (t : Fin 2048) (j : Fin 64), Q (ix3 (bh b h) t j) = heads x Wq bq b h t j)
    (hK : ∀ (b : Fin 2) (h : Fin 16) (t : Fin 2048) (j : Fin 64), K (ix3 (bh b h) t j) = heads x Wk bk b h t j)
    (hC : ∀ (t : Fin 2048) (i : Fin 32), C (ix2 t i) = cos (ix3 (0 : Fin 1) t i))
    (hS : ∀ (t : Fin 2048) (i : Fin 32), S (ix2 t i) = sin (ix3 (0 : Fin 1) t i))
    (hM : ∀ (q k : Fin 2048), M (ix2 q k) = mask (ix4 (0 : Fin 1) (0 : Fin 1) q k))
    (b : Fin 2) (h : Fin 16) (q u : Fin 2048) :
    score Q K C S M (bh b h) q u = scores mask (queries x cos sin Wq bq) (keys x cos sin Wk bk) b h q u := by
  unfold score scores queries keys
  rw [scaled_eq_mul, hM]
  refine congrArg (· + _) (congrArg (· * _) (Finset.sum_congr rfl fun j _ => ?_))
  rw [rot_eq_rotary cos sin (heads x Wq bq) Q C S hQ hC hS b h q j,
    rot_eq_rotary cos sin (heads x Wk bk) K C S hK hC hS b h u j]

/-- The row-wise weights of a row of scores are the specification's softmax of that row. -/
theorem softRow_eq_softmax (s : Fin 2 → Fin 16 → Fin 2048 → Fin 2048 → EReal) (b : Fin 2) (h : Fin 16) (q k : Fin 2048) :
    softRow (fun u => s b h q u) k = softmax s b h q k := by
  unfold softRow softmax rowSum expShift rowMax negInf
  rw [zero_eq, zero_add]

/-- The weights of the stacked arrays are the specification's attention weights. -/
theorem weight_eq (x : Act) (mask : Mask) (cos sin : Rot) (Wq : Mat) (bq : Bias) (Wk : Mat) (bk : Bias)
    (Q K : S32x2048x64.Idx → EReal) (C S : S2048x32.Idx → EReal) (M : S2048x2048.Idx → EReal)
    (hQ : ∀ (b : Fin 2) (h : Fin 16) (t : Fin 2048) (j : Fin 64), Q (ix3 (bh b h) t j) = heads x Wq bq b h t j)
    (hK : ∀ (b : Fin 2) (h : Fin 16) (t : Fin 2048) (j : Fin 64), K (ix3 (bh b h) t j) = heads x Wk bk b h t j)
    (hC : ∀ (t : Fin 2048) (i : Fin 32), C (ix2 t i) = cos (ix3 (0 : Fin 1) t i))
    (hS : ∀ (t : Fin 2048) (i : Fin 32), S (ix2 t i) = sin (ix3 (0 : Fin 1) t i))
    (hM : ∀ (q k : Fin 2048), M (ix2 q k) = mask (ix4 (0 : Fin 1) (0 : Fin 1) q k))
    (b : Fin 2) (h : Fin 16) (q k : Fin 2048) :
    weightAt Q K C S M (bh b h) q k = awAt x mask cos sin Wq bq Wk bk b h q k := by
  unfold weightAt awAt
  have hs : (fun u => score Q K C S M (bh b h) q u)
      = fun u => scores mask (queries x cos sin Wq bq) (keys x cos sin Wk bk) b h q u :=
    funext fun u => score_eq x mask cos sin Wq bq Wk bk Q K C S M hQ hK hC hS hM b h q u
  rw [hs]
  exact softRow_eq_softmax (scores mask (queries x cos sin Wq bq) (keys x cos sin Wk bk)) b h q k

/-! ## The context rows -/

/-- The context rows of the stacked arrays are the specification's. -/
theorem context_eq (x : Act) (mask : Mask) (cos sin : Rot) (Wq : Mat) (bq : Bias) (Wk : Mat) (bk : Bias) (Wv : Mat) (bv : Bias)
    (Q K Vh : S32x2048x64.Idx → EReal) (C S : S2048x32.Idx → EReal) (M : S2048x2048.Idx → EReal)
    (hQ : ∀ (b : Fin 2) (h : Fin 16) (t : Fin 2048) (j : Fin 64), Q (ix3 (bh b h) t j) = heads x Wq bq b h t j)
    (hK : ∀ (b : Fin 2) (h : Fin 16) (t : Fin 2048) (j : Fin 64), K (ix3 (bh b h) t j) = heads x Wk bk b h t j)
    (hC : ∀ (t : Fin 2048) (i : Fin 32), C (ix2 t i) = cos (ix3 (0 : Fin 1) t i))
    (hS : ∀ (t : Fin 2048) (i : Fin 32), S (ix2 t i) = sin (ix3 (0 : Fin 1) t i))
    (hM : ∀ (q k : Fin 2048), M (ix2 q k) = mask (ix4 (0 : Fin 1) (0 : Fin 1) q k))
    (hV : ∀ (b : Fin 2) (h : Fin 16) (t : Fin 2048) (j : Fin 64), Vh (ix3 (bh b h) t j) = heads x Wv bv b h t j)
    (b : Fin 2) (h : Fin 16) (q : Fin 2048) (j : Fin 64) :
    contextAt Q K Vh C S M (bh b h) q j = context (awAt x mask cos sin Wq bq Wk bk) (heads x Wv bv) b h q j := by
  unfold contextAt context
  refine Finset.sum_congr rfl fun k _ => ?_
  rw [weight_eq x mask cos sin Wq bq Wk bk Q K C S M hQ hK hC hS hM b h q k, hV]

end Cert.KernelIdeal.Bridge

end
-- ==== Proof.KernelValue.lean ====
/-
  The idealized kernel program's two results are the specification of its arguments.

  The run ends with every buffer at the last boundary's valuation; this module reads that valuation at the two
  result buffers, walking back through the boundaries. A host stretch only moves entries (a reshape keeps the
  row-major position, a transpose swaps two coordinates, the stacked weights and biases are three pieces end to
  end, a change of float format is the identity), and a kernel region's output array is a closed-form function
  of its input arrays. So: the fused projection's three outputs, read at (batch·time row, head·width column), are
  the per-head projections; moved to the per-head layout they enter the attention kernel with the reshaped cosine
  and sine tables and mask, and its outputs are the attention weights and the context; the weights, reshaped,
  are the second result; the context, moved back to rows, enters the output projection, whose output, reshaped,
  is the first result.
-/
import proofs.«145299_j26654567039014_2_alg».proof.Proof.RunI
import proofs.«145299_j26654567039014_2_alg».proof.Proof.ArgsI
import proofs.«145299_j26654567039014_2_alg».proof.Proof.Arr0
import proofs.«145299_j26654567039014_2_alg».proof.Proof.Arr1
import proofs.«145299_j26654567039014_2_alg».proof.Proof.Arr2
import proofs.«145299_j26654567039014_2_alg».proof.Proof.Glue0
import proofs.«145299_j26654567039014_2_alg».proof.Proof.Glue1
import proofs.«145299_j26654567039014_2_alg».proof.Proof.Glue2
import proofs.«145299_j26654567039014_2_alg».proof.Proof.Glue3
import proofs.«145299_j26654567039014_2_alg».proof.Proof.SpecBridge

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.AttnSpec Cert.AttnCoords Cert.KernelIdeal.ArrValue Cert.KernelIdeal.Glue Cert.KernelIdeal.Bridge

variable (m : (ℓ : Loc nD τ sig) → Buf (Elt Ideal) ℓ) (c : Dev nD)

/-! ## The arguments, as launched -/

abbrev aX : Act := m ((c.tc : Thread nD τ).loc main_arg0)
abbrev aMask : Mask := m ((c.tc : Thread nD τ).loc main_arg1)
abbrev aCos : Rot := m ((c.tc : Thread nD τ).loc main_arg2)
abbrev aSin : Rot := m ((c.tc : Thread nD τ).loc main_arg3)
abbrev aWq : Mat := m ((c.tc : Thread nD τ).loc main_arg4)
abbrev aBq : Bias := m ((c.tc : Thread nD τ).loc main_arg5)
abbrev aWk : Mat := m ((c.tc : Thread nD τ).loc main_arg6)
abbrev aBk : Bias := m ((c.tc : Thread nD τ).loc main_arg7)
abbrev aWv : Mat := m ((c.tc : Thread nD τ).loc main_arg8)
abbrev aBv : Bias := m ((c.tc : Thread nD τ).loc main_arg9)
abbrev aWo : Mat := m ((c.tc : Thread nD τ).loc main_arg10)
abbrev aBo : Bias := m ((c.tc : Thread nD τ).loc main_arg11)

/-- A buffer the first host stretch does not write and that is no array of region 0 holds its launch contents
    when region 0 is left. -/
theorem W2_untouched (r : Ref sig .tc) (h0 : r ∉ hostOps0_W) (a0 : ∀ w, Pipeline.arrRef spec0 w ≠ r) :
    W2 m c (Proc.devRef .tc r) = m ((c : Thread nD τ).loc r) :=
  (W2_of_ne m c r a0).trans ((StableHlo.after_of_writes_sub hostOps0 _ hostOps0_writes h0).trans rfl)

/-- The same up to region 1's exit. -/
theorem W4_untouched (r : Ref sig .tc) (h0 : r ∉ hostOps0_W) (a0 : ∀ w, Pipeline.arrRef spec0 w ≠ r)
    (h1 : r ∉ hostOps1_W) (n0 : r ≠ main_v18_0) (n1 : r ≠ main_v18_1) :
    W4 m c (Proc.devRef .tc r) = m ((c : Thread nD τ).loc r) :=
  (W4_of_ne m c r n0 n1).trans ((StableHlo.after_of_writes_sub hostOps1 _ hostOps1_writes h1).trans (W2_untouched m c r h0 a0))

/-! ## Region 0: the per-head projections -/

/-- What region 0 is entered with: the flattened input, the stacked weights, the stacked bias row. -/
theorem in0_x (b : Fin 2) (t : Fin 2048) (d : Fin 1024) : U1 m c main_v0 (ix2 (row b t) d) = aX m c (ix3 b t d) :=
  g0_v0 (W0 m c) b t d

/-- Region 0's three outputs at (row, head column) are the per-head projections. -/
theorem q_rows (b : Fin 2) (h : Fin 16) (t : Fin 2048) (j : Fin 64) :
    W2 m c (Proc.devRef .tc main_v5_0) (ix2 (row b t) (feat h j)) = heads (aX m c) (aWq m c) (aBq m c) b h t j :=
  (congrFun (W2_arr m c 3) _).trans <| (final0_3_apply (U1 m) c (row b t) (feat h j)).trans <|
    heads_of_affine0 (aX m c) col0 _ _ _ (aWq m c) (aBq m c) (in0_x m c) (fun e d => g0_v2_0 (W0 m c) e d) (fun e => g0_v4_0 (W0 m c) e) b h t j
theorem k_rows (b : Fin 2) (h : Fin 16) (t : Fin 2048) (j : Fin 64) :
    W2 m c (Proc.devRef .tc main_v5_1) (ix2 (row b t) (feat h j)) = heads (aX m c) (aWk m c) (aBk m c) b h t j :=
  (congrFun (W2_arr m c 4) _).trans <| (final0_4_apply (U1 m) c (row b t) (feat h j)).trans <|
    heads_of_affine0 (aX m c) col1 _ _ _ (aWk m c) (aBk m c) (in0_x m c) (fun e d => g0_v2_1 (W0 m c) e d) (fun e => g0_v4_1 (W0 m c) e) b h t j
theorem v_rows (b : Fin 2) (h : Fin 16) (t : Fin 2048) (j : Fin 64) :
    W2 m c (Proc.devRef .tc main_v5_2) (ix2 (row b t) (feat h j)) = heads (aX m c) (aWv m c) (aBv m c) b h t j :=
  (congrFun (W2_arr m c 5) _).trans <| (final0_5_apply (U1 m) c (row b t) (feat h j)).trans <|
    heads_of_affine0 (aX m c) col2 _ _ _ (aWv m c) (aBv m c) (in0_x m c) (fun e d => g0_v2_2 (W0 m c) e d) (fun e => g0_v4_2 (W0 m c) e) b h t j

/-! ## Region 1: the attention weights and the context -/

theorem in1_q (b : Fin 2) (h : Fin 16) (t : Fin 2048) (j : Fin 64) :
    U3 m c main_v8 (ix3 (bh b h) t j) = heads (aX m c) (aWq m c) (aBq m c) b h t j := (g1_v8 (W2 m c) b h t j).trans (q_rows m c b h t j)
theorem in1_k (b : Fin 2) (h : Fin 16) (t : Fin 2048) (j : Fin 64) :
    U3 m c main_v11 (ix3 (bh b h) t j) = heads (aX m c) (aWk m c) (aBk m c) b h t j := (g1_v11 (W2 m c) b h t j).trans (k_rows m c b h t j)
theorem in1_v (b : Fin 2) (h : Fin 16) (t : Fin 2048) (j : Fin 64) :
    U3 m c main_v14 (ix3 (bh b h) t j) = heads (aX m c) (aWv m c) (aBv m c) b h t j := (g1_v14 (W2 m c) b h t j).trans (v_rows m c b h t j)
theorem in1_cos (t : Fin 2048) (i : Fin 32) : U3 m c main_v15 (ix2 t i) = aCos m c (ix3 (0 : Fin 1) t i) :=
  (g1_v15 (W2 m c) t i).trans (congrFun (W2_untouched m c main_arg2 (by decide) (by decide)) _)
theorem in1_sin (t : Fin 2048) (i : Fin 32) : U3 m c main_v16 (ix2 t i) = aSin m c (ix3 (0 : Fin 1) t i) :=
  (g1_v16 (W2 m c) t i).trans (congrFun (W2_untouched m c main_arg3 (by decide) (by decide)) _)
theorem in1_mask (q k : Fin 2048) : U3 m c main_v17 (ix2 q k) = aMask m c (ix4 (0 : Fin 1) (0 : Fin 1) q k) :=
  (g1_v17 (W2 m c) q k).trans (congrFun (W2_untouched m c main_arg1 (by decide) (by decide)) _)

/-- Region 1's first output: the attention weights. -/
theorem weights_slab (b : Fin 2) (h : Fin 16) (q k : Fin 2048) :
    W4 m c (Proc.devRef .tc main_v18_0) (ix3 (bh b h) q k)
      = awAt (aX m c) (aMask m c) (aCos m c) (aSin m c) (aWq m c) (aBq m c) (aWk m c) (aBk m c) b h q k :=
  (congrFun (hF1 m c 8).symm _).trans <| (final1_8_apply (U3 m) c (bh b h) q k).trans <|
    weight_eq (aX m c) (aMask m c) (aCos m c) (aSin m c) (aWq m c) (aBq m c) (aWk m c) (aBk m c) _ _ _ _ _ (in1_q m c) (in1_k m c) (in1_cos m c) (in1_sin m c) (in1_mask m c) b h q k

/-- Region 1's second output: the context. -/
theorem context_slab (b : Fin 2) (h : Fin 16) (q : Fin 2048) (j : Fin 64) :
    W4 m c (Proc.devRef .tc main_v18_1) (ix3 (bh b h) q j)
      = context (awAt (aX m c) (aMask m c) (aCos m c) (aSin m c) (aWq m c) (aBq m c) (aWk m c) (aBk m c)) (heads (aX m c) (aWv m c) (aBv m c)) b h q j :=
  (congrFun (hF1 m c 9).symm _).trans <| (final1_9_apply (U3 m) c (bh b h) q j).trans <|
    context_eq (aX m c) (aMask m c) (aCos m c) (aSin m c) (aWq m c) (aBq m c) (aWk m c) (aBk m c) (aWv m c) (aBv m c) _ _ _ _ _ _ (in1_q m c) (in1_k m c) (in1_cos m c) (in1_sin m c) (in1_mask m c) (in1_v m c) b h q j

/-! ## The second result: the weights, reshaped -/

theorem result_aw : (W7 m c (Proc.devRef .tc main_v19) : S2x16x2048x2048.Idx → EReal)
    = specAw (aX m c) (aMask m c) (aCos m c) (aSin m c) (aWq m c) (aBq m c) (aWk m c) (aBk m c) := by
  have e7 : W7 m c (Proc.devRef .tc main_v19) = W5 m c (Proc.devRef .tc main_v19) :=
    (StableHlo.after_of_writes_sub hostOps3 _ hostOps3_writes (by decide : (main_v19 : Ref sig .tc) ∉ hostOps3_W)).trans
      (W6_of_ne m c main_v19 (by decide))
  rw [e7]
  funext i
  obtain ⟨b, h, q, k, rfl⟩ : ∃ (b : Fin 2) (h : Fin 16) (q k : Fin 2048), i = ix4 b h q k := ⟨i 0, i 1, i 2, i 3, eq_ix4 i⟩
  exact ((g2_v19 (W4 m c) b h q k).trans (weights_slab m c b h q k)).trans (specAw_ix4 ..).symm

/-! ## Region 2 and the first result -/

theorem in2_rows (b : Fin 2) (t : Fin 2048) (e : Fin 1024) :
    U5 m c main_v22 (ix2 (row b t) e)
      = merged (context (awAt (aX m c) (aMask m c) (aCos m c) (aSin m c) (aWq m c) (aBq m c) (aWk m c) (aBk m c)) (heads (aX m c) (aWv m c) (aBv m c))) b t e :=
  (g2_v22 (W4 m c) b t e).trans (context_slab m c b (headOf e) t (posOf e))
theorem in2_w (e d : Fin 1024) : U5 m c main_v23 (ix2 e d) = aWo m c (ix2 e d) :=
  (g2_v23 (W4 m c) e d).trans (congrFun (W4_untouched m c main_arg10 (by decide) (by decide) (by decide) (by decide) (by decide)) _)
theorem in2_b (e : Fin 1024) : U5 m c main_v24 (ix2 (0 : Fin 1) e) = aBo m c (ix1 e) :=
  (g2_v24 (W4 m c) e).trans (congrFun (W4_untouched m c main_arg11 (by decide) (by decide) (by decide) (by decide) (by decide)) _)

theorem out_rows (b : Fin 2) (t : Fin 2048) (e : Fin 1024) :
    W6 m c (Proc.devRef .tc main_v25) (ix2 (row b t) e)
      = outAt (aX m c) (aMask m c) (aCos m c) (aSin m c) (aWq m c) (aBq m c) (aWk m c) (aBk m c) (aWv m c) (aBv m c) (aWo m c) (aBo m c) b t e :=
  (congrFun (W6_arr m c 3) _).trans <| (final2_apply (U5 m) c (row b t) e).trans <|
    out_of_affine2 (aX m c) (aMask m c) (aCos m c) (aSin m c) (aWq m c) (aBq m c) (aWk m c) (aBk m c) (aWv m c) (aBv m c) (aWo m c) (aBo m c) _ _ _ (in2_rows m c) (in2_w m c) (in2_b m c) b t e

theorem result_out : (W7 m c (Proc.devRef .tc main_v26) : S2x2048x1024.Idx → EReal)
    = specOut (aX m c) (aMask m c) (aCos m c) (aSin m c) (aWq m c) (aBq m c) (aWk m c) (aBk m c) (aWv m c) (aBv m c) (aWo m c) (aBo m c) := by
  funext i
  obtain ⟨b, t, e, rfl⟩ : ∃ (b : Fin 2) (t : Fin 2048) (e : Fin 1024), i = ix3 b t e := ⟨i 0, i 1, i 2, eq_ix3 i⟩
  exact ((g3_v26 (W6 m c) b t e).trans (out_rows m c b t e)).trans (specOut_ix3 ..).symm

/-! ## The run, with its results named -/

/-- Every weakly fair execution of the idealized kernel program terminates, nothing faulting, with the two results
    at the specification of the launch arguments and the arguments unchanged. -/
theorem run_valued (ρ : Dev nD → PrngReg) :
    θ_run defs (onTc (τ := τ) (main (F := Ideal))) ⟨m, fun _ => 0, ρ⟩ (fun r => ∀ c : Dev nD,
      r.2.mem ((c.tc : Thread nD τ).loc main_v26) = specOut (aX m c) (aMask m c) (aCos m c) (aSin m c) (aWq m c) (aBq m c) (aWk m c) (aBk m c) (aWv m c) (aBv m c) (aWo m c) (aBo m c)
      ∧ r.2.mem ((c.tc : Thread nD τ).loc main_v19) = specAw (aX m c) (aMask m c) (aCos m c) (aSin m c) (aWq m c) (aBq m c) (aWk m c) (aBk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v26 (by decide))).trans (result_out m c),
     (h c _ (mem_uc main_v19 (by decide))).trans (result_aw m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c),
     (h c _ (mem_uc main_arg9 (by decide))).trans (W7_main_arg9 m c),
     (h c _ (mem_uc main_arg10 (by decide))).trans (W7_main_arg10 m c),
     (h c _ (mem_uc main_arg11 (by decide))).trans (W7_main_arg11 m c)⟩)
    (run_all m ρ)

end Cert.KernelIdeal.Hand

end
-- ==== Proof.lean ====
/-
  The certificate's five claims for the attention module written as three kernels (a fused query/key/value
  projection, rotary attention per head and block of query rows, the output projection) against its plain
  reference.

  Frames. Each program's run is decomposed at its boundaries: between two items every unscoped buffer is held at
  a known valuation, a host stretch rewriting the buffers it writes and a kernel region leaving in its output
  arrays what its grid points wrote back. No item writes an argument, so the last valuation read against the
  final state gives the arguments as launched. The reference, a straight line of host operations, runs by its
  own composed term.

  Equality of results on the extended reals. Both programs compute the same function of the arguments, entry by
  entry: projections x·Wᵀ + b, the rotary rotation of queries and keys by the cosine and sine tables, scores
  q·k scaled by 1/8 (the kernel multiplies by the word for 0.125, the reference divides by the square root of
  64) plus the mask, the row softmax exp(s − max s) / Σ exp(s − max s), the weights times the values, and the
  output projection. The kernels' tilings, the stacked weights of the fused projection, the changes of float
  format and the moves between the [batch·time, features] and [batch·head, time, width] layouts change which
  buffer an entry sits in, never its value; no step uses distributivity or cancellation, so infinities are no
  exception and the precondition is not opened.
-/
import proofs.«145299_j26654567039014_2_alg».proof.Defs
import proofs.«145299_j26654567039014_2_alg».proof.Proof.Gen.Kernel
import proofs.«145299_j26654567039014_2_alg».proof.Proof.Gen.KernelIdeal
import proofs.«145299_j26654567039014_2_alg».proof.Proof.Gen.ReferenceIdeal
import proofs.«145299_j26654567039014_2_alg».proof.Proof.Gen.ReferenceIdeal.Run
import proofs.«145299_j26654567039014_2_alg».proof.Proof.Gen.ReferenceIdeal.Read
import proofs.«145299_j26654567039014_2_alg».proof.Proof.Gen.Pre_finite_inputs
import proofs.«145299_j26654567039014_2_alg».proof.Proof.ArgsB
import proofs.«145299_j26654567039014_2_alg».proof.Proof.ArgsI
import proofs.«145299_j26654567039014_2_alg».proof.Proof.RefIsSpec
import proofs.«145299_j26654567039014_2_alg».proof.Proof.KernelValue
import Idealize.ShloMosaic.Adequacy
import Idealize.ShloMosaic.Init

noncomputable section

namespace Cert.Proof

open Idealize.ShloMosaic Idealize.SL.Sem

/-- The word-level kernel program runs to the end, nothing faulting, its arguments unchanged. -/
theorem frame_kernel : Cert.frame_Kernel (hKernel := Cert.Kernel.Gen.facts) (hPre_finite_inputs := Cert.Pre_finite_inputs.Gen.facts) :=
  fun m ρ _ => Cert.Kernel.Hand.frame_all m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame_all m ρ

/-- The reference runs by its composed term; dropping the two results leaves the arguments unchanged. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs, run from memories agreeing on the arguments, end with both results at ONE function of
    the arguments, the specification: the kernel program by the values its three regions and host stretches leave,
    the reference by its composed term read operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run_valued m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    rw [Cert.ReferenceIdeal.RefValue.res_out_eq m' c, h0, h1, h2, h3, h4, h5, h6, h7, h8, h9, h10, h11]
  · obtain ⟨h0, h1, h2, h3, h4, h5, h6, h7, h8, h9, h10, h11⟩ := hagree c
    rw [Cert.ReferenceIdeal.RefValue.res_aw_eq m' c, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
